-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v120)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v120) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v127) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x96 : Shape := ⟨2, ![50000, 96]⟩
abbrev S2x800000 : Shape := ⟨2, ![2, 800000]⟩
abbrev S800000 : Shape := ⟨1, ![800000]⟩
abbrev S50000 : Shape := ⟨1, ![50000]⟩
abbrev S64x30 : Shape := ⟨2, ![64, 30]⟩
abbrev S96x96 : Shape := ⟨2, ![96, 96]⟩
abbrev S96 : Shape := ⟨1, ![96]⟩
abbrev S30x96 : Shape := ⟨2, ![30, 96]⟩
abbrev S192x10 : Shape := ⟨2, ![192, 10]⟩
abbrev S10 : Shape := ⟨1, ![10]⟩
abbrev S_ : Shape := ⟨0, ![]⟩

class Facts : Prop where
  bcast_S_S50000x96 : S_.BroadcastsInDim S50000x96 (![] : Fin 0 → Fin S50000x96.rank)
  reducesTo_S50000x96_S_d0_1 : S50000x96.ReducesTo [0, 1] S_
  h_S_ : 0 < S_.numel
  bcast_S_S800000 : S_.BroadcastsInDim S800000 (![] : Fin 0 → Fin S800000.rank)
  reducesTo_S800000_S_d0 : S800000.ReducesTo [0] S_
  bcast_S_S64x30 : S_.BroadcastsInDim S64x30 (![] : Fin 0 → Fin S64x30.rank)
  reducesTo_S64x30_S_d0_1 : S64x30.ReducesTo [0, 1] S_
  bcast_S_S96x96 : S_.BroadcastsInDim S96x96 (![] : Fin 0 → Fin S96x96.rank)
  reducesTo_S96x96_S_d0_1 : S96x96.ReducesTo [0, 1] S_
  bcast_S_S96 : S_.BroadcastsInDim S96 (![] : Fin 0 → Fin S96.rank)
  reducesTo_S96_S_d0 : S96.ReducesTo [0] S_
  bcast_S_S30x96 : S_.BroadcastsInDim S30x96 (![] : Fin 0 → Fin S30x96.rank)
  reducesTo_S30x96_S_d0_1 : S30x96.ReducesTo [0, 1] S_
  bcast_S_S192x10 : S_.BroadcastsInDim S192x10 (![] : Fin 0 → Fin S192x10.rank)
  reducesTo_S192x10_S_d0_1 : S192x10.ReducesTo [0, 1] S_
  bcast_S_S10 : S_.BroadcastsInDim S10 (![] : Fin 0 → Fin S10.rank)
  reducesTo_S10_S_d0 : S10.ReducesTo [0] S_

variable [Facts]

def fn_part3 {F : FTy → Type} [FloatOps F] (main_v48 : IVec S_ 1) (main_v49 : FVec F S10 .f32) (main_v50 : FVec F S10 .f32) : IVec S_ 1 :=
  let main_v51 : IVec S10 1 := cmpf .olt main_v49 main_v50
  let main_c_19 : IVec S_ 1 := constantI S_ 1 1#1
  let main_v52 : IVec S_ 1 := (fun x v => Host.reduce IntOp.andi x v reducesTo_S10_S_d0 h_S_) main_v51 main_c_19
  let main_v53 : IVec S_ 1 := andi main_v48 main_v52
  main_v53

def fn_part2 {F : FTy → Type} [FloatOps F] (main_arg9 : FVec F S30x96 .f32) (main_arg10 : FVec F S96 .f32) (main_arg11 : FVec F S192x10 .f32) (main_arg12 : FVec F S10 .f32) (main_v33 : IVec S_ 1) : IVec S_ 1 :=
  let main_v34 : FVec F S30x96 .f32 := Host.absf main_arg9
  let main_cst_12 : FVec F S_ .f32 := constant S_ .f32 0x7F800000#32
  let main_v35 : FVec F S30x96 .f32 := broadcastInDim S30x96 ![] bcast_S_S30x96 main_cst_12
  let main_v36 : IVec S30x96 1 := cmpf .olt main_v34 main_v35
  let main_c_13 : IVec S_ 1 := constantI S_ 1 1#1
  let main_v37 : IVec S_ 1 := (fun x v => Host.reduce IntOp.andi x v reducesTo_S30x96_S_d0_1 h_S_) main_v36 main_c_13
  let main_v38 : IVec S_ 1 := andi main_v33 main_v37
  let main_v39 : FVec F S96 .f32 := Host.absf main_arg10
  let main_cst_14 : FVec F S_ .f32 := constant S_ .f32 0x7F800000#32
  let main_v40 : FVec F S96 .f32 := broadcastInDim S96 ![] bcast_S_S96 main_cst_14
  let main_v41 : IVec S96 1 := cmpf .olt main_v39 main_v40
  let main_c_15 : IVec S_ 1 := constantI S_ 1 1#1
  let main_v42 : IVec S_ 1 := (fun x v => Host.reduce IntOp.andi x v reducesTo_S96_S_d0 h_S_) main_v41 main_c_15
  let main_v43 : IVec S_ 1 := andi main_v38 main_v42
  let main_v44 : FVec F S192x10 .f32 := Host.absf main_arg11
  let main_cst_16 : FVec F S_ .f32 := constant S_ .f32 0x7F800000#32
  let main_v45 : FVec F S192x10 .f32 := broadcastInDim S192x10 ![] bcast_S_S192x10 main_cst_16
  let main_v46 : IVec S192x10 1 := cmpf .olt main_v44 main_v45
  let main_c_17 : IVec S_ 1 := constantI S_ 1 1#1
  let main_v47 : IVec S_ 1 := (fun x v => Host.reduce IntOp.andi x v reducesTo_S192x10_S_d0_1 h_S_) main_v46 main_c_17
  let main_v48 : IVec S_ 1 := andi main_v43 main_v47
  let main_v49 : FVec F S10 .f32 := Host.absf main_arg12
  let main_cst_18 : FVec F S_ .f32 := constant S_ .f32 0x7F800000#32
  let main_v50 : FVec F S10 .f32 := broadcastInDim S10 ![] bcast_S_S10 main_cst_18
  fn_part3 (F := F) main_v48 main_v49 main_v50

def fn_part1 {F : FTy → Type} [FloatOps F] (main_arg6 : FVec F S96 .f32) (main_arg7 : FVec F S96x96 .f32) (main_arg8 : FVec F S96 .f32) (main_arg9 : FVec F S30x96 .f32) (main_arg10 : FVec F S96 .f32) (main_arg11 : FVec F S192x10 .f32) (main_arg12 : FVec F S10 .f32) (main_v13 : IVec S_ 1) (main_v16 : IVec S96x96 1) : IVec S_ 1 :=
  let main_c_5 : IVec S_ 1 := constantI S_ 1 1#1
  let main_v17 : IVec S_ 1 := (fun x v => Host.reduce IntOp.andi x v reducesTo_S96x96_S_d0_1 h_S_) main_v16 main_c_5
  let main_v18 : IVec S_ 1 := andi main_v13 main_v17
  let main_v19 : FVec F S96 .f32 := Host.absf main_arg6
  let main_cst_6 : FVec F S_ .f32 := constant S_ .f32 0x7F800000#32
  let main_v20 : FVec F S96 .f32 := broadcastInDim S96 ![] bcast_S_S96 main_cst_6
  let main_v21 : IVec S96 1 := cmpf .olt main_v19 main_v20
  let main_c_7 : IVec S_ 1 := constantI S_ 1 1#1
  let main_v22 : IVec S_ 1 := (fun x v => Host.reduce IntOp.andi x v reducesTo_S96_S_d0 h_S_) main_v21 main_c_7
  let main_v23 : IVec S_ 1 := andi main_v18 main_v22
  let main_v24 : FVec F S96x96 .f32 := Host.absf main_arg7
  let main_cst_8 : FVec F S_ .f32 := constant S_ .f32 0x7F800000#32
  let main_v25 : FVec F S96x96 .f32 := broadcastInDim S96x96 ![] bcast_S_S96x96 main_cst_8
  let main_v26 : IVec S96x96 1 := cmpf .olt main_v24 main_v25
  let main_c_9 : IVec S_ 1 := constantI S_ 1 1#1
  let main_v27 : IVec S_ 1 := (fun x v => Host.reduce IntOp.andi x v reducesTo_S96x96_S_d0_1 h_S_) main_v26 main_c_9
  let main_v28 : IVec S_ 1 := andi main_v23 main_v27
  let main_v29 : FVec F S96 .f32 := Host.absf main_arg8
  let main_cst_10 : FVec F S_ .f32 := constant S_ .f32 0x7F800000#32
  let main_v30 : FVec F S96 .f32 := broadcastInDim S96 ![] bcast_S_S96 main_cst_10
  let main_v31 : IVec S96 1 := cmpf .olt main_v29 main_v30
  let main_c_11 : IVec S_ 1 := constantI S_ 1 1#1
  let main_v32 : IVec S_ 1 := (fun x v => Host.reduce IntOp.andi x v reducesTo_S96_S_d0 h_S_) main_v31 main_c_11
  let main_v33 : IVec S_ 1 := andi main_v28 main_v32
  fn_part2 (F := F) main_arg9 main_arg10 main_arg11 main_arg12 main_v33

def fn {F : FTy → Type} [FloatOps F] (main_arg0 : FVec F S50000x96 .f32) (main_arg1 : IVec S2x800000 32) (main_arg2 : FVec F S800000 .f32) (main_arg3 : IVec S50000 32) (main_arg4 : FVec F S64x30 .f32) (main_arg5 : FVec F S96x96 .f32) (main_arg6 : FVec F S96 .f32) (main_arg7 : FVec F S96x96 .f32) (main_arg8 : FVec F S96 .f32) (main_arg9 : FVec F S30x96 .f32) (main_arg10 : FVec F S96 .f32) (main_arg11 : FVec F S192x10 .f32) (main_arg12 : FVec F S10 .f32) : IVec S_ 1 :=
  let main_v0 : FVec F S50000x96 .f32 := Host.absf main_arg0
  let main_cst : FVec F S_ .f32 := constant S_ .f32 0x7F800000#32
  let main_v1 : FVec F S50000x96 .f32 := broadcastInDim S50000x96 ![] bcast_S_S50000x96 main_cst
  let main_v2 : IVec S50000x96 1 := cmpf .olt main_v0 main_v1
  let main_c : IVec S_ 1 := constantI S_ 1 1#1
  let main_v3 : IVec S_ 1 := (fun x v => Host.reduce IntOp.andi x v reducesTo_S50000x96_S_d0_1 h_S_) main_v2 main_c
  let main_v4 : FVec F S800000 .f32 := Host.absf main_arg2
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S64x30 .f32 := Host.absf main_arg4
  let main_cst_2 : FVec F S_ .f32 := constant S_ .f32 0x7F800000#32
  let main_v10 : FVec F S64x30 .f32 := broadcastInDim S64x30 ![] bcast_S_S64x30 main_cst_2
  let main_v11 : IVec S64x30 1 := cmpf .olt main_v9 main_v10
  let main_c_3 : IVec S_ 1 := constantI S_ 1 1#1
  let main_v12 : IVec S_ 1 := (fun x v => Host.reduce IntOp.andi x v reducesTo_S64x30_S_d0_1 h_S_) main_v11 main_c_3
  let main_v13 : IVec S_ 1 := andi main_v8 main_v12
  let main_v14 : FVec F S96x96 .f32 := Host.absf main_arg5
  let main_cst_4 : FVec F S_ .f32 := constant S_ .f32 0x7F800000#32
  let main_v15 : FVec F S96x96 .f32 := broadcastInDim S96x96 ![] bcast_S_S96x96 main_cst_4
  let main_v16 : IVec S96x96 1 := cmpf .olt main_v14 main_v15
  fn_part1 (F := F) main_arg6 main_arg7 main_arg8 main_arg9 main_arg10 main_arg11 main_arg12 main_v13 main_v16
-- ==== Kernel.lean ====
abbrev S50000x96 : Shape := ⟨2, ![50000, 96]⟩
abbrev S2x800000 : Shape := ⟨2, ![2, 800000]⟩
abbrev S800000 : Shape := ⟨1, ![800000]⟩
abbrev S50000 : Shape := ⟨1, ![50000]⟩
abbrev S64x30 : Shape := ⟨2, ![64, 30]⟩
abbrev S96x96 : Shape := ⟨2, ![96, 96]⟩
abbrev S96 : Shape := ⟨1, ![96]⟩
abbrev S30x96 : Shape := ⟨2, ![30, 96]⟩
abbrev S192x10 : Shape := ⟨2, ![192, 10]⟩
abbrev S10 : Shape := ⟨1, ![10]⟩
abbrev S1x800000 : Shape := ⟨2, ![1, 800000]⟩
abbrev S10000x96 : Shape := ⟨2, ![10000, 96]⟩
abbrev S_ : Shape := ⟨0, ![]⟩
abbrev S800000x1 : Shape := ⟨2, ![800000, 1]⟩
abbrev S800000x96 : Shape := ⟨2, ![800000, 96]⟩
abbrev S50000x1 : Shape := ⟨2, ![50000, 1]⟩
abbrev S1x96 : Shape := ⟨2, ![1, 96]⟩
abbrev S5000x96 : Shape := ⟨2, ![5000, 96]⟩
abbrev S64x96 : Shape := ⟨2, ![64, 96]⟩
abbrev S64 : Shape := ⟨1, ![64]⟩
abbrev S64x1 : Shape := ⟨2, ![64, 1]⟩
abbrev S96x10 : Shape := ⟨2, ![96, 10]⟩
abbrev S1x10 : Shape := ⟨2, ![1, 10]⟩
abbrev S64x10 : Shape := ⟨2, ![64, 10]⟩

abbrev nBuf : Space → Nat
  | .hbm => 180
  | .vmem => 32
  | .smem => 0
  | _ => 0

abbrev hbmTy0_0 (i : Nat) : BufTy := match i % 128 with
  | 0 => ⟨S50000x96, .f32⟩
  | 1 => ⟨S2x800000, .i32⟩
  | 2 => ⟨S800000, .f32⟩
  | 3 => ⟨S50000, .i32⟩
  | 4 => ⟨S64x30, .f32⟩
  | 5 => ⟨S96x96, .f32⟩
  | 6 => ⟨S96, .f32⟩
  | 7 => ⟨S96x96, .f32⟩
  | 8 => ⟨S96, .f32⟩
  | 9 => ⟨S30x96, .f32⟩
  | 10 => ⟨S96, .f32⟩
  | 11 => ⟨S192x10, .f32⟩
  | 12 => ⟨S10, .f32⟩
  | 13 => ⟨S1x800000, .i32⟩
  | 14 => ⟨S800000, .i32⟩
  | 15 => ⟨S1x800000, .i32⟩
  | 16 => ⟨S800000, .i32⟩
  | 17 => ⟨S50000x96, .bf16⟩
  | 18 => ⟨S96x96, .bf16⟩
  | 19 => ⟨S50000x96, .f32⟩
  | 20 => ⟨S_, .f32⟩
  | 21 => ⟨S50000, .f32⟩
  | 22 => ⟨S800000x1, .i32⟩
  | 23 => ⟨S50000, .f32⟩
  | 24 => ⟨S_, .f32⟩
  | 25 => ⟨S50000, .f32⟩
  | 26 => ⟨S50000, .f32⟩
  | 27 => ⟨S50000, .f32⟩
  | 28 => ⟨S_, .i32⟩
  | 29 => ⟨S800000, .i32⟩
  | 30 => ⟨S800000, .i1⟩
  | 31 => ⟨S_, .i32⟩
  | 32 => ⟨S800000, .i32⟩
  | 33 => ⟨S800000, .i32⟩
  | 34 => ⟨S800000, .i32⟩
  | 35 => ⟨S800000x1, .i32⟩
  | 36 => ⟨S800000, .f32⟩
  | 37 => ⟨S800000, .f32⟩
  | 38 => ⟨S_, .i32⟩
  | 39 => ⟨S800000, .i32⟩
  | 40 => ⟨S800000, .i1⟩
  | 41 => ⟨S_, .i32⟩
  | 42 => ⟨S800000, .i32⟩
  | 43 => ⟨S800000, .i32⟩
  | 44 => ⟨S800000, .i32⟩
  | 45 => ⟨S800000x1, .i32⟩
  | 46 => ⟨S800000, .f32⟩
  | 47 => ⟨S800000, .f32⟩
  | 48 => ⟨S_, .i32⟩
  | 49 => ⟨S800000, .i32⟩
  | 50 => ⟨S800000, .i1⟩
  | 51 => ⟨S_, .i32⟩
  | 52 => ⟨S800000, .i32⟩
  | 53 => ⟨S800000, .i32⟩
  | 54 => ⟨S800000, .i32⟩
  | 55 => ⟨S800000x1, .i32⟩
  | 56 => ⟨S800000x96, .f32⟩
  | 57 => ⟨S800000x1, .f32⟩
  | 58 => ⟨S800000x96, .f32⟩
  | 59 => ⟨S800000x96, .f32⟩
  | 60 => ⟨S_, .f32⟩
  | 61 => ⟨S50000x96, .f32⟩
  | 62 => ⟨S800000x1, .i32⟩
  | 63 => ⟨S50000x96, .f32⟩
  | 64 => ⟨S50000, .f32⟩
  | 65 => ⟨S50000x1, .f32⟩
  | 66 => ⟨S50000x96, .f32⟩
  | 67 => ⟨S50000x96, .f32⟩
  | 68 => ⟨S1x96, .f32⟩
  | 69 => ⟨S50000x96, .f32⟩
  | 70 => ⟨S50000x96, .bf16⟩
  | 71 => ⟨S96x96, .bf16⟩
  | 72 => ⟨S50000x96, .f32⟩
  | 73 => ⟨S_, .f32⟩
  | 74 => ⟨S50000, .f32⟩
  | 75 => ⟨S800000x1, .i32⟩
  | 76 => ⟨S50000, .f32⟩
  | 77 => ⟨S_, .f32⟩
  | 78 => ⟨S50000, .f32⟩
  | 79 => ⟨S50000, .f32⟩
  | 80 => ⟨S50000, .f32⟩
  | 81 => ⟨S_, .i32⟩
  | 82 => ⟨S800000, .i32⟩
  | 83 => ⟨S800000, .i1⟩
  | 84 => ⟨S_, .i32⟩
  | 85 => ⟨S800000, .i32⟩
  | 86 => ⟨S800000, .i32⟩
  | 87 => ⟨S800000, .i32⟩
  | 88 => ⟨S800000x1, .i32⟩
  | 89 => ⟨S800000, .f32⟩
  | 90 => ⟨S800000, .f32⟩
  | 91 => ⟨S_, .i32⟩
  | 92 => ⟨S800000, .i32⟩
  | 93 => ⟨S800000, .i1⟩
  | 94 => ⟨S_, .i32⟩
  | 95 => ⟨S800000, .i32⟩
  | 96 => ⟨S800000, .i32⟩
  | 97 => ⟨S800000, .i32⟩
  | 98 => ⟨S800000x1, .i32⟩
  | 99 => ⟨S800000, .f32⟩
  | 100 => ⟨S800000, .f32⟩
  | 101 => ⟨S_, .i32⟩
  | 102 => ⟨S800000, .i32⟩
  | 103 => ⟨S800000, .i1⟩
  | 104 => ⟨S_, .i32⟩
  | 105 => ⟨S800000, .i32⟩
  | 106 => ⟨S800000, .i32⟩
  | 107 => ⟨S800000, .i32⟩
  | 108 => ⟨S800000x1, .i32⟩
  | 109 => ⟨S800000x96, .f32⟩
  | 110 => ⟨S800000x1, .f32⟩
  | 111 => ⟨S800000x96, .f32⟩
  | 112 => ⟨S800000x96, .f32⟩
  | 113 => ⟨S_, .f32⟩
  | 114 => ⟨S50000x96, .f32⟩
  | 115 => ⟨S800000x1, .i32⟩
  | 116 => ⟨S50000x96, .f32⟩
  | 117 => ⟨S50000, .f32⟩
  | 118 => ⟨S50000x1, .f32⟩
  | 119 => ⟨S50000x96, .f32⟩
  | 120 => ⟨S50000x96, .f32⟩
  | 121 => ⟨S1x96, .f32⟩
  | 122 => ⟨S50000x96, .f32⟩
  | 123 => ⟨S_, .f32⟩
  | 124 => ⟨S64x96, .f32⟩
  | 125 => ⟨S50000x1, .i32⟩
  | 126 => ⟨S64x96, .f32⟩
  | 127 => ⟨S_, .f32⟩
  | _ => ⟨S50000x96, .f32⟩

abbrev hbmTy0_1 (i : Nat) : BufTy := match i % 128 with
  | 0 => ⟨S50000, .f32⟩
  | 1 => ⟨S_, .f32⟩
  | 2 => ⟨S64, .f32⟩
  | 3 => ⟨S50000x1, .i32⟩
  | 4 => ⟨S64, .f32⟩
  | 5 => ⟨S_, .f32⟩
  | 6 => ⟨S64, .f32⟩
  | 7 => ⟨S64, .f32⟩
  | 8 => ⟨S64x1, .f32⟩
  | 9 => ⟨S64x96, .f32⟩
  | 10 => ⟨S64x96, .f32⟩
  | 11 => ⟨S50000, .i32⟩
  | 12 => ⟨S_, .i32⟩
  | 13 => ⟨S64, .i32⟩
  | 14 => ⟨S50000x1, .i32⟩
  | 15 => ⟨S64, .i32⟩
  | 16 => ⟨S_, .i32⟩
  | 17 => ⟨S_, .i32⟩
  | 18 => ⟨S_, .i32⟩
  | 19 => ⟨S_, .i1⟩
  | 20 => ⟨S_, .i32⟩
  | 21 => ⟨S_, .i32⟩
  | 22 => ⟨S64, .i32⟩
  | 23 => ⟨S64, .i32⟩
  | 24 => ⟨S_, .i32⟩
  | 25 => ⟨S64, .i32⟩
  | 26 => ⟨S64, .i1⟩
  | 27 => ⟨S_, .i32⟩
  | 28 => ⟨S64, .i32⟩
  | 29 => ⟨S64, .i1⟩
  | 30 => ⟨S_, .i32⟩
  | 31 => ⟨S_, .i1⟩
  | 32 => ⟨S64, .i1⟩
  | 33 => ⟨S64, .i1⟩
  | 34 => ⟨S64, .i1⟩
  | 35 => ⟨S64, .i32⟩
  | 36 => ⟨S64, .i32⟩
  | 37 => ⟨S64, .i32⟩
  | 38 => ⟨S_, .i32⟩
  | 39 => ⟨S64, .i32⟩
  | 40 => ⟨S64, .i1⟩
  | 41 => ⟨S_, .i32⟩
  | 42 => ⟨S64, .i32⟩
  | 43 => ⟨S64, .i32⟩
  | 44 => ⟨S64, .i32⟩
  | 45 => ⟨S64x1, .i32⟩
  | 46 => ⟨S64x30, .f32⟩
  | 47 => ⟨S96x10, .f32⟩
  | 48 => ⟨S96x10, .f32⟩
  | 49 => ⟨S1x96, .f32⟩
  | 50 => ⟨S1x10, .f32⟩
  | 51 => ⟨S64x10, .f32⟩
  | _ => ⟨S50000x96, .f32⟩

abbrev hbmTy (i : Nat) : BufTy := match i / 128 with
  | 0 => hbmTy0_0 i
  | 1 => hbmTy0_1 i
  | _ => ⟨S50000x96, .f32⟩

abbrev bufTy : (tb : Table) → Fin (tcTables nBuf tb) → BufTy
  | .hbm, ⟨i, _⟩ => hbmTy i
  | .local _ .vmem, ⟨0, _⟩ => ⟨S10000x96, .bf16⟩
  | .local _ .vmem, ⟨1, _⟩ => ⟨S10000x96, .bf16⟩
  | .local _ .vmem, ⟨2, _⟩ => ⟨S96x96, .bf16⟩
  | .local _ .vmem, ⟨3, _⟩ => ⟨S10000x96, .f32⟩
  | .local _ .vmem, ⟨4, _⟩ => ⟨S10000x96, .f32⟩
  | .local _ .vmem, ⟨5, _⟩ => ⟨S5000x96, .f32⟩
  | .local _ .vmem, ⟨6, _⟩ => ⟨S5000x96, .f32⟩
  | .local _ .vmem, ⟨7, _⟩ => ⟨S5000x96, .f32⟩
  | .local _ .vmem, ⟨8, _⟩ => ⟨S5000x96, .f32⟩
  | .local _ .vmem, ⟨9, _⟩ => ⟨S1x96, .f32⟩
  | .local _ .vmem, ⟨10, _⟩ => ⟨S5000x96, .f32⟩
  | .local _ .vmem, ⟨11, _⟩ => ⟨S5000x96, .f32⟩
  | .local _ .vmem, ⟨12, _⟩ => ⟨S10000x96, .bf16⟩
  | .local _ .vmem, ⟨13, _⟩ => ⟨S10000x96, .bf16⟩
  | .local _ .vmem, ⟨14, _⟩ => ⟨S96x96, .bf16⟩
  | .local _ .vmem, ⟨15, _⟩ => ⟨S10000x96, .f32⟩
  | .local _ .vmem, ⟨16, _⟩ => ⟨S10000x96, .f32⟩
  | .local _ .vmem, ⟨17, _⟩ => ⟨S5000x96, .f32⟩
  | .local _ .vmem, ⟨18, _⟩ => ⟨S5000x96, .f32⟩
  | .local _ .vmem, ⟨19, _⟩ => ⟨S5000x96, .f32⟩
  | .local _ .vmem, ⟨20, _⟩ => ⟨S5000x96, .f32⟩
  | .local _ .vmem, ⟨21, _⟩ => ⟨S1x96, .f32⟩
  | .local _ .vmem, ⟨22, _⟩ => ⟨S5000x96, .f32⟩
  | .local _ .vmem, ⟨23, _⟩ => ⟨S5000x96, .f32⟩
  | .local _ .vmem, ⟨24, _⟩ => ⟨S64x96, .f32⟩
  | .local _ .vmem, ⟨25, _⟩ => ⟨S64x30, .f32⟩
  | .local _ .vmem, ⟨26, _⟩ => ⟨S30x96, .f32⟩
  | .local _ .vmem, ⟨27, _⟩ => ⟨S1x96, .f32⟩
  | .local _ .vmem, ⟨28, _⟩ => ⟨S96x10, .f32⟩
  | .local _ .vmem, ⟨29, _⟩ => ⟨S96x10, .f32⟩
  | .local _ .vmem, ⟨30, _⟩ => ⟨S1x10, .f32⟩
  | .local _ .vmem, ⟨31, _⟩ => ⟨S64x10, .f32⟩
  | _, _ => ⟨S50000x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst_0 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_c : Ref sig .tc := ⟨.hbm, 28, rfl⟩
abbrev main_v13 : Ref sig .tc := ⟨.hbm, 29, rfl⟩
abbrev main_v14 : Ref sig .tc := ⟨.hbm, 30, rfl⟩
abbrev main_c_1 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_c_2 : Ref sig .tc := ⟨.hbm, 38, rfl⟩
abbrev main_v21 : Ref sig .tc := ⟨.hbm, 39, rfl⟩
abbrev main_v22 : Ref sig .tc := ⟨.hbm, 40, rfl⟩
abbrev main_c_3 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_c_4 : Ref sig .tc := ⟨.hbm, 48, rfl⟩
abbrev main_v29 : Ref sig .tc := ⟨.hbm, 49, rfl⟩
abbrev main_v30 : Ref sig .tc := ⟨.hbm, 50, rfl⟩
abbrev main_c_5 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_6 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_cst_7 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_cst_8 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_c_9 : Ref sig .tc := ⟨.hbm, 81, rfl⟩
abbrev main_v57 : Ref sig .tc := ⟨.hbm, 82, rfl⟩
abbrev main_v58 : Ref sig .tc := ⟨.hbm, 83, rfl⟩
abbrev main_c_10 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_c_11 : Ref sig .tc := ⟨.hbm, 91, rfl⟩
abbrev main_v65 : Ref sig .tc := ⟨.hbm, 92, rfl⟩
abbrev main_v66 : Ref sig .tc := ⟨.hbm, 93, rfl⟩
abbrev main_c_12 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_c_13 : Ref sig .tc := ⟨.hbm, 101, rfl⟩
abbrev main_v73 : Ref sig .tc := ⟨.hbm, 102, rfl⟩
abbrev main_v74 : Ref sig .tc := ⟨.hbm, 103, rfl⟩
abbrev main_c_14 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_cst_15 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_cst_16 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_cst_17 : Ref sig .tc := ⟨.hbm, 127, rfl⟩
abbrev main_v95 : Ref sig .tc := ⟨.hbm, 128, rfl⟩
abbrev main_cst_18 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_cst_19 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_c_20 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_c_21 : Ref sig .tc := ⟨.hbm, 144, rfl⟩
abbrev main_call0_v0 : Ref sig .tc := ⟨.hbm, 145, rfl⟩
abbrev main_call0_c : Ref sig .tc := ⟨.hbm, 146, rfl⟩
abbrev main_call0_v1 : Ref sig .tc := ⟨.hbm, 147, rfl⟩
abbrev main_call0_c_0 : Ref sig .tc := ⟨.hbm, 148, rfl⟩
abbrev main_call0_v2 : Ref sig .tc := ⟨.hbm, 149, rfl⟩
abbrev main_call0_v3 : Ref sig .tc := ⟨.hbm, 150, rfl⟩
abbrev main_call0_v4 : Ref sig .tc := ⟨.hbm, 151, rfl⟩
abbrev main_call0_c_1 : Ref sig .tc := ⟨.hbm, 152, rfl⟩
abbrev main_call0_v5 : Ref sig .tc := ⟨.hbm, 153, rfl⟩
abbrev main_call0_v6 : Ref sig .tc := ⟨.hbm, 154, rfl⟩
abbrev main_call0_c_2 : Ref sig .tc := ⟨.hbm, 155, rfl⟩
abbrev main_call0_v7 : Ref sig .tc := ⟨.hbm, 156, rfl⟩
abbrev main_call0_v8 : Ref sig .tc := ⟨.hbm, 157, rfl⟩
abbrev main_call0_c_3 : Ref sig .tc := ⟨.hbm, 158, rfl⟩
abbrev main_call0_v9 : Ref sig .tc := ⟨.hbm, 159, rfl⟩
abbrev main_call0_v10 : Ref sig .tc := ⟨.hbm, 160, rfl⟩
abbrev main_call0_v11 : Ref sig .tc := ⟨.hbm, 161, rfl⟩
abbrev main_call0_v12 : Ref sig .tc := ⟨.hbm, 162, rfl⟩
abbrev main_call0_v13 : Ref sig .tc := ⟨.hbm, 163, rfl⟩
abbrev main_call0_v14 : Ref sig .tc := ⟨.hbm, 164, rfl⟩
abbrev main_v108 : Ref sig .tc := ⟨.hbm, 165, rfl⟩
abbrev main_c_22 : Ref sig .tc := ⟨.hbm, 166, rfl⟩
abbrev main_v109 : Ref sig .tc := ⟨.hbm, 167, rfl⟩
abbrev main_v110 : Ref sig .tc := ⟨.hbm, 168, rfl⟩
abbrev main_c_23 : Ref sig .tc := ⟨.hbm, 169, rfl⟩
abbrev main_v111 : Ref sig .tc := ⟨.hbm, 170, rfl⟩
abbrev main_v112 : Ref sig .tc := ⟨.hbm, 171, rfl⟩
abbrev main_v113 : Ref sig .tc := ⟨.hbm, 172, rfl⟩
abbrev main_v114 : Ref sig .tc := ⟨.hbm, 173, rfl⟩
abbrev main_v115 : Ref sig .tc := ⟨.hbm, 174, rfl⟩
abbrev main_v116 : Ref sig .tc := ⟨.hbm, 175, rfl⟩
abbrev main_v117 : Ref sig .tc := ⟨.hbm, 176, rfl⟩
abbrev main_v118 : Ref sig .tc := ⟨.hbm, 177, rfl⟩
abbrev main_v119 : Ref sig .tc := ⟨.hbm, 178, rfl⟩
abbrev main_v120 : Ref sig .tc := ⟨.hbm, 179, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg2_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg1_1 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg3_1 : Ref sig .tc := ⟨.vmem, 23, rfl⟩
abbrev cc4_stg0_0 : Ref sig .tc := ⟨.vmem, 24, rfl⟩
abbrev cc4_stg1_0 : Ref sig .tc := ⟨.vmem, 25, rfl⟩
abbrev cc4_stg2_0 : Ref sig .tc := ⟨.vmem, 26, rfl⟩
abbrev cc4_stg3_0 : Ref sig .tc := ⟨.vmem, 27, rfl⟩
abbrev cc4_stg4_0 : Ref sig .tc := ⟨.vmem, 28, rfl⟩
abbrev cc4_stg5_0 : Ref sig .tc := ⟨.vmem, 29, rfl⟩
abbrev cc4_stg6_0 : Ref sig .tc := ⟨.vmem, 30, rfl⟩
abbrev cc4_stg7_0 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem2_1 : DmaSem sig := 16
abbrev cc3_sem0_0 : DmaSem sig := 17
abbrev cc3_sem0_1 : DmaSem sig := 18
abbrev cc3_sem1_0 : DmaSem sig := 19
abbrev cc3_sem1_1 : DmaSem sig := 20
abbrev cc3_sem2_0 : DmaSem sig := 21
abbrev cc3_sem3_0 : DmaSem sig := 22
abbrev cc3_sem3_1 : DmaSem sig := 23
abbrev cc4_sem0_0 : DmaSem sig := 24
abbrev cc4_sem1_0 : DmaSem sig := 25
abbrev cc4_sem2_0 : DmaSem sig := 26
abbrev cc4_sem3_0 : DmaSem sig := 27
abbrev cc4_sem4_0 : DmaSem sig := 28
abbrev cc4_sem5_0 : DmaSem sig := 29
abbrev cc4_sem6_0 : DmaSem sig := 30
abbrev cc4_sem7_0 : DmaSem sig := 31

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x96 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S96x96 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x96 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x96 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x96 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x96 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x96 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x96 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S96x96 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x96 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x96 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x96 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x96 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x96 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![1], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 1 → Memref sig .tc .vmem S64x96 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false]

abbrev stage4_1 : Fin 1 → Memref sig .tc .vmem S64x30 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S30x96 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x96 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S96x10 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S96x10 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x10 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S64x10 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bitsLt_bf16_f32 : FTy.bits .bf16 < FTy.bits .f32
  inb_S10000x96_S10000x96_0_0 : ∀ a, (![0, 0] : Fin 2 → Nat) a + S10000x96.size a ≤ S10000x96.size a
  h_S10000x96 : 0 < S10000x96.numel
  shapeCasts_S10000x96_S10000x96 : S10000x96.ShapeCasts S10000x96
  inb_S96x96_S96x96_0_0 : ∀ a, (![0, 0] : Fin 2 → Nat) a + S96x96.size a ≤ S96x96.size a
  h_S96x96 : 0 < S96x96.numel
  shapeCasts_S96x96_S96x96 : S96x96.ShapeCasts S96x96
  bcast_S_S50000 : S_.BroadcastsInDim S50000 (![] : Fin 0 → Fin S50000.rank)
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x96_0_1 : S800000x1.BroadcastsInDim S800000x96 (![0, 1] : Fin 2 → Fin S800000x96.rank)
  bcast_S_S50000x96 : S_.BroadcastsInDim S50000x96 (![] : Fin 0 → Fin S50000x96.rank)
  bcast_S50000_S50000x1_0 : S50000.BroadcastsInDim S50000x1 (![0] : Fin 1 → Fin S50000x1.rank)
  bcast_S50000x1_S50000x96_0_1 : S50000x1.BroadcastsInDim S50000x96 (![0, 1] : Fin 2 → Fin S50000x96.rank)
  shapeCasts_S96_S1x96 : S96.ShapeCasts S1x96
  inb_S5000x96_S5000x96_0_0 : ∀ a, (![0, 0] : Fin 2 → Nat) a + S5000x96.size a ≤ S5000x96.size a
  h_S5000x96 : 0 < S5000x96.numel
  shapeCasts_S5000x96_S5000x96 : S5000x96.ShapeCasts S5000x96
  inb_S1x96_S1x96_0_0 : ∀ a, (![0, 0] : Fin 2 → Nat) a + S1x96.size a ≤ S1x96.size a
  h_S1x96 : 0 < S1x96.numel
  shapeCasts_S1x96_S1x96 : S1x96.ShapeCasts S1x96
  broadcasts_S1x96_S5000x96 : S1x96.Broadcasts S5000x96
  bcast_S_S64x96 : S_.BroadcastsInDim S64x96 (![] : Fin 0 → Fin S64x96.rank)
  bcast_S_S64 : S_.BroadcastsInDim S64 (![] : Fin 0 → Fin S64.rank)
  bcast_S64_S64x1_0 : S64.BroadcastsInDim S64x1 (![0] : Fin 1 → Fin S64x1.rank)
  bcast_S64x1_S64x96_0_1 : S64x1.BroadcastsInDim S64x96 (![0, 1] : Fin 2 → Fin S64x96.rank)
  slices_S192x10_S96x10_0_0 : S192x10.Slices ![0, 0] S96x10
  slices_S192x10_S96x10_96_0 : S192x10.Slices ![96, 0] S96x10
  shapeCasts_S10_S1x10 : S10.ShapeCasts S1x10
  inb_S64x30_S64x30_0_0 : ∀ a, (![0, 0] : Fin 2 → Nat) a + S64x30.size a ≤ S64x30.size a
  h_S64x30 : 0 < S64x30.numel
  shapeCasts_S64x30_S64x30 : S64x30.ShapeCasts S64x30
  inb_S30x96_S30x96_0_0 : ∀ a, (![0, 0] : Fin 2 → Nat) a + S30x96.size a ≤ S30x96.size a
  h_S30x96 : 0 < S30x96.numel
  broadcasts_S1x96_S64x96 : S1x96.Broadcasts S64x96
  inb_S64x96_S64x96_0_0 : ∀ a, (![0, 0] : Fin 2 → Nat) a + S64x96.size a ≤ S64x96.size a
  h_S64x96 : 0 < S64x96.numel
  shapeCasts_S64x96_S64x96 : S64x96.ShapeCasts S64x96
  inb_S96x10_S96x10_0_0 : ∀ a, (![0, 0] : Fin 2 → Nat) a + S96x10.size a ≤ S96x10.size a
  h_S96x10 : 0 < S96x10.numel
  shapeCasts_S96x10_S96x10 : S96x10.ShapeCasts S96x10
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S64x10 : S1x10.Broadcasts S64x10
  inb_S64x10_S64x10_0_0 : ∀ a, (![0, 0] : Fin 2 → Nat) a + S64x10.size a ≤ S64x10.size a
  h_S64x10 : 0 < S64x10.numel
  dot_S10000x96_S96x96_S10000x96_1_0_0_1_n_n_wf : DotDims.WF S10000x96 S96x96 S10000x96 [1] [0] [0] [1] [] []
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x96_S800000x1_S800000x96_1_0_n_n_0_1_196_wf : GatherDims.WF S50000x96 S800000x1 S800000x96 [1] [0] [] [0] [] 1 ![1, 96]
  scatter_S50000x96_S800000x1_S800000x96_1_0_0_1_wf : ScatterDims.WF S50000x96 S800000x1 S800000x96 [1] [0] [0] 1
  scatter_S64x96_S50000x1_S50000x96_1_0_0_1_wf : ScatterDims.WF S64x96 S50000x1 S50000x96 [1] [0] [0] 1
  scatter_S64_S50000x1_S50000_n_0_0_1_wf : ScatterDims.WF S64 S50000x1 S50000 [] [0] [0] 1
  gather_S64x30_S64x1_S64x30_1_0_n_n_0_1_130_wf : GatherDims.WF S64x30 S64x1 S64x30 [1] [0] [] [0] [] 1 ![1, 30]
  dot_S64x30_S30x96_S64x96_1_0_0_1_n_n_wf : DotDims.WF S64x30 S30x96 S64x96 [1] [0] [0] [1] [] []
  dot_S64x96_S96x10_S64x10_1_0_0_1_n_n_wf : DotDims.WF S64x96 S96x10 S64x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x96.size a ≤ S50000x96.size a
  hwx0_0 : ∀ i : grid0.Coords, EltTy.bits .bf16 = 32 ∨ (Rect.block (s := S50000x96) S10000x96.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S96x96.size a ≤ S96x96.size a
  hwx0_1 : ∀ i : grid0.Coords, EltTy.bits .bf16 = 32 ∨ (Rect.block (s := S96x96) S96x96.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x96.size a ≤ S50000x96.size a
  hwx0_2 : ∀ i : grid0.Coords, EltTy.bits .f32 = 32 ∨ (Rect.block (s := S50000x96) S10000x96.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x96.size a ≤ S50000x96.size a
  hwx1_0 : ∀ i : grid1.Coords, EltTy.bits .f32 = 32 ∨ (Rect.block (s := S50000x96) S5000x96.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x96.size a ≤ S50000x96.size a
  hwx1_1 : ∀ i : grid1.Coords, EltTy.bits .f32 = 32 ∨ (Rect.block (s := S50000x96) S5000x96.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x96.size a ≤ S1x96.size a
  hwx1_2 : ∀ i : grid1.Coords, EltTy.bits .f32 = 32 ∨ (Rect.block (s := S1x96) S1x96.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x96.size a ≤ S50000x96.size a
  hwx1_3 : ∀ i : grid1.Coords, EltTy.bits .f32 = 32 ∨ (Rect.block (s := S50000x96) S5000x96.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x96.size a ≤ S50000x96.size a
  hwx2_0 : ∀ i : grid2.Coords, EltTy.bits .bf16 = 32 ∨ (Rect.block (s := S50000x96) S10000x96.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S96x96.size a ≤ S96x96.size a
  hwx2_1 : ∀ i : grid2.Coords, EltTy.bits .bf16 = 32 ∨ (Rect.block (s := S96x96) S96x96.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x96.size a ≤ S50000x96.size a
  hwx2_2 : ∀ i : grid2.Coords, EltTy.bits .f32 = 32 ∨ (Rect.block (s := S50000x96) S10000x96.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x96.size a ≤ S50000x96.size a
  hwx3_0 : ∀ i : grid3.Coords, EltTy.bits .f32 = 32 ∨ (Rect.block (s := S50000x96) S5000x96.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x96.size a ≤ S50000x96.size a
  hwx3_1 : ∀ i : grid3.Coords, EltTy.bits .f32 = 32 ∨ (Rect.block (s := S50000x96) S5000x96.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x96.size a ≤ S1x96.size a
  hwx3_2 : ∀ i : grid3.Coords, EltTy.bits .f32 = 32 ∨ (Rect.block (s := S1x96) S1x96.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x96.size a ≤ S50000x96.size a
  hwx3_3 : ∀ i : grid3.Coords, EltTy.bits .f32 = 32 ∨ (Rect.block (s := S50000x96) S5000x96.size (cc3_transform_3 i) (hinb3_3 i)).WholeWords (EltTy.packing .f32)
  hrank4 : 0 < grid4.rank
  hstage4_0 : ∀ j, (stage4_0 j).IsWhole
  nbuf4_0 : grid4.bufCount reads4_0 true = 1
  hreads4_0 : ∀ i i' : grid4.Coords, (∀ a, reads4_0 a = true → i a = i' a) → cc4_transform_0 i = cc4_transform_0 i'
  hinb4_0 : ∀ (i : grid4.Coords) a, (cc4_transform_0 i a + 1) * S64x96.size a ≤ S64x96.size a
  hwx4_0 : ∀ i : grid4.Coords, EltTy.bits .f32 = 32 ∨ (Rect.block (s := S64x96) S64x96.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x30.size a ≤ S64x30.size a
  hwx4_1 : ∀ i : grid4.Coords, EltTy.bits .f32 = 32 ∨ (Rect.block (s := S64x30) S64x30.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S30x96.size a ≤ S30x96.size a
  hwx4_2 : ∀ i : grid4.Coords, EltTy.bits .f32 = 32 ∨ (Rect.block (s := S30x96) S30x96.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x96.size a ≤ S1x96.size a
  hwx4_3 : ∀ i : grid4.Coords, EltTy.bits .f32 = 32 ∨ (Rect.block (s := S1x96) S1x96.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S96x10.size a ≤ S96x10.size a
  hwx4_4 : ∀ i : grid4.Coords, EltTy.bits .f32 = 32 ∨ (Rect.block (s := S96x10) S96x10.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S96x10.size a ≤ S96x10.size a
  hwx4_5 : ∀ i : grid4.Coords, EltTy.bits .f32 = 32 ∨ (Rect.block (s := S96x10) S96x10.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x10.size a ≤ S1x10.size a
  hwx4_6 : ∀ i : grid4.Coords, EltTy.bits .f32 = 32 ∨ (Rect.block (s := S1x10) S1x10.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S64x10.size a ≤ S64x10.size a
  hwx4_7 : ∀ i : grid4.Coords, EltTy.bits .f32 = 32 ∨ (Rect.block (s := S64x10) S64x10.size (cc4_transform_7 i) (hinb4_7 i)).WholeWords (EltTy.packing .f32)

variable [Facts₀]

def dot_S10000x96_S96x96_S10000x96_1_0_0_1_n_n : DotDims S10000x96 S96x96 S10000x96 where
  lhsContracting := [1]
  rhsContracting := [0]
  lhsNonContracting := [0]
  rhsNonContracting := [1]
  lhsBatch := []
  rhsBatch := []
  wf := dot_S10000x96_S96x96_S10000x96_1_0_0_1_n_n_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x96_S800000x1_S800000x96_1_0_n_n_0_1_196 : GatherDims S50000x96 S800000x1 S800000x96 where
  offsetDims := [1]
  collapsedSliceDims := [0]
  operandBatchingDims := []
  startIndicesBatchingDims := []
  startIndexMap := [0]
  indexVectorDim := 1
  sliceSizes := ![1, 96]
  wf := gather_S50000x96_S800000x1_S800000x96_1_0_n_n_0_1_196_wf
def scatter_S50000x96_S800000x1_S800000x96_1_0_0_1 : ScatterDims S50000x96 S800000x1 S800000x96 where
  updateWindowDims := [1]
  insertedWindowDims := [0]
  scatterDimsToOperandDims := [0]
  indexVectorDim := 1
  wf := scatter_S50000x96_S800000x1_S800000x96_1_0_0_1_wf
def scatter_S64x96_S50000x1_S50000x96_1_0_0_1 : ScatterDims S64x96 S50000x1 S50000x96 where
  updateWindowDims := [1]
  insertedWindowDims := [0]
  scatterDimsToOperandDims := [0]
  indexVectorDim := 1
  wf := scatter_S64x96_S50000x1_S50000x96_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def gather_S64x30_S64x1_S64x30_1_0_n_n_0_1_130 : GatherDims S64x30 S64x1 S64x30 where
  offsetDims := [1]
  collapsedSliceDims := [0]
  operandBatchingDims := []
  startIndicesBatchingDims := []
  startIndexMap := [0]
  indexVectorDim := 1
  sliceSizes := ![1, 30]
  wf := gather_S64x30_S64x1_S64x30_1_0_n_n_0_1_130_wf
def dot_S64x30_S30x96_S64x96_1_0_0_1_n_n : DotDims S64x30 S30x96 S64x96 where
  lhsContracting := [1]
  rhsContracting := [0]
  lhsNonContracting := [0]
  rhsNonContracting := [1]
  lhsBatch := []
  rhsBatch := []
  wf := dot_S64x30_S30x96_S64x96_1_0_0_1_n_n_wf
def dot_S64x96_S96x10_S64x10_1_0_0_1_n_n : DotDims S64x96 S96x10 S64x10 where
  lhsContracting := [1]
  rhsContracting := [0]
  lhsNonContracting := [0]
  rhsNonContracting := [1]
  lhsBatch := []
  rhsBatch := []
  wf := dot_S64x96_S96x10_S64x10_1_0_0_1_n_n_wf

abbrev win0_0 : Pipeline.Window sig grid0 :=
  Pipeline.Window.ofSpec (Memref.whole main_v4) S10000x96.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S96x96.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S10000x96.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v41) S5000x96.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v45) S5000x96.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v46) S1x96.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v47) S5000x96.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v48) S10000x96.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v49) S96x96.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v50) S10000x96.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v85) S5000x96.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v89) S5000x96.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v90) S1x96.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v91) S5000x96.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v103) S64x96.size cc4_transform_0 reads4_0 false true 1 stage4_0 sem4_0
    hrank4 hreads4_0 hinb4_0 nbuf4_0 (Memref.isWhole_whole _) hwx4_0 hstage4_0

abbrev win4_1 : Pipeline.Window sig grid4 :=
  Pipeline.Window.ofSpec (Memref.whole main_v115) S64x30.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_arg9) S30x96.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v118) S1x96.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v116) S96x10.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v117) S96x10.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v119) S1x10.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v120) S64x10.size cc4_transform_7 reads4_7 true true 1 stage4_7 sem4_7
    hrank4 hreads4_7 hinb4_7 nbuf4_7 (Memref.isWhole_whole _) hwx4_7 hstage4_7

abbrev win4 : Fin 8 → Pipeline.Window sig grid4 := fun | 0 => win4_0 | 1 => win4_1 | 2 => win4_2 | 3 => win4_3 | 4 => win4_4 | 5 => win4_5 | 6 => win4_6 | 7 => win4_7 | ⟨_ + 8, h⟩ => absurd h (Nat.not_lt.2 (Nat.le_add_left _ _))
abbrev spec4 : Fin 8 → Pipeline.WinSpec sig grid4.rank := fun w => (win4 w).toWinSpec

class Facts : Prop extends Facts₀ where

variable [Facts]
-- ==== ReferenceIdeal.lean ====
abbrev S50000x96 : Shape := ⟨2, ![50000, 96]⟩
abbrev S2x800000 : Shape := ⟨2, ![2, 800000]⟩
abbrev S800000 : Shape := ⟨1, ![800000]⟩
abbrev S50000 : Shape := ⟨1, ![50000]⟩
abbrev S64x30 : Shape := ⟨2, ![64, 30]⟩
abbrev S96x96 : Shape := ⟨2, ![96, 96]⟩
abbrev S96 : Shape := ⟨1, ![96]⟩
abbrev S30x96 : Shape := ⟨2, ![30, 96]⟩
abbrev S192x10 : Shape := ⟨2, ![192, 10]⟩
abbrev S10 : Shape := ⟨1, ![10]⟩
abbrev S1x800000 : Shape := ⟨2, ![1, 800000]⟩
abbrev S_ : Shape := ⟨0, ![]⟩
abbrev S800000x1 : Shape := ⟨2, ![800000, 1]⟩
abbrev S800000x96 : Shape := ⟨2, ![800000, 96]⟩
abbrev S50000x1 : Shape := ⟨2, ![50000, 1]⟩
abbrev S1x96 : Shape := ⟨2, ![1, 96]⟩
abbrev S64x96 : Shape := ⟨2, ![64, 96]⟩
abbrev S64 : Shape := ⟨1, ![64]⟩
abbrev S64x1 : Shape := ⟨2, ![64, 1]⟩
abbrev S64x192 : Shape := ⟨2, ![64, 192]⟩
abbrev S64x10 : Shape := ⟨2, ![64, 10]⟩
abbrev S1x10 : Shape := ⟨2, ![1, 10]⟩

abbrev nBuf : Space → Nat
  | .hbm => 193
  | .vmem => 0
  | .smem => 0
  | _ => 0

abbrev hbmTy0_0 (i : Nat) : BufTy := match i % 128 with
  | 0 => ⟨S50000x96, .f32⟩
  | 1 => ⟨S2x800000, .i32⟩
  | 2 => ⟨S800000, .f32⟩
  | 3 => ⟨S50000, .i32⟩
  | 4 => ⟨S64x30, .f32⟩
  | 5 => ⟨S96x96, .f32⟩
  | 6 => ⟨S96, .f32⟩
  | 7 => ⟨S96x96, .f32⟩
  | 8 => ⟨S96, .f32⟩
  | 9 => ⟨S30x96, .f32⟩
  | 10 => ⟨S96, .f32⟩
  | 11 => ⟨S192x10, .f32⟩
  | 12 => ⟨S10, .f32⟩
  | 13 => ⟨S1x800000, .i32⟩
  | 14 => ⟨S800000, .i32⟩
  | 15 => ⟨S1x800000, .i32⟩
  | 16 => ⟨S800000, .i32⟩
  | 17 => ⟨S50000x96, .f32⟩
  | 18 => ⟨S_, .f32⟩
  | 19 => ⟨S50000, .f32⟩
  | 20 => ⟨S800000x1, .i32⟩
  | 21 => ⟨S50000, .f32⟩
  | 22 => ⟨S_, .f32⟩
  | 23 => ⟨S50000, .f32⟩
  | 24 => ⟨S50000, .f32⟩
  | 25 => ⟨S50000, .f32⟩
  | 26 => ⟨S_, .i32⟩
  | 27 => ⟨S800000, .i32⟩
  | 28 => ⟨S800000, .i1⟩
  | 29 => ⟨S_, .i32⟩
  | 30 => ⟨S800000, .i32⟩
  | 31 => ⟨S800000, .i32⟩
  | 32 => ⟨S800000, .i32⟩
  | 33 => ⟨S800000x1, .i32⟩
  | 34 => ⟨S800000, .f32⟩
  | 35 => ⟨S800000, .f32⟩
  | 36 => ⟨S_, .i32⟩
  | 37 => ⟨S800000, .i32⟩
  | 38 => ⟨S800000, .i1⟩
  | 39 => ⟨S_, .i32⟩
  | 40 => ⟨S800000, .i32⟩
  | 41 => ⟨S800000, .i32⟩
  | 42 => ⟨S800000, .i32⟩
  | 43 => ⟨S800000x1, .i32⟩
  | 44 => ⟨S800000, .f32⟩
  | 45 => ⟨S800000, .f32⟩
  | 46 => ⟨S_, .i32⟩
  | 47 => ⟨S800000, .i32⟩
  | 48 => ⟨S800000, .i1⟩
  | 49 => ⟨S_, .i32⟩
  | 50 => ⟨S800000, .i32⟩
  | 51 => ⟨S800000, .i32⟩
  | 52 => ⟨S800000, .i32⟩
  | 53 => ⟨S800000x1, .i32⟩
  | 54 => ⟨S800000x96, .f32⟩
  | 55 => ⟨S800000x1, .f32⟩
  | 56 => ⟨S800000x96, .f32⟩
  | 57 => ⟨S800000x96, .f32⟩
  | 58 => ⟨S_, .f32⟩
  | 59 => ⟨S50000x96, .f32⟩
  | 60 => ⟨S800000x1, .i32⟩
  | 61 => ⟨S50000x96, .f32⟩
  | 62 => ⟨S50000, .f32⟩
  | 63 => ⟨S50000x1, .f32⟩
  | 64 => ⟨S50000x96, .f32⟩
  | 65 => ⟨S50000x96, .f32⟩
  | 66 => ⟨S50000x96, .f32⟩
  | 67 => ⟨S1x96, .f32⟩
  | 68 => ⟨S50000x96, .f32⟩
  | 69 => ⟨S50000x96, .f32⟩
  | 70 => ⟨S_, .f32⟩
  | 71 => ⟨S50000x96, .f32⟩
  | 72 => ⟨S50000x96, .f32⟩
  | 73 => ⟨S50000x96, .f32⟩
  | 74 => ⟨S_, .f32⟩
  | 75 => ⟨S50000, .f32⟩
  | 76 => ⟨S800000x1, .i32⟩
  | 77 => ⟨S50000, .f32⟩
  | 78 => ⟨S_, .f32⟩
  | 79 => ⟨S50000, .f32⟩
  | 80 => ⟨S50000, .f32⟩
  | 81 => ⟨S50000, .f32⟩
  | 82 => ⟨S_, .i32⟩
  | 83 => ⟨S800000, .i32⟩
  | 84 => ⟨S800000, .i1⟩
  | 85 => ⟨S_, .i32⟩
  | 86 => ⟨S800000, .i32⟩
  | 87 => ⟨S800000, .i32⟩
  | 88 => ⟨S800000, .i32⟩
  | 89 => ⟨S800000x1, .i32⟩
  | 90 => ⟨S800000, .f32⟩
  | 91 => ⟨S800000, .f32⟩
  | 92 => ⟨S_, .i32⟩
  | 93 => ⟨S800000, .i32⟩
  | 94 => ⟨S800000, .i1⟩
  | 95 => ⟨S_, .i32⟩
  | 96 => ⟨S800000, .i32⟩
  | 97 => ⟨S800000, .i32⟩
  | 98 => ⟨S800000, .i32⟩
  | 99 => ⟨S800000x1, .i32⟩
  | 100 => ⟨S800000, .f32⟩
  | 101 => ⟨S800000, .f32⟩
  | 102 => ⟨S_, .i32⟩
  | 103 => ⟨S800000, .i32⟩
  | 104 => ⟨S800000, .i1⟩
  | 105 => ⟨S_, .i32⟩
  | 106 => ⟨S800000, .i32⟩
  | 107 => ⟨S800000, .i32⟩
  | 108 => ⟨S800000, .i32⟩
  | 109 => ⟨S800000x1, .i32⟩
  | 110 => ⟨S800000x96, .f32⟩
  | 111 => ⟨S800000x1, .f32⟩
  | 112 => ⟨S800000x96, .f32⟩
  | 113 => ⟨S800000x96, .f32⟩
  | 114 => ⟨S_, .f32⟩
  | 115 => ⟨S50000x96, .f32⟩
  | 116 => ⟨S800000x1, .i32⟩
  | 117 => ⟨S50000x96, .f32⟩
  | 118 => ⟨S50000, .f32⟩
  | 119 => ⟨S50000x1, .f32⟩
  | 120 => ⟨S50000x96, .f32⟩
  | 121 => ⟨S50000x96, .f32⟩
  | 122 => ⟨S50000x96, .f32⟩
  | 123 => ⟨S1x96, .f32⟩
  | 124 => ⟨S50000x96, .f32⟩
  | 125 => ⟨S50000x96, .f32⟩
  | 126 => ⟨S_, .f32⟩
  | 127 => ⟨S50000x96, .f32⟩
  | _ => ⟨S50000x96, .f32⟩

abbrev hbmTy0_1 (i : Nat) : BufTy := match i % 128 with
  | 0 => ⟨S50000x96, .f32⟩
  | 1 => ⟨S_, .f32⟩
  | 2 => ⟨S64x96, .f32⟩
  | 3 => ⟨S50000x1, .i32⟩
  | 4 => ⟨S64x96, .f32⟩
  | 5 => ⟨S_, .f32⟩
  | 6 => ⟨S50000, .f32⟩
  | 7 => ⟨S_, .f32⟩
  | 8 => ⟨S64, .f32⟩
  | 9 => ⟨S50000x1, .i32⟩
  | 10 => ⟨S64, .f32⟩
  | 11 => ⟨S_, .f32⟩
  | 12 => ⟨S64, .f32⟩
  | 13 => ⟨S64, .f32⟩
  | 14 => ⟨S64x1, .f32⟩
  | 15 => ⟨S64x96, .f32⟩
  | 16 => ⟨S64x96, .f32⟩
  | 17 => ⟨S50000, .i32⟩
  | 18 => ⟨S_, .i32⟩
  | 19 => ⟨S64, .i32⟩
  | 20 => ⟨S50000x1, .i32⟩
  | 21 => ⟨S64, .i32⟩
  | 22 => ⟨S_, .i32⟩
  | 23 => ⟨S_, .i32⟩
  | 24 => ⟨S_, .i32⟩
  | 25 => ⟨S_, .i1⟩
  | 26 => ⟨S_, .i32⟩
  | 27 => ⟨S_, .i32⟩
  | 28 => ⟨S64, .i32⟩
  | 29 => ⟨S64, .i32⟩
  | 30 => ⟨S_, .i32⟩
  | 31 => ⟨S64, .i32⟩
  | 32 => ⟨S64, .i1⟩
  | 33 => ⟨S_, .i32⟩
  | 34 => ⟨S64, .i32⟩
  | 35 => ⟨S64, .i1⟩
  | 36 => ⟨S_, .i32⟩
  | 37 => ⟨S_, .i1⟩
  | 38 => ⟨S64, .i1⟩
  | 39 => ⟨S64, .i1⟩
  | 40 => ⟨S64, .i1⟩
  | 41 => ⟨S64, .i32⟩
  | 42 => ⟨S64, .i32⟩
  | 43 => ⟨S64, .i32⟩
  | 44 => ⟨S_, .i32⟩
  | 45 => ⟨S64, .i32⟩
  | 46 => ⟨S64, .i1⟩
  | 47 => ⟨S_, .i32⟩
  | 48 => ⟨S64, .i32⟩
  | 49 => ⟨S64, .i32⟩
  | 50 => ⟨S64, .i32⟩
  | 51 => ⟨S64x1, .i32⟩
  | 52 => ⟨S64x30, .f32⟩
  | 53 => ⟨S64x96, .f32⟩
  | 54 => ⟨S1x96, .f32⟩
  | 55 => ⟨S64x96, .f32⟩
  | 56 => ⟨S64x96, .f32⟩
  | 57 => ⟨S_, .f32⟩
  | 58 => ⟨S64x96, .f32⟩
  | 59 => ⟨S64x96, .f32⟩
  | 60 => ⟨S64x192, .f32⟩
  | 61 => ⟨S64x10, .f32⟩
  | 62 => ⟨S1x10, .f32⟩
  | 63 => ⟨S64x10, .f32⟩
  | 64 => ⟨S64x10, .f32⟩
  | _ => ⟨S50000x96, .f32⟩

abbrev hbmTy (i : Nat) : BufTy := match i / 128 with
  | 0 => hbmTy0_0 i
  | 1 => hbmTy0_1 i
  | _ => ⟨S50000x96, .f32⟩

abbrev bufTy : (tb : Table) → Fin (tcTables nBuf tb) → BufTy
  | .hbm, ⟨i, _⟩ => hbmTy i
  | _, _ => ⟨S50000x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_cst : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_c : Ref sig .tc := ⟨.hbm, 26, rfl⟩
abbrev main_v11 : Ref sig .tc := ⟨.hbm, 27, rfl⟩
abbrev main_v12 : Ref sig .tc := ⟨.hbm, 28, rfl⟩
abbrev main_c_1 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_c_2 : Ref sig .tc := ⟨.hbm, 36, rfl⟩
abbrev main_v19 : Ref sig .tc := ⟨.hbm, 37, rfl⟩
abbrev main_v20 : Ref sig .tc := ⟨.hbm, 38, rfl⟩
abbrev main_c_3 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_c_4 : Ref sig .tc := ⟨.hbm, 46, rfl⟩
abbrev main_v27 : Ref sig .tc := ⟨.hbm, 47, rfl⟩
abbrev main_v28 : Ref sig .tc := ⟨.hbm, 48, rfl⟩
abbrev main_c_5 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_cst_6 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_call0_cst : Ref sig .tc := ⟨.hbm, 70, rfl⟩
abbrev main_call0_v0 : Ref sig .tc := ⟨.hbm, 71, rfl⟩
abbrev main_v48 : Ref sig .tc := ⟨.hbm, 72, rfl⟩
abbrev main_v49 : Ref sig .tc := ⟨.hbm, 73, rfl⟩
abbrev main_cst_7 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_cst_8 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_c_9 : Ref sig .tc := ⟨.hbm, 82, rfl⟩
abbrev main_v56 : Ref sig .tc := ⟨.hbm, 83, rfl⟩
abbrev main_v57 : Ref sig .tc := ⟨.hbm, 84, rfl⟩
abbrev main_c_10 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_c_11 : Ref sig .tc := ⟨.hbm, 92, rfl⟩
abbrev main_v64 : Ref sig .tc := ⟨.hbm, 93, rfl⟩
abbrev main_v65 : Ref sig .tc := ⟨.hbm, 94, rfl⟩
abbrev main_c_12 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_c_13 : Ref sig .tc := ⟨.hbm, 102, rfl⟩
abbrev main_v72 : Ref sig .tc := ⟨.hbm, 103, rfl⟩
abbrev main_v73 : Ref sig .tc := ⟨.hbm, 104, rfl⟩
abbrev main_c_14 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_cst_15 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_call1_cst : Ref sig .tc := ⟨.hbm, 126, rfl⟩
abbrev main_call1_v0 : Ref sig .tc := ⟨.hbm, 127, rfl⟩
abbrev main_v93 : Ref sig .tc := ⟨.hbm, 128, rfl⟩
abbrev main_cst_16 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_cst_17 : Ref sig .tc := ⟨.hbm, 133, rfl⟩
abbrev main_v97 : Ref sig .tc := ⟨.hbm, 134, rfl⟩
abbrev main_cst_18 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_cst_19 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_c_20 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_c_21 : Ref sig .tc := ⟨.hbm, 150, rfl⟩
abbrev main_call2_v0 : Ref sig .tc := ⟨.hbm, 151, rfl⟩
abbrev main_call2_c : Ref sig .tc := ⟨.hbm, 152, rfl⟩
abbrev main_call2_v1 : Ref sig .tc := ⟨.hbm, 153, rfl⟩
abbrev main_call2_c_0 : Ref sig .tc := ⟨.hbm, 154, rfl⟩
abbrev main_call2_v2 : Ref sig .tc := ⟨.hbm, 155, rfl⟩
abbrev main_call2_v3 : Ref sig .tc := ⟨.hbm, 156, rfl⟩
abbrev main_call2_v4 : Ref sig .tc := ⟨.hbm, 157, rfl⟩
abbrev main_call2_c_1 : Ref sig .tc := ⟨.hbm, 158, rfl⟩
abbrev main_call2_v5 : Ref sig .tc := ⟨.hbm, 159, rfl⟩
abbrev main_call2_v6 : Ref sig .tc := ⟨.hbm, 160, rfl⟩
abbrev main_call2_c_2 : Ref sig .tc := ⟨.hbm, 161, rfl⟩
abbrev main_call2_v7 : Ref sig .tc := ⟨.hbm, 162, rfl⟩
abbrev main_call2_v8 : Ref sig .tc := ⟨.hbm, 163, rfl⟩
abbrev main_call2_c_3 : Ref sig .tc := ⟨.hbm, 164, rfl⟩
abbrev main_call2_v9 : Ref sig .tc := ⟨.hbm, 165, rfl⟩
abbrev main_call2_v10 : Ref sig .tc := ⟨.hbm, 166, rfl⟩
abbrev main_call2_v11 : Ref sig .tc := ⟨.hbm, 167, rfl⟩
abbrev main_call2_v12 : Ref sig .tc := ⟨.hbm, 168, rfl⟩
abbrev main_call2_v13 : Ref sig .tc := ⟨.hbm, 169, rfl⟩
abbrev main_call2_v14 : Ref sig .tc := ⟨.hbm, 170, rfl⟩
abbrev main_v110 : Ref sig .tc := ⟨.hbm, 171, rfl⟩
abbrev main_c_22 : Ref sig .tc := ⟨.hbm, 172, rfl⟩
abbrev main_v111 : Ref sig .tc := ⟨.hbm, 173, rfl⟩
abbrev main_v112 : Ref sig .tc := ⟨.hbm, 174, rfl⟩
abbrev main_c_23 : Ref sig .tc := ⟨.hbm, 175, rfl⟩
abbrev main_v113 : Ref sig .tc := ⟨.hbm, 176, rfl⟩
abbrev main_v114 : Ref sig .tc := ⟨.hbm, 177, rfl⟩
abbrev main_v115 : Ref sig .tc := ⟨.hbm, 178, rfl⟩
abbrev main_v116 : Ref sig .tc := ⟨.hbm, 179, rfl⟩
abbrev main_v117 : Ref sig .tc := ⟨.hbm, 180, rfl⟩
abbrev main_v118 : Ref sig .tc := ⟨.hbm, 181, rfl⟩
abbrev main_v119 : Ref sig .tc := ⟨.hbm, 182, rfl⟩
abbrev main_v120 : Ref sig .tc := ⟨.hbm, 183, rfl⟩
abbrev main_v121 : Ref sig .tc := ⟨.hbm, 184, rfl⟩
abbrev main_call3_cst : Ref sig .tc := ⟨.hbm, 185, rfl⟩
abbrev main_call3_v0 : Ref sig .tc := ⟨.hbm, 186, rfl⟩
abbrev main_v122 : Ref sig .tc := ⟨.hbm, 187, rfl⟩
abbrev main_v123 : Ref sig .tc := ⟨.hbm, 188, rfl⟩
abbrev main_v124 : Ref sig .tc := ⟨.hbm, 189, rfl⟩
abbrev main_v125 : Ref sig .tc := ⟨.hbm, 190, rfl⟩
abbrev main_v126 : Ref sig .tc := ⟨.hbm, 191, rfl⟩
abbrev main_v127 : Ref sig .tc := ⟨.hbm, 192, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S50000 : S_.BroadcastsInDim S50000 (![] : Fin 0 → Fin S50000.rank)
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x96_0_1 : S800000x1.BroadcastsInDim S800000x96 (![0, 1] : Fin 2 → Fin S800000x96.rank)
  bcast_S_S50000x96 : S_.BroadcastsInDim S50000x96 (![] : Fin 0 → Fin S50000x96.rank)
  bcast_S50000_S50000x1_0 : S50000.BroadcastsInDim S50000x1 (![0] : Fin 1 → Fin S50000x1.rank)
  bcast_S50000x1_S50000x96_0_1 : S50000x1.BroadcastsInDim S50000x96 (![0, 1] : Fin 2 → Fin S50000x96.rank)
  bcast_S96_S1x96_1 : S96.BroadcastsInDim S1x96 (![1] : Fin 1 → Fin S1x96.rank)
  bcast_S1x96_S50000x96_0_1 : S1x96.BroadcastsInDim S50000x96 (![0, 1] : Fin 2 → Fin S50000x96.rank)
  bcast_S_S64x96 : S_.BroadcastsInDim S64x96 (![] : Fin 0 → Fin S64x96.rank)
  bcast_S_S64 : S_.BroadcastsInDim S64 (![] : Fin 0 → Fin S64.rank)
  bcast_S64_S64x1_0 : S64.BroadcastsInDim S64x1 (![0] : Fin 1 → Fin S64x1.rank)
  bcast_S64x1_S64x96_0_1 : S64x1.BroadcastsInDim S64x96 (![0, 1] : Fin 2 → Fin S64x96.rank)
  bcast_S1x96_S64x96_0_1 : S1x96.BroadcastsInDim S64x96 (![0, 1] : Fin 2 → Fin S64x96.rank)
  concatenates_S64x96_S64x96_S64x192_d1 : Shape.Concatenates [S64x96, S64x96] S64x192 1
  bcast_S10_S1x10_1 : S10.BroadcastsInDim S1x10 (![1] : Fin 1 → Fin S1x10.rank)
  bcast_S1x10_S64x10_0_1 : S1x10.BroadcastsInDim S64x10 (![0, 1] : Fin 2 → Fin S64x10.rank)
  dot_S50000x96_S96x96_S50000x96_1_0_0_1_n_n_wf : DotDims.WF S50000x96 S96x96 S50000x96 [1] [0] [0] [1] [] []
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x96_S800000x1_S800000x96_1_0_n_n_0_1_196_wf : GatherDims.WF S50000x96 S800000x1 S800000x96 [1] [0] [] [0] [] 1 ![1, 96]
  scatter_S50000x96_S800000x1_S800000x96_1_0_0_1_wf : ScatterDims.WF S50000x96 S800000x1 S800000x96 [1] [0] [0] 1
  scatter_S64x96_S50000x1_S50000x96_1_0_0_1_wf : ScatterDims.WF S64x96 S50000x1 S50000x96 [1] [0] [0] 1
  scatter_S64_S50000x1_S50000_n_0_0_1_wf : ScatterDims.WF S64 S50000x1 S50000 [] [0] [0] 1
  gather_S64x30_S64x1_S64x30_1_0_n_n_0_1_130_wf : GatherDims.WF S64x30 S64x1 S64x30 [1] [0] [] [0] [] 1 ![1, 30]
  dot_S64x30_S30x96_S64x96_1_0_0_1_n_n_wf : DotDims.WF S64x30 S30x96 S64x96 [1] [0] [0] [1] [] []
  dot_S64x192_S192x10_S64x10_1_0_0_1_n_n_wf : DotDims.WF S64x192 S192x10 S64x10 [1] [0] [0] [1] [] []

variable [Facts₀]

def dot_S50000x96_S96x96_S50000x96_1_0_0_1_n_n : DotDims S50000x96 S96x96 S50000x96 where
  lhsContracting := [1]
  rhsContracting := [0]
  lhsNonContracting := [0]
  rhsNonContracting := [1]
  lhsBatch := []
  rhsBatch := []
  wf := dot_S50000x96_S96x96_S50000x96_1_0_0_1_n_n_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x96_S800000x1_S800000x96_1_0_n_n_0_1_196 : GatherDims S50000x96 S800000x1 S800000x96 where
  offsetDims := [1]
  collapsedSliceDims := [0]
  operandBatchingDims := []
  startIndicesBatchingDims := []
  startIndexMap := [0]
  indexVectorDim := 1
  sliceSizes := ![1, 96]
  wf := gather_S50000x96_S800000x1_S800000x96_1_0_n_n_0_1_196_wf
def scatter_S50000x96_S800000x1_S800000x96_1_0_0_1 : ScatterDims S50000x96 S800000x1 S800000x96 where
  updateWindowDims := [1]
  insertedWindowDims := [0]
  scatterDimsToOperandDims := [0]
  indexVectorDim := 1
  wf := scatter_S50000x96_S800000x1_S800000x96_1_0_0_1_wf
def scatter_S64x96_S50000x1_S50000x96_1_0_0_1 : ScatterDims S64x96 S50000x1 S50000x96 where
  updateWindowDims := [1]
  insertedWindowDims := [0]
  scatterDimsToOperandDims := [0]
  indexVectorDim := 1
  wf := scatter_S64x96_S50000x1_S50000x96_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def gather_S64x30_S64x1_S64x30_1_0_n_n_0_1_130 : GatherDims S64x30 S64x1 S64x30 where
  offsetDims := [1]
  collapsedSliceDims := [0]
  operandBatchingDims := []
  startIndicesBatchingDims := []
  startIndexMap := [0]
  indexVectorDim := 1
  sliceSizes := ![1, 30]
  wf := gather_S64x30_S64x1_S64x30_1_0_n_n_0_1_130_wf
def dot_S64x30_S30x96_S64x96_1_0_0_1_n_n : DotDims S64x30 S30x96 S64x96 where
  lhsContracting := [1]
  rhsContracting := [0]
  lhsNonContracting := [0]
  rhsNonContracting := [1]
  lhsBatch := []
  rhsBatch := []
  wf := dot_S64x30_S30x96_S64x96_1_0_0_1_n_n_wf
def dot_S64x192_S192x10_S64x10_1_0_0_1_n_n : DotDims S64x192 S192x10 S64x10 where
  lhsContracting := [1]
  rhsContracting := [0]
  lhsNonContracting := [0]
  rhsNonContracting := [1]
  lhsBatch := []
  rhsBatch := []
  wf := dot_S64x192_S192x10_S64x10_1_0_0_1_n_n_wf

class Facts : Prop extends Facts₀ where

variable [Facts]
-- ==== Proof.KRun.lean ====
/-
  The idealized kernel program's run with its result named: every weakly fair execution of @main terminates, nothing
  faulting, with the result array at the last boundary's contents of its buffer (the fifth region's write-back over
  the contents the region was entered with) and the thirteen argument arrays as launched. The five regions and the
  host stretches between them are run by the several-regions launch theorem over the generated segments; only the
  final state's reading differs from the frame's: the result buffer is read too.
-/
import proofs.«178079_j40450001993771_1_alg».proof.Proof.Gen.KernelIdeal.Frame

set_option maxRecDepth 16384

noncomputable section

namespace Cert.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer ends at the last boundary's contents `W12`, the arguments as launched. -/
theorem run : θ_run defs (onTc (τ := τ) (main (F := F))) ⟨m, fun _ => 0, ρ⟩ (fun r => ∀ c : Dev nD,
      r.2.mem ((c.tc : Thread nD τ).loc main_v120) = W12 m ρ c (Proc.devRef .tc main_v120)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v120 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c),
       (h c _ (mem_uc main_arg9 (by decide))).trans (W12_main_arg9 m ρ c),
       (h c _ (mem_uc main_arg10 (by decide))).trans (W12_main_arg10 m ρ c),
       (h c _ (mem_uc main_arg11 (by decide))).trans (W12_main_arg11 m ρ c),
       (h c _ (mem_uc main_arg12 (by decide))).trans (W12_main_arg12 m ρ c)⟩)

end Cert.KRun

end
-- ==== Proof.Spec.lean ====
/-
  The network both programs compute, as functions of whole arrays over the extended reals.

  Two graph-convolution layers, a mean pool per graph, and a two-branch linear head:
    dinv  = (1 + sum of the weights of the edges INTO a node) ^ (-1/2)
    norm  = dinv[src] * w * dinv[dst]                    per edge
    agg   = sum over the edges into a node of h[src] * norm
    layer = max (agg + h * dinv^2 + bias, 0)             with h = x · W
    pool  = (sum of a graph's rows) / max (number of its rows, 1)
    md    = row (first node of the graph mod 64) of the metadata
    out   = pool · Wf[0:96] + max (md · Wm + bm, 0) · Wf[96:192] + bf
  The scatter / gather arrangements are kept as the host operations themselves (the same on both sides);
  the three dense bodies (matrix product, the layer's pointwise close, the head) are stated index by index.
-/
import proofs.«178079_j40450001993771_1_alg».proof.Proof.Gen.KernelIdeal
import Idealize.ShloMosaic.PureOps.Ideal
import Idealize.ShloMosaic.Lib.ValueIdx

noncomputable section

namespace Cert.Gcn

open Idealize.ShloMosaic Cert.KernelIdeal Cert.KernelIdeal.Facts₀

/-- A float array of shape `s` at the ideal instance: extended reals. -/
abbrev RArr (s : Shape) : Type := FVec Ideal s .f32
/-- An array of 32-bit words of shape `s`. -/
abbrev NArr (s : Shape) : Type := IVec s 32

/-! ## The edge list -/

/-- Row `0` of the edge list: each edge's source node. -/
def srcRow (ei : NArr S2x800000) : NArr S800000 :=
  shapeCast S800000 (extractStridedSlice S1x800000 ![0, 0] ei slices_S2x800000_S1x800000_0_0) shapeCasts_S1x800000_S800000

/-- Row `1` of the edge list: each edge's target node. -/
def dstRow (ei : NArr S2x800000) : NArr S800000 :=
  shapeCast S800000 (extractStridedSlice S1x800000 ![1, 0] ei slices_S2x800000_S1x800000_1_0) shapeCasts_S1x800000_S800000

/-- A node word below zero counts from the end of the node axis. -/
def wrapNode (v : NArr S800000) : NArr S800000 :=
  select (cmpi .slt v (broadcastInDim S800000 ![] bcast_S_S800000 (constantI S_ 32 0#32)))
    (addi v (broadcastInDim S800000 ![] bcast_S_S800000 (constantI S_ 32 50000#32))) v

/-! ## One layer's graph side -/

/-- The inverse square root of one plus the weight arriving at each node. -/
def dinv (dst : NArr S800000) (ea : RArr S800000) : RArr S50000 :=
  Host.rsqrt (F := Ideal) (addf (F := Ideal)
    (Host.scatterAdd (F := Ideal) scatter_S50000_S800000x1_S800000_n_0_0_1
      (broadcastInDim S50000 ![] bcast_S_S50000 (constant (F := Ideal) S_ .f32 0x00000000#32))
      (broadcastInDim S800000x1 ![0] bcast_S800000_S800000x1_0 dst) ea)
    (broadcastInDim S50000 ![] bcast_S_S50000 (constant (F := Ideal) S_ .f32 0x3F800000#32)))

/-- Each edge's symmetric normalisation `dinv[src] * w * dinv[dst]`. -/
def edgeNorm (src dst : NArr S800000) (ea : RArr S800000) : RArr S800000 :=
  mulf (F := Ideal) (mulf (F := Ideal)
      (Host.gather gather_S50000_S800000x1_S800000_n_0_n_n_0_1_1 (dinv dst ea)
        (broadcastInDim S800000x1 ![0] bcast_S800000_S800000x1_0 (wrapNode src))) ea)
    (Host.gather gather_S50000_S800000x1_S800000_n_0_n_n_0_1_1 (dinv dst ea)
      (broadcastInDim S800000x1 ![0] bcast_S800000_S800000x1_0 (wrapNode dst)))

/-- The messages summed at their target nodes: row `n` is the sum over the edges into `n` of `h[src] * norm`. -/
def aggregate (h : RArr S50000x96) (src dst : NArr S800000) (ea : RArr S800000) : RArr S50000x96 :=
  Host.scatterAdd (F := Ideal) scatter_S50000x96_S800000x1_S800000x96_1_0_0_1
    (broadcastInDim S50000x96 ![] bcast_S_S50000x96 (constant (F := Ideal) S_ .f32 0x00000000#32))
    (broadcastInDim S800000x1 ![0] bcast_S800000_S800000x1_0 dst)
    (mulf (F := Ideal)
      (Host.gather gather_S50000x96_S800000x1_S800000x96_1_0_n_n_0_1_196 h
        (broadcastInDim S800000x1 ![0] bcast_S800000_S800000x1_0 (wrapNode src)))
      (broadcastInDim S800000x96 ![0, 1] bcast_S800000x1_S800000x96_0_1
        (broadcastInDim S800000x1 ![0] bcast_S800000_S800000x1_0 (edgeNorm src dst ea))))

/-- The self-loop's share: each row of `h` times `dinv^2` of its node. -/
def selfLoop (h : RArr S50000x96) (dst : NArr S800000) (ea : RArr S800000) : RArr S50000x96 :=
  mulf (F := Ideal) h (broadcastInDim S50000x96 ![0, 1] bcast_S50000x1_S50000x96_0_1
    (broadcastInDim S50000x1 ![0] bcast_S50000_S50000x1_0 (mulf (F := Ideal) (dinv dst ea) (dinv dst ea))))

/-! ## The pooling and the metadata row -/

/-- Each graph's mean row: the sum of its nodes' rows over `max (its node count, 1)`. -/
def meanPool (h : RArr S50000x96) (batch : NArr S50000) : RArr S64x96 :=
  Host.divf (F := Ideal)
    (Host.scatterAdd (F := Ideal) scatter_S64x96_S50000x1_S50000x96_1_0_0_1
      (broadcastInDim S64x96 ![] bcast_S_S64x96 (constant (F := Ideal) S_ .f32 0x00000000#32))
      (broadcastInDim S50000x1 ![0] bcast_S50000_S50000x1_0 batch) h)
    (broadcastInDim S64x96 ![0, 1] bcast_S64x1_S64x96_0_1
      (broadcastInDim S64x1 ![0] bcast_S64_S64x1_0
        (maximumf (F := Ideal)
          (Host.scatterAdd (F := Ideal) scatter_S64_S50000x1_S50000_n_0_0_1
            (broadcastInDim S64 ![] bcast_S_S64 (constant (F := Ideal) S_ .f32 0x00000000#32))
            (broadcastInDim S50000x1 ![0] bcast_S50000_S50000x1_0 batch)
            (broadcastInDim S50000 ![] bcast_S_S50000 (constant (F := Ideal) S_ .f32 0x3F800000#32)))
          (broadcastInDim S64 ![] bcast_S_S64 (constant (F := Ideal) S_ .f32 0x3F800000#32)))))

/-- The smallest node number of each graph (the largest signed word where a graph has no node). -/
def firstNode (batch : NArr S50000) : NArr S64 :=
  Host.scatter scatter_S64_S50000x1_S50000_n_0_0_1 IntOp.minsi
    (broadcastInDim S64 ![] bcast_S_S64 (constantI S_ 32 2147483647#32))
    (broadcastInDim S50000x1 ![0] bcast_S50000_S50000x1_0 batch)
    (iotaInDim S50000 32 0)

/-- The divisor `64` as the floored-remainder routine reads it: `1` in place of a zero divisor. -/
def remDivisor : NArr S_ :=
  select (cmpi .eq (constantI S_ 32 64#32) (constantI S_ 32 0#32)) (constantI S_ 32 1#32) (constantI S_ 32 64#32)

/-- The floored remainder from the truncated one: moved by the divisor where its sign differs from the divisor's. -/
def remFix (r : NArr S64) : NArr S64 :=
  select
    (andi
      (cmpi .ne (cmpi .slt r (broadcastInDim S64 ![] bcast_S_S64 (constantI S_ 32 0#32)))
        (broadcastInDim S64 ![] bcast_S_S64 (cmpi .slt remDivisor (constantI S_ 32 0#32))))
      (cmpi .ne r (broadcastInDim S64 ![] bcast_S_S64 (constantI S_ 32 0#32))))
    (addi r (broadcastInDim S64 ![] bcast_S_S64 remDivisor)) r

/-- The floored remainder by `64`. -/
def rem64 (x : NArr S64) : NArr S64 :=
  remFix (Host.remsi x (broadcastInDim S64 ![] bcast_S_S64 remDivisor))

/-- A row word below zero counts from the end of the `64` metadata rows. -/
def wrapRow (v : NArr S64) : NArr S64 :=
  select (cmpi .slt v (broadcastInDim S64 ![] bcast_S_S64 (constantI S_ 32 0#32)))
    (addi v (broadcastInDim S64 ![] bcast_S_S64 (constantI S_ 32 64#32))) v

/-- Each graph's metadata row: row `first node mod 64`. -/
def mdRow (batch : NArr S50000) (mdata : RArr S64x30) : RArr S64x30 :=
  Host.gather gather_S64x30_S64x1_S64x30_1_0_n_n_0_1_130 mdata
    (broadcastInDim S64x1 ![0] bcast_S64_S64x1_0 (wrapRow (rem64 (firstNode batch))))

/-! ## The three dense bodies, index by index -/

/-- The matrix product `x · w` of a `50000 × 96` by a `96 × 96` array. -/
def matProd (x : S50000x96.Idx → EReal) (w : S96x96.Idx → EReal) : S50000x96.Idx → EReal :=
  fun i => ∑ k : Fin 96, x (ValueIdx.ix2 (i 0) k) * w (ValueIdx.ix2 k (i 1))

/-- A layer's close: `max (agg + self + bias, 0)`, the bias a row broadcast down the nodes. -/
def layerClose (agg self : S50000x96.Idx → EReal) (b : S1x96.Idx → EReal) : S50000x96.Idx → EReal :=
  fun i => max ((agg i + self i) + b (ValueIdx.ix2 (0 : Fin 1) (i 1))) 0

/-- The head: `pool · wa + max (md · wm + bm, 0) · wb + bf`. -/
def head (pool : S64x96.Idx → EReal) (md : S64x30.Idx → EReal) (wm : S30x96.Idx → EReal) (bm : S1x96.Idx → EReal)
    (wa wb : S96x10.Idx → EReal) (bf : S1x10.Idx → EReal) : S64x10.Idx → EReal :=
  fun i =>
    ((∑ k : Fin 96, pool (ValueIdx.ix2 (i 0) k) * wa (ValueIdx.ix2 k (i 1)))
      + ∑ k : Fin 96, max ((∑ l : Fin 30, md (ValueIdx.ix2 (i 0) l) * wm (ValueIdx.ix2 l k)) + bm (ValueIdx.ix2 (0 : Fin 1) k)) 0
          * wb (ValueIdx.ix2 k (i 1)))
    + bf (ValueIdx.ix2 (0 : Fin 1) (i 1))

/-! ## The whole network -/

/-- A length-96 bias as a one-row array. -/
def biasRow96 (b : RArr S96) : RArr S1x96 := shapeCast S1x96 b shapeCasts_S96_S1x96
/-- The length-10 bias as a one-row array. -/
def biasRow10 (b : RArr S10) : RArr S1x10 := shapeCast S1x10 b shapeCasts_S10_S1x10

/-- One graph-convolution layer with its ReLU. -/
def layer (x : RArr S50000x96) (w : RArr S96x96) (b : RArr S96) (ei : NArr S2x800000) (ea : RArr S800000) : RArr S50000x96 :=
  layerClose (aggregate (matProd x w) (srcRow ei) (dstRow ei) ea) (selfLoop (matProd x w) (dstRow ei) ea) (biasRow96 b)

/-- The network's output from its thirteen arguments. -/
def net (x : RArr S50000x96) (ei : NArr S2x800000) (ea : RArr S800000) (batch : NArr S50000)
    (mdata : RArr S64x30) (w1 : RArr S96x96) (b1 : RArr S96) (w2 : RArr S96x96) (b2 : RArr S96)
    (wm : RArr S30x96) (bm : RArr S96) (wf : RArr S192x10) (bf : RArr S10) : RArr S64x10 :=
  head (meanPool (layer (layer x w1 b1 ei ea) w2 b2 ei ea) batch) (mdRow batch mdata) wm (biasRow96 bm)
    (extractStridedSlice S96x10 ![0, 0] wf slices_S192x10_S96x10_0_0)
    (extractStridedSlice S96x10 ![96, 0] wf slices_S192x10_S96x10_96_0) (biasRow10 bf)

end Cert.Gcn

end
-- ==== Proof.KHost.lean ====
/-
  The host stretches of the idealized kernel program, read back: from ANY contents `V` of the buffers, the contents a
  stretch leaves in each buffer a later region stages, as the network's functions (the edge list's rows, the
  aggregation, the self-loop's share, the bias rows, the mean pool, the metadata rows, the two halves of the head's
  matrix) of the contents it read; a change of float format is the identity on the extended reals; and the buffers
  a stretch does not write keep their contents.
-/
import proofs.«178079_j40450001993771_1_alg».proof.Proof.Gen.KernelIdeal.Launch
import proofs.«178079_j40450001993771_1_alg».proof.Proof.Spec
import Idealize.ShloMosaic.Lib.StableHlo.Run

set_option maxRecDepth 16384

noncomputable section

namespace Cert.KHost

open Idealize.ShloMosaic Idealize.ShloMosaic.StableHlo Cert.KernelIdeal Cert.KernelIdeal.Gen

/-! ## Before the first product: the edge list's rows, and the operands as they are -/

theorem src0 (V : Valuation τ sig (Elt Ideal)) :
    after (hostOps0 (F := Ideal)) V (Proc.devRef .tc main_v1) = Cert.Gcn.srcRow (V (Proc.devRef .tc main_arg1)) := by
  after_results_simp
  first | done | rfl

theorem dst0 (V : Valuation τ sig (Elt Ideal)) :
    after (hostOps0 (F := Ideal)) V (Proc.devRef .tc main_v3) = Cert.Gcn.dstRow (V (Proc.devRef .tc main_arg1)) := by
  after_results_simp
  first | done | rfl

theorem x0 (V : Valuation τ sig (Elt Ideal)) :
    after (hostOps0 (F := Ideal)) V (Proc.devRef .tc main_v4) = (V (Proc.devRef .tc main_arg0)) := by
  after_results_simp
  first | done | rfl

theorem w0 (V : Valuation τ sig (Elt Ideal)) :
    after (hostOps0 (F := Ideal)) V (Proc.devRef .tc main_v5) = (V (Proc.devRef .tc main_arg5)) := by
  after_results_simp
  first | done | rfl

/-! ## Between the first product and the first close -/

theorem agg1 (V : Valuation τ sig (Elt Ideal)) :
    after (hostOps1 (F := Ideal)) V (Proc.devRef .tc main_v41) = Cert.Gcn.aggregate (V (Proc.devRef .tc main_v6)) (V (Proc.devRef .tc main_v1)) (V (Proc.devRef .tc main_v3)) (V (Proc.devRef .tc main_arg2)) := by
  after_results_simp
  first | done | rfl

theorem self1 (V : Valuation τ sig (Elt Ideal)) :
    after (hostOps1 (F := Ideal)) V (Proc.devRef .tc main_v45) = Cert.Gcn.selfLoop (V (Proc.devRef .tc main_v6)) (V (Proc.devRef .tc main_v3)) (V (Proc.devRef .tc main_arg2)) := by
  after_results_simp
  first | done | rfl

theorem bias1 (V : Valuation τ sig (Elt Ideal)) :
    after (hostOps1 (F := Ideal)) V (Proc.devRef .tc main_v46) = Cert.Gcn.biasRow96 (V (Proc.devRef .tc main_arg6)) := by
  after_results_simp
  first | done | rfl

/-! ## Between the first close and the second product -/

theorem x2 (V : Valuation τ sig (Elt Ideal)) :
    after (hostOps2 (F := Ideal)) V (Proc.devRef .tc main_v48) = (V (Proc.devRef .tc main_v47)) := by
  after_results_simp
  first | done | rfl

theorem w2 (V : Valuation τ sig (Elt Ideal)) :
    after (hostOps2 (F := Ideal)) V (Proc.devRef .tc main_v49) = (V (Proc.devRef .tc main_arg7)) := by
  after_results_simp
  first | done | rfl

/-! ## Between the second product and the second close -/

theorem agg3 (V : Valuation τ sig (Elt Ideal)) :
    after (hostOps3 (F := Ideal)) V (Proc.devRef .tc main_v85) = Cert.Gcn.aggregate (V (Proc.devRef .tc main_v50)) (V (Proc.devRef .tc main_v1)) (V (Proc.devRef .tc main_v3)) (V (Proc.devRef .tc main_arg2)) := by
  after_results_simp
  first | done | rfl

theorem self3 (V : Valuation τ sig (Elt Ideal)) :
    after (hostOps3 (F := Ideal)) V (Proc.devRef .tc main_v89) = Cert.Gcn.selfLoop (V (Proc.devRef .tc main_v50)) (V (Proc.devRef .tc main_v3)) (V (Proc.devRef .tc main_arg2)) := by
  after_results_simp
  first | done | rfl

theorem bias3 (V : Valuation τ sig (Elt Ideal)) :
    after (hostOps3 (F := Ideal)) V (Proc.devRef .tc main_v90) = Cert.Gcn.biasRow96 (V (Proc.devRef .tc main_arg8)) := by
  after_results_simp
  first | done | rfl

/-! ## Before the head -/

theorem pool4 (V : Valuation τ sig (Elt Ideal)) :
    after (hostOps4_2 (F := Ideal)) (after (hostOps4_1 (F := Ideal)) (after (hostOps4 (F := Ideal)) V)) (Proc.devRef .tc main_v103) = Cert.Gcn.meanPool (V (Proc.devRef .tc main_v91)) (V (Proc.devRef .tc main_arg3)) := by
  after_results_simp
  first | done | rfl

/-- The first node of each graph, left by the first of the three stretches. -/
theorem first4 (V : Valuation τ sig (Elt Ideal)) :
    after (hostOps4 (F := Ideal)) V (Proc.devRef .tc main_v107) = Cert.Gcn.firstNode (V (Proc.devRef .tc main_arg3)) := by
  after_results_simp
  first | done | rfl

/-- The divisor word `64`, left by the first of the three stretches. -/
theorem div4 (V : Valuation τ sig (Elt Ideal)) :
    after (hostOps4 (F := Ideal)) V (Proc.devRef .tc main_c_21) = constantI S_ 32 64#32 := by
  after_results_simp
  first | done | rfl

attribute [local irreducible] Host.gather Host.scatter Host.remsi Host.scatterAdd in
set_option maxHeartbeats 400000 in
/-- The floored remainder by `64`, left by the second stretch from contents holding the divisor word. -/
theorem rem4 (V : Valuation τ sig (Elt Ideal)) (h : V (Proc.devRef .tc main_c_21) = constantI S_ 32 64#32) :
    after (hostOps4_1 (F := Ideal)) V (Proc.devRef .tc main_v108) = Cert.Gcn.rem64 (V (Proc.devRef .tc main_v107)) := by
  after_results_simp
  rw [h]
  rfl

theorem keep4b_arg4 (V : Valuation τ sig (Elt Ideal)) :
    after (hostOps4_1 (F := Ideal)) V (Proc.devRef .tc main_arg4) = V (Proc.devRef .tc main_arg4) := by
  after_results_simp

theorem keep4a_arg4 (V : Valuation τ sig (Elt Ideal)) :
    after (hostOps4 (F := Ideal)) V (Proc.devRef .tc main_arg4) = V (Proc.devRef .tc main_arg4) := by
  after_results_simp

/-- The metadata rows, left by the third stretch from the remainders. -/
theorem gather4 (V : Valuation τ sig (Elt Ideal)) :
    after (hostOps4_2 (F := Ideal)) V (Proc.devRef .tc main_v115) = Host.gather gather_S64x30_S64x1_S64x30_1_0_n_n_0_1_130 (V (Proc.devRef .tc main_arg4))
      (broadcastInDim S64x1 ![0] Facts₀.bcast_S64_S64x1_0 (Cert.Gcn.wrapRow (V (Proc.devRef .tc main_v108)))) := by
  after_results_simp
  first | done | rfl

theorem md4 (V : Valuation τ sig (Elt Ideal)) :
    after (hostOps4_2 (F := Ideal)) (after (hostOps4_1 (F := Ideal)) (after (hostOps4 (F := Ideal)) V)) (Proc.devRef .tc main_v115) = Cert.Gcn.mdRow (V (Proc.devRef .tc main_arg3)) (V (Proc.devRef .tc main_arg4)) := by
  rw [gather4, rem4 _ (div4 V), first4, keep4b_arg4, keep4a_arg4]
  rfl

theorem wa4 (V : Valuation τ sig (Elt Ideal)) :
    after (hostOps4_2 (F := Ideal)) (after (hostOps4_1 (F := Ideal)) (after (hostOps4 (F := Ideal)) V)) (Proc.devRef .tc main_v116) = extractStridedSlice S96x10 ![0, 0] (V (Proc.devRef .tc main_arg11)) Facts₀.slices_S192x10_S96x10_0_0 := by
  after_results_simp
  first | done | rfl

theorem wb4 (V : Valuation τ sig (Elt Ideal)) :
    after (hostOps4_2 (F := Ideal)) (after (hostOps4_1 (F := Ideal)) (after (hostOps4 (F := Ideal)) V)) (Proc.devRef .tc main_v117) = extractStridedSlice S96x10 ![96, 0] (V (Proc.devRef .tc main_arg11)) Facts₀.slices_S192x10_S96x10_96_0 := by
  after_results_simp
  first | done | rfl

theorem bm4 (V : Valuation τ sig (Elt Ideal)) :
    after (hostOps4_2 (F := Ideal)) (after (hostOps4_1 (F := Ideal)) (after (hostOps4 (F := Ideal)) V)) (Proc.devRef .tc main_v118) = Cert.Gcn.biasRow96 (V (Proc.devRef .tc main_arg10)) := by
  after_results_simp
  first | done | rfl

theorem bf4 (V : Valuation τ sig (Elt Ideal)) :
    after (hostOps4_2 (F := Ideal)) (after (hostOps4_1 (F := Ideal)) (after (hostOps4 (F := Ideal)) V)) (Proc.devRef .tc main_v119) = Cert.Gcn.biasRow10 (V (Proc.devRef .tc main_arg12)) := by
  after_results_simp
  first | done | rfl

/-! ## What each stretch leaves alone -/

theorem keep0_arg0 (V : Valuation τ sig (Elt Ideal)) :
    after (hostOps0 (F := Ideal)) V (Proc.devRef .tc main_arg0) = V (Proc.devRef .tc main_arg0) := by
  after_results_simp

theorem keep0_arg1 (V : Valuation τ sig (Elt Ideal)) :
    after (hostOps0 (F := Ideal)) V (Proc.devRef .tc main_arg1) = V (Proc.devRef .tc main_arg1) := by
  after_results_simp

theorem keep0_arg2 (V : Valuation τ sig (Elt Ideal)) :
    after (hostOps0 (F := Ideal)) V (Proc.devRef .tc main_arg2) = V (Proc.devRef .tc main_arg2) := by
  after_results_simp

theorem keep0_arg3 (V : Valuation τ sig (Elt Ideal)) :
    after (hostOps0 (F := Ideal)) V (Proc.devRef .tc main_arg3) = V (Proc.devRef .tc main_arg3) := by
  after_results_simp

theorem keep0_arg4 (V : Valuation τ sig (Elt Ideal)) :
    after (hostOps0 (F := Ideal)) V (Proc.devRef .tc main_arg4) = V (Proc.devRef .tc main_arg4) := by
  after_results_simp

theorem keep0_arg5 (V : Valuation τ sig (Elt Ideal)) :
    after (hostOps0 (F := Ideal)) V (Proc.devRef .tc main_arg5) = V (Proc.devRef .tc main_arg5) := by
  after_results_simp

theorem keep0_arg6 (V : Valuation τ sig (Elt Ideal)) :
    after (hostOps0 (F := Ideal)) V (Proc.devRef .tc main_arg6) = V (Proc.devRef .tc main_arg6) := by
  after_results_simp

theorem keep0_arg7 (V : Valuation τ sig (Elt Ideal)) :
    after (hostOps0 (F := Ideal)) V (Proc.devRef .tc main_arg7) = V (Proc.devRef .tc main_arg7) := by
  after_results_simp

theorem keep0_arg8 (V : Valuation τ sig (Elt Ideal)) :
    after (hostOps0 (F := Ideal)) V (Proc.devRef .tc main_arg8) = V (Proc.devRef .tc main_arg8) := by
  after_results_simp

theorem keep0_arg9 (V : Valuation τ sig (Elt Ideal)) :
    after (hostOps0 (F := Ideal)) V (Proc.devRef .tc main_arg9) = V (Proc.devRef .tc main_arg9) := by
  after_results_simp

theorem keep0_arg10 (V : Valuation τ sig (Elt Ideal)) :
    after (hostOps0 (F := Ideal)) V (Proc.devRef .tc main_arg10) = V (Proc.devRef .tc main_arg10) := by
  after_results_simp

theorem keep0_arg11 (V : Valuation τ sig (Elt Ideal)) :
    after (hostOps0 (F := Ideal)) V (Proc.devRef .tc main_arg11) = V (Proc.devRef .tc main_arg11) := by
  after_results_simp

theorem keep0_arg12 (V : Valuation τ sig (Elt Ideal)) :
    after (hostOps0 (F := Ideal)) V (Proc.devRef .tc main_arg12) = V (Proc.devRef .tc main_arg12) := by
  after_results_simp

theorem keep1_v1 (V : Valuation τ sig (Elt Ideal)) :
    after (hostOps1 (F := Ideal)) V (Proc.devRef .tc main_v1) = V (Proc.devRef .tc main_v1) := by
  after_results_simp

theorem keep1_v3 (V : Valuation τ sig (Elt Ideal)) :
    after (hostOps1 (F := Ideal)) V (Proc.devRef .tc main_v3) = V (Proc.devRef .tc main_v3) := by
  after_results_simp

theorem keep1_arg2 (V : Valuation τ sig (Elt Ideal)) :
    after (hostOps1 (F := Ideal)) V (Proc.devRef .tc main_arg2) = V (Proc.devRef .tc main_arg2) := by
  after_results_simp

theorem keep1_arg3 (V : Valuation τ sig (Elt Ideal)) :
    after (hostOps1 (F := Ideal)) V (Proc.devRef .tc main_arg3) = V (Proc.devRef .tc main_arg3) := by
  after_results_simp

theorem keep1_arg4 (V : Valuation τ sig (Elt Ideal)) :
    after (hostOps1 (F := Ideal)) V (Proc.devRef .tc main_arg4) = V (Proc.devRef .tc main_arg4) := by
  after_results_simp

theorem keep1_arg7 (V : Valuation τ sig (Elt Ideal)) :
    after (hostOps1 (F := Ideal)) V (Proc.devRef .tc main_arg7) = V (Proc.devRef .tc main_arg7) := by
  after_results_simp

theorem keep1_arg8 (V : Valuation τ sig (Elt Ideal)) :
    after (hostOps1 (F := Ideal)) V (Proc.devRef .tc main_arg8) = V (Proc.devRef .tc main_arg8) := by
  after_results_simp

theorem keep1_arg9 (V : Valuation τ sig (Elt Ideal)) :
    after (hostOps1 (F := Ideal)) V (Proc.devRef .tc main_arg9) = V (Proc.devRef .tc main_arg9) := by
  after_results_simp

theorem keep1_arg10 (V : Valuation τ sig (Elt Ideal)) :
    after (hostOps1 (F := Ideal)) V (Proc.devRef .tc main_arg10) = V (Proc.devRef .tc main_arg10) := by
  after_results_simp

theorem keep1_arg11 (V : Valuation τ sig (Elt Ideal)) :
    after (hostOps1 (F := Ideal)) V (Proc.devRef .tc main_arg11) = V (Proc.devRef .tc main_arg11) := by
  after_results_simp

theorem keep1_arg12 (V : Valuation τ sig (Elt Ideal)) :
    after (hostOps1 (F := Ideal)) V (Proc.devRef .tc main_arg12) = V (Proc.devRef .tc main_arg12) := by
  after_results_simp

theorem keep2_v1 (V : Valuation τ sig (Elt Ideal)) :
    after (hostOps2 (F := Ideal)) V (Proc.devRef .tc main_v1) = V (Proc.devRef .tc main_v1) := by
  after_results_simp

theorem keep2_v3 (V : Valuation τ sig (Elt Ideal)) :
    after (hostOps2 (F := Ideal)) V (Proc.devRef .tc main_v3) = V (Proc.devRef .tc main_v3) := by
  after_results_simp

theorem keep2_arg2 (V : Valuation τ sig (Elt Ideal)) :
    after (hostOps2 (F := Ideal)) V (Proc.devRef .tc main_arg2) = V (Proc.devRef .tc main_arg2) := by
  after_results_simp

theorem keep2_arg3 (V : Valuation τ sig (Elt Ideal)) :
    after (hostOps2 (F := Ideal)) V (Proc.devRef .tc main_arg3) = V (Proc.devRef .tc main_arg3) := by
  after_results_simp

theorem keep2_arg4 (V : Valuation τ sig (Elt Ideal)) :
    after (hostOps2 (F := Ideal)) V (Proc.devRef .tc main_arg4) = V (Proc.devRef .tc main_arg4) := by
  after_results_simp

theorem keep2_arg8 (V : Valuation τ sig (Elt Ideal)) :
    after (hostOps2 (F := Ideal)) V (Proc.devRef .tc main_arg8) = V (Proc.devRef .tc main_arg8) := by
  after_results_simp

theorem keep2_arg9 (V : Valuation τ sig (Elt Ideal)) :
    after (hostOps2 (F := Ideal)) V (Proc.devRef .tc main_arg9) = V (Proc.devRef .tc main_arg9) := by
  after_results_simp

theorem keep2_arg10 (V : Valuation τ sig (Elt Ideal)) :
    after (hostOps2 (F := Ideal)) V (Proc.devRef .tc main_arg10) = V (Proc.devRef .tc main_arg10) := by
  after_results_simp

theorem keep2_arg11 (V : Valuation τ sig (Elt Ideal)) :
    after (hostOps2 (F := Ideal)) V (Proc.devRef .tc main_arg11) = V (Proc.devRef .tc main_arg11) := by
  after_results_simp

theorem keep2_arg12 (V : Valuation τ sig (Elt Ideal)) :
    after (hostOps2 (F := Ideal)) V (Proc.devRef .tc main_arg12) = V (Proc.devRef .tc main_arg12) := by
  after_results_simp

theorem keep3_arg3 (V : Valuation τ sig (Elt Ideal)) :
    after (hostOps3 (F := Ideal)) V (Proc.devRef .tc main_arg3) = V (Proc.devRef .tc main_arg3) := by
  after_results_simp

theorem keep3_arg4 (V : Valuation τ sig (Elt Ideal)) :
    after (hostOps3 (F := Ideal)) V (Proc.devRef .tc main_arg4) = V (Proc.devRef .tc main_arg4) := by
  after_results_simp

theorem keep3_arg9 (V : Valuation τ sig (Elt Ideal)) :
    after (hostOps3 (F := Ideal)) V (Proc.devRef .tc main_arg9) = V (Proc.devRef .tc main_arg9) := by
  after_results_simp

theorem keep3_arg10 (V : Valuation τ sig (Elt Ideal)) :
    after (hostOps3 (F := Ideal)) V (Proc.devRef .tc main_arg10) = V (Proc.devRef .tc main_arg10) := by
  after_results_simp

theorem keep3_arg11 (V : Valuation τ sig (Elt Ideal)) :
    after (hostOps3 (F := Ideal)) V (Proc.devRef .tc main_arg11) = V (Proc.devRef .tc main_arg11) := by
  after_results_simp

theorem keep3_arg12 (V : Valuation τ sig (Elt Ideal)) :
    after (hostOps3 (F := Ideal)) V (Proc.devRef .tc main_arg12) = V (Proc.devRef .tc main_arg12) := by
  after_results_simp

theorem keep4_arg9 (V : Valuation τ sig (Elt Ideal)) :
    after (hostOps4_2 (F := Ideal)) (after (hostOps4_1 (F := Ideal)) (after (hostOps4 (F := Ideal)) V)) (Proc.devRef .tc main_arg9) = V (Proc.devRef .tc main_arg9) := by
  after_results_simp

end Cert.KHost

end
-- ==== Proof.KMat0.lean ====
/-
  What region 0 (a matrix product) leaves in its output array, for any contents at its entry.

  The region walks five grid points; point t multiplies rows 10000·t … 10000·t + 9999 of the 50000 × 96 node array by
  the whole 96 × 96 weight array and writes the 10000 × 96 block of products back at the same rows. Entry (p, q) of a
  block's product is the sum over k of (row p, column k) times (weight row k, column q); the block's row p is the array's
  row 10000·t + p, so the block written at point t is block t of the product of the whole arrays, and the five blocks
  cover every row. Hence the output array ends as the product of the two arrays.
-/
import proofs.«178079_j40450001993771_1_alg».proof.Proof.Gen.KernelIdeal.Frame
import proofs.«178079_j40450001993771_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KVal

open Idealize.ShloMosaic Idealize.ShloMosaic.TcCoe Idealize.SL.Sem Cert.KernelIdeal Cert.KernelIdeal.Gen
open Idealize.ShloMosaic.ValueIdx
open Idealize.ShloMosaic.Pipeline (Dat)

/-- The offsets of a whole-block access are all zero. -/
theorem hz0 : (![0, 0] : Fin 2 → Nat) = fun _ => 0 := funext fun a => by fin_cases a <;> rfl

/-- The product of a block of rows by the weight block, at entry (p, q): the sum over the 96 contracted coordinates
    of the products of the row's and the column's entries. -/
theorem pay0_apply (x0 : FVec Ideal S10000x96 .bf16) (x1 : FVec Ideal S96x96 .bf16) (p : Fin 10000) (q : Fin 96) :
    k0_pay1 (F := Ideal) x0 x1 (ix2 p q) = ∑ k : Fin 96, x0 (ix2 p k) * x1 (ix2 k q) := by
  unfold k0_pay1
  show FloatOps.matmul dot_S10000x96_S96x96_S10000x96_1_0_0_1_n_n none (shapeCast S10000x96 x0 shapeCasts_S10000x96_S10000x96) (shapeCast S96x96 x1 shapeCasts_S96x96_S96x96) (constant S10000x96 .f32 0x00000000#32) (ix2 p q) = _
  rw [shapeCast_self, shapeCast_self]
  refine (Ideal.matmul_constant_zero_apply _ none x0 x1 (ix2 p q)).trans ?_
  rw [← Equiv.sum_comp (contrEquiv1 dot_S10000x96_S96x96_S10000x96_1_0_0_1_n_n 96 rfl rfl).symm]
  refine Finset.sum_congr rfl fun c _ => ?_
  have c2 := contrEquiv1_symm_val dot_S10000x96_S96x96_S10000x96_1_0_0_1_n_n 96 rfl rfl c
  have l2 : dot_S10000x96_S96x96_S10000x96_1_0_0_1_n_n.lhsIdx (ix2 p q) ((contrEquiv1 _ 96 rfl rfl).symm c) = ix2 p c := by
    funext ax; apply Fin.ext
    match ax with
    | ⟨0, _⟩ => simp [DotDims.lhsIdx, dot_S10000x96_S96x96_S10000x96_1_0_0_1_n_n]; rfl
    | ⟨1, _⟩ => exact (DotDims.lhsIdx_val_of_single _ rfl _ _).trans c2
  have r2 : dot_S10000x96_S96x96_S10000x96_1_0_0_1_n_n.rhsIdx (ix2 p q) ((contrEquiv1 _ 96 rfl rfl).symm c) = ix2 c q := by
    funext ax; apply Fin.ext
    match ax with
    | ⟨0, _⟩ => exact (DotDims.rhsIdx_val_of_single _ rfl _ _).trans c2
    | ⟨1, _⟩ => simp [DotDims.rhsIdx, dot_S10000x96_S96x96_S10000x96_1_0_0_1_n_n]; rfl
  rw [l2, r2]

/-- The block's product at a block index is the whole arrays' product at the array index under it: the block of rows
    holds the array's rows at the same row (`h0`), and the weight block's column is the weight array's (`h1`). -/
theorem point0 (x0 : FVec Ideal S10000x96 .bf16) (x1 : FVec Ideal S96x96 .bf16)
    (a : S50000x96.Idx → EReal) (w : S96x96.Idx → EReal) (p : Fin 10000) (q : Fin 96) (i : S50000x96.Idx)
    (h0 : ∀ k : Fin 96, x0 (ix2 p k) = a (ix2 (i 0) k)) (h1 : ∀ k : Fin 96, x1 (ix2 k q) = w (ix2 k (i 1))) :
    k0_pay1 (F := Ideal) x0 x1 (ix2 p q) = Cert.Gcn.matProd a w i := by
  rw [pay0_apply]
  unfold Cert.Gcn.matProd
  exact Finset.sum_congr rfl fun k _ => by rw [h0 k, h1 k]

/-- The printed index maps, decided over the five grid points: the row window of the input moves with the output's,
    whose block index is the point's number; the weight window stays at block zero. -/
theorem idx_facts0 : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

/-- Every one of the five row blocks is some point's. -/
theorem idx_onto0 : ∀ (q0 : Fin 5), ∃ t : Fin cfg0.N, win0_2.index t = ![q0.val, 0] :=
  (by decide +kernel : ∀ (q0 : Fin 5), ∃ t : Fin grid0.N, win0_2.index t = ![q0.val, 0])

/-- An index of the output array is in point `t`'s block iff each coordinate is in the block's range on its axis. -/
theorem mem_blk0 (t : Fin cfg0.N) (i : S50000x96.Idx) :
    i ∈ ((cfg0.win 2).blk t).view.set ↔ ∀ a : Fin 2, win0_2.index t a * S10000x96.size a ≤ (i a).val ∧ (i a).val < win0_2.index t a * S10000x96.size a + S10000x96.size a := by
  show i ∈ ((View.whole main_v6).slice (win0_2.rect t)).set ↔ _
  rw [View.set_slice_whole, Rect.mem_set_unit]
  exact Iff.rfl

/-- The five blocks of 10000 rows cover the 50000 rows: row `r` is in the block of point `r / 10000`. -/
theorem cover0 (i : S50000x96.Idx) :
    ∃ t : Fin cfg0.N, (cfg0.win 2).flush t = true ∧ i ∈ ((cfg0.win 2).blk t).view.set := by
  have hi0 : (i 0).val < 50000 := (i 0).isLt
  have hi1 : (i 1).val < 96 := (i 1).isLt
  obtain ⟨t, ht⟩ := idx_onto0 ⟨(i 0).val / 10000, by omega⟩
  have q0 : win0_2.index t (0 : Fin 2) = (i 0).val / 10000 := congrFun ht 0
  have q1 : win0_2.index t (1 : Fin 2) = 0 := congrFun ht 1
  refine ⟨t, flush0_2 t, ?_⟩
  rw [mem_blk0]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 96 ≤ (i 1).val ∧ (i 1).val < win0_2.index t (1 : Fin 2) * 96 + 96; omega

section
variable (V : (c : Dev nD) → (b : Ref sig .tc) → Buf (Elt Ideal) ((c : Thread nD τ).loc b))

/-- What point `t` writes back is block `t` of the product of the two arrays as the region finds them: an entry of
    the row block sits in the array at block index times 10000 plus its own row, the weight block is the whole array. -/
theorem flushed0_eq (c : Dev nD) (t : Fin cfg0.N) :
    (dat0 (F := Ideal) V c).flushed 2 t
      = ((cfg0.win 2).blk t).view.read (Elt Ideal) (Cert.Gcn.matProd (V c main_v4) (V c main_v5)) := by
  show (cfg0.win 2).cut (grid0.coords t) ((dat0 V c).after 2 t) = _
  rw [after0_2]
  unfold out0_2
  rw [View.canon_unit_zero hz0]
  simp only [View.ld_unit_zero (S := S10000x96) hz0, View.ld_unit_zero (S := S96x96) hz0]
  obtain ⟨e0, e1, e2, e3, e4, e5⟩ := idx_facts0 t
  funext j
  obtain ⟨p, q, rfl⟩ : ∃ (p : Fin 10000) (q : Fin 96), j = ix2 p q := ⟨j 0, j 1, eq_ix2 j⟩
  show k0_pay1 (F := Ideal) (iblk0 V c 0 t) (iblk0 V c 1 t) (ix2 p q)
    = Cert.Gcn.matProd (V c main_v4) (V c main_v5) (((cfg0.win 2).blk t).view.emb (ix2 p q))
  refine point0 _ _ _ _ p q _ (fun k => ?_) (fun k => ?_)
  · show V c main_v4 (((cfg0.win 0).blk t).view.emb (ix2 p k)) = V c main_v4 (ix2 ((((cfg0.win 2).blk t).view.emb (ix2 p q)) 0) k)
    congr 1
    funext a; apply Fin.ext
    match a with
    | ⟨0, _⟩ => show win0_0.index t (0 : Fin 2) * 10000 + 1 * p.val = win0_2.index t (0 : Fin 2) * 10000 + 1 * p.val; omega
    | ⟨1, _⟩ => show win0_0.index t (1 : Fin 2) * 96 + 1 * k.val = k.val; omega
  · show V c main_v5 (((cfg0.win 1).blk t).view.emb (ix2 k q)) = V c main_v5 (ix2 k ((((cfg0.win 2).blk t).view.emb (ix2 p q)) 1))
    congr 1
    funext a; apply Fin.ext
    match a with
    | ⟨0, _⟩ => show win0_1.index t (0 : Fin 2) * 96 + 1 * k.val = k.val; omega
    | ⟨1, _⟩ => show win0_1.index t (1 : Fin 2) * 96 + 1 * q.val = win0_2.index t (1 : Fin 2) * 96 + 1 * q.val; omega

/-- REGION 0's OUTPUT ARRAY after the region: the product of the node array by the weight array as the region finds them. -/
theorem mat0 (c : Dev nD) :
    (dat0 (F := Ideal) V c).arrAt 2 cfg0.N = Cert.Gcn.matProd (V c main_v4) (V c main_v5) :=
  (dat0 (F := Ideal) V c).arrAt_eq_of_cover 2 (Cert.Gcn.matProd (V c main_v4) (V c main_v5)) (fun t _ => flushed0_eq V c t) cover0

end

end Cert.KVal

end
-- ==== Proof.KMat2.lean ====
/-
  What region 2 (a matrix product) leaves in its output array, for any contents at its entry.

  The region walks five grid points; point t multiplies rows 10000·t … 10000·t + 9999 of the 50000 × 96 node array by
  the whole 96 × 96 weight array and writes the 10000 × 96 block of products back at the same rows. Entry (p, q) of a
  block's product is the sum over k of (row p, column k) times (weight row k, column q); the block's row p is the array's
  row 10000·t + p, so the block written at point t is block t of the product of the whole arrays, and the five blocks
  cover every row. Hence the output array ends as the product of the two arrays.
-/
import proofs.«178079_j40450001993771_1_alg».proof.Proof.Gen.KernelIdeal.Frame
import proofs.«178079_j40450001993771_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KVal

open Idealize.ShloMosaic Idealize.ShloMosaic.TcCoe Idealize.SL.Sem Cert.KernelIdeal Cert.KernelIdeal.Gen
open Idealize.ShloMosaic.ValueIdx
open Idealize.ShloMosaic.Pipeline (Dat)

/-- The offsets of a whole-block access are all zero. -/
theorem hz2 : (![0, 0] : Fin 2 → Nat) = fun _ => 0 := funext fun a => by fin_cases a <;> rfl

/-- The product of a block of rows by the weight block, at entry (p, q): the sum over the 96 contracted coordinates
    of the products of the row's and the column's entries. -/
theorem pay2_apply (x0 : FVec Ideal S10000x96 .bf16) (x1 : FVec Ideal S96x96 .bf16) (p : Fin 10000) (q : Fin 96) :
    k2_pay1 (F := Ideal) x0 x1 (ix2 p q) = ∑ k : Fin 96, x0 (ix2 p k) * x1 (ix2 k q) := by
  unfold k2_pay1
  show FloatOps.matmul dot_S10000x96_S96x96_S10000x96_1_0_0_1_n_n none (shapeCast S10000x96 x0 shapeCasts_S10000x96_S10000x96) (shapeCast S96x96 x1 shapeCasts_S96x96_S96x96) (constant S10000x96 .f32 0x00000000#32) (ix2 p q) = _
  rw [shapeCast_self, shapeCast_self]
  refine (Ideal.matmul_constant_zero_apply _ none x0 x1 (ix2 p q)).trans ?_
  rw [← Equiv.sum_comp (contrEquiv1 dot_S10000x96_S96x96_S10000x96_1_0_0_1_n_n 96 rfl rfl).symm]
  refine Finset.sum_congr rfl fun c _ => ?_
  have c2 := contrEquiv1_symm_val dot_S10000x96_S96x96_S10000x96_1_0_0_1_n_n 96 rfl rfl c
  have l2 : dot_S10000x96_S96x96_S10000x96_1_0_0_1_n_n.lhsIdx (ix2 p q) ((contrEquiv1 _ 96 rfl rfl).symm c) = ix2 p c := by
    funext ax; apply Fin.ext
    match ax with
    | ⟨0, _⟩ => simp [DotDims.lhsIdx, dot_S10000x96_S96x96_S10000x96_1_0_0_1_n_n]; rfl
    | ⟨1, _⟩ => exact (DotDims.lhsIdx_val_of_single _ rfl _ _).trans c2
  have r2 : dot_S10000x96_S96x96_S10000x96_1_0_0_1_n_n.rhsIdx (ix2 p q) ((contrEquiv1 _ 96 rfl rfl).symm c) = ix2 c q := by
    funext ax; apply Fin.ext
    match ax with
    | ⟨0, _⟩ => exact (DotDims.rhsIdx_val_of_single _ rfl _ _).trans c2
    | ⟨1, _⟩ => simp [DotDims.rhsIdx, dot_S10000x96_S96x96_S10000x96_1_0_0_1_n_n]; rfl
  rw [l2, r2]

/-- The block's product at a block index is the whole arrays' product at the array index under it: the block of rows
    holds the array's rows at the same row (`h0`), and the weight block's column is the weight array's (`h1`). -/
theorem point2 (x0 : FVec Ideal S10000x96 .bf16) (x1 : FVec Ideal S96x96 .bf16)
    (a : S50000x96.Idx → EReal) (w : S96x96.Idx → EReal) (p : Fin 10000) (q : Fin 96) (i : S50000x96.Idx)
    (h0 : ∀ k : Fin 96, x0 (ix2 p k) = a (ix2 (i 0) k)) (h1 : ∀ k : Fin 96, x1 (ix2 k q) = w (ix2 k (i 1))) :
    k2_pay1 (F := Ideal) x0 x1 (ix2 p q) = Cert.Gcn.matProd a w i := by
  rw [pay2_apply]
  unfold Cert.Gcn.matProd
  exact Finset.sum_congr rfl fun k _ => by rw [h0 k, h1 k]

/-- The printed index maps, decided over the five grid points: the row window of the input moves with the output's,
    whose block index is the point's number; the weight window stays at block zero. -/
theorem idx_facts2 : ∀ t : Fin cfg2.N, win2_0.index t (0 : Fin 2) = win2_2.index t (0 : Fin 2)
    ∧ win2_0.index t (1 : Fin 2) = 0
    ∧ win2_1.index t (0 : Fin 2) = 0
    ∧ win2_1.index t (1 : Fin 2) = 0
    ∧ win2_2.index t (0 : Fin 2) = t.val
    ∧ win2_2.index t (1 : Fin 2) = 0 :=
  (by decide +kernel : ∀ t : Fin grid2.N, _)

/-- Every one of the five row blocks is some point's. -/
theorem idx_onto2 : ∀ (q0 : Fin 5), ∃ t : Fin cfg2.N, win2_2.index t = ![q0.val, 0] :=
  (by decide +kernel : ∀ (q0 : Fin 5), ∃ t : Fin grid2.N, win2_2.index t = ![q0.val, 0])

/-- An index of the output array is in point `t`'s block iff each coordinate is in the block's range on its axis. -/
theorem mem_blk2 (t : Fin cfg2.N) (i : S50000x96.Idx) :
    i ∈ ((cfg2.win 2).blk t).view.set ↔ ∀ a : Fin 2, win2_2.index t a * S10000x96.size a ≤ (i a).val ∧ (i a).val < win2_2.index t a * S10000x96.size a + S10000x96.size a := by
  show i ∈ ((View.whole main_v50).slice (win2_2.rect t)).set ↔ _
  rw [View.set_slice_whole, Rect.mem_set_unit]
  exact Iff.rfl

/-- The five blocks of 10000 rows cover the 50000 rows: row `r` is in the block of point `r / 10000`. -/
theorem cover2 (i : S50000x96.Idx) :
    ∃ t : Fin cfg2.N, (cfg2.win 2).flush t = true ∧ i ∈ ((cfg2.win 2).blk t).view.set := by
  have hi0 : (i 0).val < 50000 := (i 0).isLt
  have hi1 : (i 1).val < 96 := (i 1).isLt
  obtain ⟨t, ht⟩ := idx_onto2 ⟨(i 0).val / 10000, by omega⟩
  have q0 : win2_2.index t (0 : Fin 2) = (i 0).val / 10000 := congrFun ht 0
  have q1 : win2_2.index t (1 : Fin 2) = 0 := congrFun ht 1
  refine ⟨t, flush2_2 t, ?_⟩
  rw [mem_blk2]
  intro a
  match a with
  | ⟨0, _⟩ => show win2_2.index t (0 : Fin 2) * 10000 ≤ (i 0).val ∧ (i 0).val < win2_2.index t (0 : Fin 2) * 10000 + 10000; omega
  | ⟨1, _⟩ => show win2_2.index t (1 : Fin 2) * 96 ≤ (i 1).val ∧ (i 1).val < win2_2.index t (1 : Fin 2) * 96 + 96; omega

section
variable (V : (c : Dev nD) → (b : Ref sig .tc) → Buf (Elt Ideal) ((c : Thread nD τ).loc b))

/-- What point `t` writes back is block `t` of the product of the two arrays as the region finds them: an entry of
    the row block sits in the array at block index times 10000 plus its own row, the weight block is the whole array. -/
theorem flushed2_eq (c : Dev nD) (t : Fin cfg2.N) :
    (dat2 (F := Ideal) V c).flushed 2 t
      = ((cfg2.win 2).blk t).view.read (Elt Ideal) (Cert.Gcn.matProd (V c main_v48) (V c main_v49)) := by
  show (cfg2.win 2).cut (grid2.coords t) ((dat2 V c).after 2 t) = _
  rw [after2_2]
  unfold out2_2
  rw [View.canon_unit_zero hz2]
  simp only [View.ld_unit_zero (S := S10000x96) hz2, View.ld_unit_zero (S := S96x96) hz2]
  obtain ⟨e0, e1, e2, e3, e4, e5⟩ := idx_facts2 t
  funext j
  obtain ⟨p, q, rfl⟩ : ∃ (p : Fin 10000) (q : Fin 96), j = ix2 p q := ⟨j 0, j 1, eq_ix2 j⟩
  show k2_pay1 (F := Ideal) (iblk2 V c 0 t) (iblk2 V c 1 t) (ix2 p q)
    = Cert.Gcn.matProd (V c main_v48) (V c main_v49) (((cfg2.win 2).blk t).view.emb (ix2 p q))
  refine point2 _ _ _ _ p q _ (fun k => ?_) (fun k => ?_)
  · show V c main_v48 (((cfg2.win 0).blk t).view.emb (ix2 p k)) = V c main_v48 (ix2 ((((cfg2.win 2).blk t).view.emb (ix2 p q)) 0) k)
    congr 1
    funext a; apply Fin.ext
    match a with
    | ⟨0, _⟩ => show win2_0.index t (0 : Fin 2) * 10000 + 1 * p.val = win2_2.index t (0 : Fin 2) * 10000 + 1 * p.val; omega
    | ⟨1, _⟩ => show win2_0.index t (1 : Fin 2) * 96 + 1 * k.val = k.val; omega
  · show V c main_v49 (((cfg2.win 1).blk t).view.emb (ix2 k q)) = V c main_v49 (ix2 k ((((cfg2.win 2).blk t).view.emb (ix2 p q)) 1))
    congr 1
    funext a; apply Fin.ext
    match a with
    | ⟨0, _⟩ => show win2_1.index t (0 : Fin 2) * 96 + 1 * k.val = k.val; omega
    | ⟨1, _⟩ => show win2_1.index t (1 : Fin 2) * 96 + 1 * q.val = win2_2.index t (1 : Fin 2) * 96 + 1 * q.val; omega

/-- REGION 2's OUTPUT ARRAY after the region: the product of the node array by the weight array as the region finds them. -/
theorem mat2 (c : Dev nD) :
    (dat2 (F := Ideal) V c).arrAt 2 cfg2.N = Cert.Gcn.matProd (V c main_v48) (V c main_v49) :=
  (dat2 (F := Ideal) V c).arrAt_eq_of_cover 2 (Cert.Gcn.matProd (V c main_v48) (V c main_v49)) (fun t _ => flushed2_eq V c t) cover2

end

end Cert.KVal

end
-- ==== Proof.KClose1.lean ====
/-
  What a layer's pointwise close leaves in its output array: the region whose body stores
  `max ((agg + self) + bias, 0)` block by block, the bias row broadcast down the rows, ends holding
  `Cert.Gcn.layerClose` of the three arrays it reads, whatever those arrays hold when the region is entered.

  The steps: the body's payload read at one index of a block; what one grid point writes back, as its block
  of the whole-array function; the ten grid points' blocks of 5000 rows cover the 50000 rows; hence the array.
-/
import proofs.«178079_j40450001993771_1_alg».proof.Proof.Gen.KernelIdeal.Frame
import proofs.«178079_j40450001993771_1_alg».proof.Proof.Spec
import Idealize.ShloMosaic.PureOps.Ideal.Laws
import Idealize.ShloMosaic.Lib.Pipeline.Value
import Idealize.ShloMosaic.Lib.ValueIdx
import Idealize.ShloMosaic.Lib.ValueLayout

noncomputable section

namespace Cert.KVal

open Idealize.ShloMosaic Idealize.ShloMosaic.TcCoe Idealize.SL.Sem Cert.KernelIdeal Cert.KernelIdeal.Gen
open Idealize.ShloMosaic.Pipeline (Dat)
open Idealize.ShloMosaic.ValueIdx

/-- The zero offsets of a whole-buffer access, as a constant function. -/
theorem close1_zero_off : (![0, 0] : Fin 2 → Nat) = fun _ => 0 := funext fun a => by fin_cases a <;> rfl

/-! ## The payload at an index -/

/-- The body's payload at row `p`, lane `q` of a block: the two blocks' elements added, the bias row's lane `q` added,
    and the maximum with zero taken. -/
theorem close1_pay_ix (x0 x1 : Vec Ideal S5000x96 .f32) (x2 : Vec Ideal S1x96 .f32) (p : Fin 5000) (q : Fin 96) :
    k1_pay1 (F := Ideal) x0 x1 x2 (ix2 p q)
      = max ((x0 (ix2 p q) + x1 (ix2 p q)) + x2 (ix2 (0 : Fin 1) q)) 0 := by
  unfold k1_pay1
  simp only [shapeCast_self]
  refine (maximumf_apply _ _ (ix2 p q)).trans ?_
  refine congrArg₂ max ?_ ?_
  · refine (addf_apply _ _ (ix2 p q)).trans ?_
    refine congrArg₂ (· + ·) ?_ ?_
    · exact addf_apply _ _ (ix2 p q)
    · exact broadcastTo_1b_ab_apply x2 _ p q
  · exact Ideal.ofBits_zero_f32

/-- The payload at a block index `j` is the layer's close at an array index `i`, once the three blocks read, at `j`
    (the bias row at lane `j 1`), what the three arrays hold at `i` (the bias row at lane `i 1`). -/
theorem close1_pay_eq (A S : S50000x96.Idx → EReal) (B : S1x96.Idx → EReal)
    (x0 x1 : Vec Ideal S5000x96 .f32) (x2 : Vec Ideal S1x96 .f32) (j : S5000x96.Idx) (i : S50000x96.Idx)
    (h0 : x0 j = A i) (h1 : x1 j = S i)
    (h2 : x2 (ix2 (0 : Fin 1) (j 1)) = B (ix2 (0 : Fin 1) (i 1))) :
    k1_pay1 (F := Ideal) x0 x1 x2 j = Cert.Gcn.layerClose A S B i := by
  obtain ⟨p, q, rfl⟩ : ∃ (p : Fin 5000) (q : Fin 96), j = ix2 p q := ⟨j 0, j 1, eq_ix2 j⟩
  have h2' : x2 (ix2 (0 : Fin 1) q) = B (ix2 (0 : Fin 1) (i 1)) := h2
  rw [close1_pay_ix, h0, h1, h2']
  rfl

/-! ## One grid point's write-back -/

/-- The block index maps over the ten grid points: the two row-blocked inputs and the output sit at block `t` of the
    rows and block 0 of the lanes; the bias row's one block is the whole row at every point. -/
theorem close1_idx : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What point `t` writes back is block `t` of the layer's close of the three arrays as the region finds them. -/
theorem close1_flushed (V : (c : Dev nD) → (b : Ref sig .tc) → Buf (Elt Ideal) ((c : Thread nD τ).loc b))
    (c : Dev nD) (t : Fin cfg1.N) :
    (dat1 (F := Ideal) V c).flushed 3 t
      = ((cfg1.win 3).blk t).view.read (Elt Ideal)
          (Cert.Gcn.layerClose (V c main_v41) (V c main_v45) (V c main_v46)) := by
  show (cfg1.win 3).cut (grid1.coords t) ((dat1 V c).after 3 t) = _
  rw [after1_3]
  unfold out1_3
  rw [View.canon_unit_zero close1_zero_off]
  simp only [View.ld_unit_zero (S := S5000x96) close1_zero_off, View.ld_unit_zero (S := S1x96) close1_zero_off]
  obtain ⟨e00, e01, e10, e11, e20, e21, e30, e31⟩ := close1_idx t
  funext j
  show k1_pay1 (F := Ideal) (iblk1 V c 0 t) (iblk1 V c 1 t) (iblk1 V c 2 t) j
    = Cert.Gcn.layerClose (V c main_v41) (V c main_v45) (V c main_v46) (((cfg1.win 3).blk t).view.emb j)
  refine close1_pay_eq (V c main_v41) (V c main_v45) (V c main_v46) (iblk1 V c 0 t) (iblk1 V c 1 t) (iblk1 V c 2 t) j
    (((cfg1.win 3).blk t).view.emb j) ?_ ?_ ?_
  · show V c main_v41 (((cfg1.win 0).blk t).view.emb j) = V c main_v41 (((cfg1.win 3).blk t).view.emb j)
    refine congrArg (V c main_v41) ?_
    funext a; apply Fin.ext
    match a with
    | ⟨0, _⟩ => show win1_0.index t (0 : Fin 2) * 5000 + 1 * (j 0).val = win1_3.index t (0 : Fin 2) * 5000 + 1 * (j 0).val; omega
    | ⟨1, _⟩ => show win1_0.index t (1 : Fin 2) * 96 + 1 * (j 1).val = win1_3.index t (1 : Fin 2) * 96 + 1 * (j 1).val; omega
  · show V c main_v45 (((cfg1.win 1).blk t).view.emb j) = V c main_v45 (((cfg1.win 3).blk t).view.emb j)
    refine congrArg (V c main_v45) ?_
    funext a; apply Fin.ext
    match a with
    | ⟨0, _⟩ => show win1_1.index t (0 : Fin 2) * 5000 + 1 * (j 0).val = win1_3.index t (0 : Fin 2) * 5000 + 1 * (j 0).val; omega
    | ⟨1, _⟩ => show win1_1.index t (1 : Fin 2) * 96 + 1 * (j 1).val = win1_3.index t (1 : Fin 2) * 96 + 1 * (j 1).val; omega
  · show V c main_v46 (((cfg1.win 2).blk t).view.emb (ix2 (0 : Fin 1) (j 1)))
      = V c main_v46 (ix2 (0 : Fin 1) (((cfg1.win 3).blk t).view.emb j 1))
    refine congrArg (V c main_v46) ?_
    funext a; apply Fin.ext
    match a with
    | ⟨0, _⟩ => show win1_2.index t (0 : Fin 2) * 1 + 1 * 0 = 0; omega
    | ⟨1, _⟩ => show win1_2.index t (1 : Fin 2) * 96 + 1 * (j 1).val = win1_3.index t (1 : Fin 2) * 96 + 1 * (j 1).val; omega

/-! ## The blocks cover the array -/

/-- An index of the array is in point `t`'s block iff each coordinate is in the block's range on its axis. -/
theorem close1_mem_blk (t : Fin cfg1.N) (i : S50000x96.Idx) :
    i ∈ ((cfg1.win 3).blk t).view.set ↔ ∀ a : Fin 2, win1_3.index t a * S5000x96.size a ≤ (i a).val
      ∧ (i a).val < win1_3.index t a * S5000x96.size a + S5000x96.size a := by
  show i ∈ ((View.whole main_v47).slice (win1_3.rect t)).set ↔ _
  rw [View.set_slice_whole, Rect.mem_set_unit]
  exact Iff.rfl

/-- Row `r` of the array is in the block of point `r / 5000`. -/
theorem close1_cover (i : S50000x96.Idx) :
    ∃ t : Fin cfg1.N, (cfg1.win 3).flush t = true ∧ i ∈ ((cfg1.win 3).blk t).view.set := by
  have hi0 : (i 0).val < 50000 := (i 0).isLt
  have hi1 : (i 1).val < 96 := (i 1).isLt
  obtain ⟨t, ht⟩ : ∃ t : Fin cfg1.N, t.val = (i 0).val / 5000 :=
    ⟨⟨(i 0).val / 5000, by rw [show cfg1.N = 10 from N_1]; omega⟩, rfl⟩
  obtain ⟨-, -, -, -, -, -, e30, e31⟩ := close1_idx t
  refine ⟨t, flush1_3 t, ?_⟩
  rw [close1_mem_blk]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 96 ≤ (i 1).val ∧ (i 1).val < win1_3.index t (1 : Fin 2) * 96 + 96; omega

/-! ## The array after the region -/

/-- The output array after the region's ten write-backs is the layer's close of the three arrays it reads. -/
theorem close1 (V : (c : Dev nD) → (b : Ref sig .tc) → Buf (Elt Ideal) ((c : Thread nD τ).loc b)) (c : Dev nD) :
    (dat1 (F := Ideal) V c).arrAt 3 cfg1.N = Cert.Gcn.layerClose (V c main_v41) (V c main_v45) (V c main_v46) :=
  (dat1 (F := Ideal) V c).arrAt_eq_of_cover 3 (Cert.Gcn.layerClose (V c main_v41) (V c main_v45) (V c main_v46))
    (fun t _ => close1_flushed V c t) close1_cover

end Cert.KVal

end
-- ==== Proof.KClose3.lean ====
/-
  What a layer's pointwise close leaves in its output array: the region whose body stores
  `max ((agg + self) + bias, 0)` block by block, the bias row broadcast down the rows, ends holding
  `Cert.Gcn.layerClose` of the three arrays it reads, whatever those arrays hold when the region is entered.

  The steps: the body's payload read at one index of a block; what one grid point writes back, as its block
  of the whole-array function; the ten grid points' blocks of 5000 rows cover the 50000 rows; hence the array.
-/
import proofs.«178079_j40450001993771_1_alg».proof.Proof.Gen.KernelIdeal.Frame
import proofs.«178079_j40450001993771_1_alg».proof.Proof.Spec
import Idealize.ShloMosaic.PureOps.Ideal.Laws
import Idealize.ShloMosaic.Lib.Pipeline.Value
import Idealize.ShloMosaic.Lib.ValueIdx
import Idealize.ShloMosaic.Lib.ValueLayout

noncomputable section

namespace Cert.KVal

open Idealize.ShloMosaic Idealize.ShloMosaic.TcCoe Idealize.SL.Sem Cert.KernelIdeal Cert.KernelIdeal.Gen
open Idealize.ShloMosaic.Pipeline (Dat)
open Idealize.ShloMosaic.ValueIdx

/-- The zero offsets of a whole-buffer access, as a constant function. -/
theorem close3_zero_off : (![0, 0] : Fin 2 → Nat) = fun _ => 0 := funext fun a => by fin_cases a <;> rfl

/-! ## The payload at an index -/

/-- The body's payload at row `p`, lane `q` of a block: the two blocks' elements added, the bias row's lane `q` added,
    and the maximum with zero taken. -/
theorem close3_pay_ix (x0 x1 : Vec Ideal S5000x96 .f32) (x2 : Vec Ideal S1x96 .f32) (p : Fin 5000) (q : Fin 96) :
    k3_pay1 (F := Ideal) x0 x1 x2 (ix2 p q)
      = max ((x0 (ix2 p q) + x1 (ix2 p q)) + x2 (ix2 (0 : Fin 1) q)) 0 := by
  unfold k3_pay1
  simp only [shapeCast_self]
  refine (maximumf_apply _ _ (ix2 p q)).trans ?_
  refine congrArg₂ max ?_ ?_
  · refine (addf_apply _ _ (ix2 p q)).trans ?_
    refine congrArg₂ (· + ·) ?_ ?_
    · exact addf_apply _ _ (ix2 p q)
    · exact broadcastTo_1b_ab_apply x2 _ p q
  · exact Ideal.ofBits_zero_f32

/-- The payload at a block index `j` is the layer's close at an array index `i`, once the three blocks read, at `j`
    (the bias row at lane `j 1`), what the three arrays hold at `i` (the bias row at lane `i 1`). -/
theorem close3_pay_eq (A S : S50000x96.Idx → EReal) (B : S1x96.Idx → EReal)
    (x0 x1 : Vec Ideal S5000x96 .f32) (x2 : Vec Ideal S1x96 .f32) (j : S5000x96.Idx) (i : S50000x96.Idx)
    (h0 : x0 j = A i) (h1 : x1 j = S i)
    (h2 : x2 (ix2 (0 : Fin 1) (j 1)) = B (ix2 (0 : Fin 1) (i 1))) :
    k3_pay1 (F := Ideal) x0 x1 x2 j = Cert.Gcn.layerClose A S B i := by
  obtain ⟨p, q, rfl⟩ : ∃ (p : Fin 5000) (q : Fin 96), j = ix2 p q := ⟨j 0, j 1, eq_ix2 j⟩
  have h2' : x2 (ix2 (0 : Fin 1) q) = B (ix2 (0 : Fin 1) (i 1)) := h2
  rw [close3_pay_ix, h0, h1, h2']
  rfl

/-! ## One grid point's write-back -/

/-- The block index maps over the ten grid points: the two row-blocked inputs and the output sit at block `t` of the
    rows and block 0 of the lanes; the bias row's one block is the whole row at every point. -/
theorem close3_idx : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- What point `t` writes back is block `t` of the layer's close of the three arrays as the region finds them. -/
theorem close3_flushed (V : (c : Dev nD) → (b : Ref sig .tc) → Buf (Elt Ideal) ((c : Thread nD τ).loc b))
    (c : Dev nD) (t : Fin cfg3.N) :
    (dat3 (F := Ideal) V c).flushed 3 t
      = ((cfg3.win 3).blk t).view.read (Elt Ideal)
          (Cert.Gcn.layerClose (V c main_v85) (V c main_v89) (V c main_v90)) := by
  show (cfg3.win 3).cut (grid3.coords t) ((dat3 V c).after 3 t) = _
  rw [after3_3]
  unfold out3_3
  rw [View.canon_unit_zero close3_zero_off]
  simp only [View.ld_unit_zero (S := S5000x96) close3_zero_off, View.ld_unit_zero (S := S1x96) close3_zero_off]
  obtain ⟨e00, e01, e10, e11, e20, e21, e30, e31⟩ := close3_idx t
  funext j
  show k3_pay1 (F := Ideal) (iblk3 V c 0 t) (iblk3 V c 1 t) (iblk3 V c 2 t) j
    = Cert.Gcn.layerClose (V c main_v85) (V c main_v89) (V c main_v90) (((cfg3.win 3).blk t).view.emb j)
  refine close3_pay_eq (V c main_v85) (V c main_v89) (V c main_v90) (iblk3 V c 0 t) (iblk3 V c 1 t) (iblk3 V c 2 t) j
    (((cfg3.win 3).blk t).view.emb j) ?_ ?_ ?_
  · show V c main_v85 (((cfg3.win 0).blk t).view.emb j) = V c main_v85 (((cfg3.win 3).blk t).view.emb j)
    refine congrArg (V c main_v85) ?_
    funext a; apply Fin.ext
    match a with
    | ⟨0, _⟩ => show win3_0.index t (0 : Fin 2) * 5000 + 1 * (j 0).val = win3_3.index t (0 : Fin 2) * 5000 + 1 * (j 0).val; omega
    | ⟨1, _⟩ => show win3_0.index t (1 : Fin 2) * 96 + 1 * (j 1).val = win3_3.index t (1 : Fin 2) * 96 + 1 * (j 1).val; omega
  · show V c main_v89 (((cfg3.win 1).blk t).view.emb j) = V c main_v89 (((cfg3.win 3).blk t).view.emb j)
    refine congrArg (V c main_v89) ?_
    funext a; apply Fin.ext
    match a with
    | ⟨0, _⟩ => show win3_1.index t (0 : Fin 2) * 5000 + 1 * (j 0).val = win3_3.index t (0 : Fin 2) * 5000 + 1 * (j 0).val; omega
    | ⟨1, _⟩ => show win3_1.index t (1 : Fin 2) * 96 + 1 * (j 1).val = win3_3.index t (1 : Fin 2) * 96 + 1 * (j 1).val; omega
  · show V c main_v90 (((cfg3.win 2).blk t).view.emb (ix2 (0 : Fin 1) (j 1)))
      = V c main_v90 (ix2 (0 : Fin 1) (((cfg3.win 3).blk t).view.emb j 1))
    refine congrArg (V c main_v90) ?_
    funext a; apply Fin.ext
    match a with
    | ⟨0, _⟩ => show win3_2.index t (0 : Fin 2) * 1 + 1 * 0 = 0; omega
    | ⟨1, _⟩ => show win3_2.index t (1 : Fin 2) * 96 + 1 * (j 1).val = win3_3.index t (1 : Fin 2) * 96 + 1 * (j 1).val; omega

/-! ## The blocks cover the array -/

/-- An index of the array is in point `t`'s block iff each coordinate is in the block's range on its axis. -/
theorem close3_mem_blk (t : Fin cfg3.N) (i : S50000x96.Idx) :
    i ∈ ((cfg3.win 3).blk t).view.set ↔ ∀ a : Fin 2, win3_3.index t a * S5000x96.size a ≤ (i a).val
      ∧ (i a).val < win3_3.index t a * S5000x96.size a + S5000x96.size a := by
  show i ∈ ((View.whole main_v91).slice (win3_3.rect t)).set ↔ _
  rw [View.set_slice_whole, Rect.mem_set_unit]
  exact Iff.rfl

/-- Row `r` of the array is in the block of point `r / 5000`. -/
theorem close3_cover (i : S50000x96.Idx) :
    ∃ t : Fin cfg3.N, (cfg3.win 3).flush t = true ∧ i ∈ ((cfg3.win 3).blk t).view.set := by
  have hi0 : (i 0).val < 50000 := (i 0).isLt
  have hi1 : (i 1).val < 96 := (i 1).isLt
  obtain ⟨t, ht⟩ : ∃ t : Fin cfg3.N, t.val = (i 0).val / 5000 :=
    ⟨⟨(i 0).val / 5000, by rw [show cfg3.N = 10 from N_3]; omega⟩, rfl⟩
  obtain ⟨-, -, -, -, -, -, e30, e31⟩ := close3_idx t
  refine ⟨t, flush3_3 t, ?_⟩
  rw [close3_mem_blk]
  intro a
  match a with
  | ⟨0, _⟩ => show win3_3.index t (0 : Fin 2) * 5000 ≤ (i 0).val ∧ (i 0).val < win3_3.index t (0 : Fin 2) * 5000 + 5000; omega
  | ⟨1, _⟩ => show win3_3.index t (1 : Fin 2) * 96 ≤ (i 1).val ∧ (i 1).val < win3_3.index t (1 : Fin 2) * 96 + 96; omega

/-! ## The array after the region -/

/-- The output array after the region's ten write-backs is the layer's close of the three arrays it reads. -/
theorem close3 (V : (c : Dev nD) → (b : Ref sig .tc) → Buf (Elt Ideal) ((c : Thread nD τ).loc b)) (c : Dev nD) :
    (dat3 (F := Ideal) V c).arrAt 3 cfg3.N = Cert.Gcn.layerClose (V c main_v85) (V c main_v89) (V c main_v90) :=
  (dat3 (F := Ideal) V c).arrAt_eq_of_cover 3 (Cert.Gcn.layerClose (V c main_v85) (V c main_v89) (V c main_v90))
    (fun t _ => close3_flushed V c t) close3_cover

end Cert.KVal

end
-- ==== Proof.KHead.lean ====
/-
  What region 4 (the head) leaves in its output array, for any contents at its entry.

  The region has one grid point and every window is its whole array. The payload is
    pool · wa + max (md · wm + bm, 0) · wb + bf,
  the two bias rows broadcast down the 64 graphs, each product a sum over the contracted coordinate (96, 30 and 96
  terms). At entry (p, q) that is the head of the specification at (p, q); a block entry is the array entry at the same
  coordinates, and the one block covers the 64 × 10 output. Hence the output array ends as the head of the seven arrays.
-/
import proofs.«178079_j40450001993771_1_alg».proof.Proof.Gen.KernelIdeal.Frame
import proofs.«178079_j40450001993771_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KVal

open Idealize.ShloMosaic Idealize.ShloMosaic.TcCoe Idealize.SL.Sem Cert.KernelIdeal Cert.KernelIdeal.Gen
open Idealize.ShloMosaic.ValueIdx
open Idealize.ShloMosaic.Pipeline (Dat)

/-- The offsets of a whole-block access are all zero. -/
theorem hz4 : (![0, 0] : Fin 2 → Nat) = fun _ => 0 := funext fun a => by fin_cases a <;> rfl

/-- A 64 × 30 by 30 × 96 product into a zero accumulator, at entry (p, q): the sum over the 30 contracted coordinates. -/
theorem dot_64x30_30x96_apply (x : FVec Ideal S64x30 .f32) (w : FVec Ideal S30x96 .f32) (p : Fin 64) (q : Fin 96) :
    matmul dot_S64x30_S30x96_S64x96_1_0_0_1_n_n none x w (constant (F := Ideal) S64x96 .f32 0x00000000#32) (ix2 p q)
      = ∑ k : Fin 30, x (ix2 p k) * w (ix2 k q) := by
  show FloatOps.matmul dot_S64x30_S30x96_S64x96_1_0_0_1_n_n none x w (constant S64x96 .f32 0x00000000#32) (ix2 p q) = _
  refine (Ideal.matmul_constant_zero_apply _ none x w (ix2 p q)).trans ?_
  rw [← Equiv.sum_comp (contrEquiv1 dot_S64x30_S30x96_S64x96_1_0_0_1_n_n 30 rfl rfl).symm]
  refine Finset.sum_congr rfl fun c _ => ?_
  have c2 := contrEquiv1_symm_val dot_S64x30_S30x96_S64x96_1_0_0_1_n_n 30 rfl rfl c
  have l2 : dot_S64x30_S30x96_S64x96_1_0_0_1_n_n.lhsIdx (ix2 p q) ((contrEquiv1 _ 30 rfl rfl).symm c) = ix2 p c := by
    funext ax; apply Fin.ext
    match ax with
    | ⟨0, _⟩ => simp [DotDims.lhsIdx, dot_S64x30_S30x96_S64x96_1_0_0_1_n_n]; rfl
    | ⟨1, _⟩ => exact (DotDims.lhsIdx_val_of_single _ rfl _ _).trans c2
  have r2 : dot_S64x30_S30x96_S64x96_1_0_0_1_n_n.rhsIdx (ix2 p q) ((contrEquiv1 _ 30 rfl rfl).symm c) = ix2 c q := by
    funext ax; apply Fin.ext
    match ax with
    | ⟨0, _⟩ => exact (DotDims.rhsIdx_val_of_single _ rfl _ _).trans c2
    | ⟨1, _⟩ => simp [DotDims.rhsIdx, dot_S64x30_S30x96_S64x96_1_0_0_1_n_n]; rfl
  rw [l2, r2]

/-- A 64 × 96 by 96 × 10 product into a zero accumulator, at entry (p, q): the sum over the 96 contracted coordinates. -/
theorem dot_64x96_96x10_apply (x : FVec Ideal S64x96 .f32) (w : FVec Ideal S96x10 .f32) (p : Fin 64) (q : Fin 10) :
    matmul dot_S64x96_S96x10_S64x10_1_0_0_1_n_n none x w (constant (F := Ideal) S64x10 .f32 0x00000000#32) (ix2 p q)
      = ∑ k : Fin 96, x (ix2 p k) * w (ix2 k q) := by
  show FloatOps.matmul dot_S64x96_S96x10_S64x10_1_0_0_1_n_n none x w (constant S64x10 .f32 0x00000000#32) (ix2 p q) = _
  refine (Ideal.matmul_constant_zero_apply _ none x w (ix2 p q)).trans ?_
  rw [← Equiv.sum_comp (contrEquiv1 dot_S64x96_S96x10_S64x10_1_0_0_1_n_n 96 rfl rfl).symm]
  refine Finset.sum_congr rfl fun c _ => ?_
  have c2 := contrEquiv1_symm_val dot_S64x96_S96x10_S64x10_1_0_0_1_n_n 96 rfl rfl c
  have l2 : dot_S64x96_S96x10_S64x10_1_0_0_1_n_n.lhsIdx (ix2 p q) ((contrEquiv1 _ 96 rfl rfl).symm c) = ix2 p c := by
    funext ax; apply Fin.ext
    match ax with
    | ⟨0, _⟩ => simp [DotDims.lhsIdx, dot_S64x96_S96x10_S64x10_1_0_0_1_n_n]; rfl
    | ⟨1, _⟩ => exact (DotDims.lhsIdx_val_of_single _ rfl _ _).trans c2
  have r2 : dot_S64x96_S96x10_S64x10_1_0_0_1_n_n.rhsIdx (ix2 p q) ((contrEquiv1 _ 96 rfl rfl).symm c) = ix2 c q := by
    funext ax; apply Fin.ext
    match ax with
    | ⟨0, _⟩ => exact (DotDims.rhsIdx_val_of_single _ rfl _ _).trans c2
    | ⟨1, _⟩ => simp [DotDims.rhsIdx, dot_S64x96_S96x10_S64x10_1_0_0_1_n_n]; rfl
  rw [l2, r2]

/-- The head's payload at entry (p, q): the pooled row times the first weight block, plus the rectified metadata branch
    (metadata row times its weights plus its bias row, cut at zero) times the second weight block, plus the output bias. -/
theorem pay4_apply (md : FVec Ideal S64x30 .f32) (wm : FVec Ideal S30x96 .f32) (bm : FVec Ideal S1x96 .f32)
    (pool : FVec Ideal S64x96 .f32) (wa wb : FVec Ideal S96x10 .f32) (bf : FVec Ideal S1x10 .f32) (p : Fin 64) (q : Fin 10) :
    k4_pay1 (F := Ideal) md wm bm pool wa wb bf (ix2 p q)
      = ((∑ k : Fin 96, pool (ix2 p k) * wa (ix2 k q))
          + ∑ k : Fin 96, max ((∑ l : Fin 30, md (ix2 p l) * wm (ix2 l k)) + bm (ix2 (0 : Fin 1) k)) 0 * wb (ix2 k q))
        + bf (ix2 (0 : Fin 1) q) := by
  unfold k4_pay1
  show (matmul dot_S64x96_S96x10_S64x10_1_0_0_1_n_n none (shapeCast S64x96 pool shapeCasts_S64x96_S64x96) (shapeCast S96x10 wa shapeCasts_S96x10_S96x10) (constant (F := Ideal) S64x10 .f32 0x00000000#32) (ix2 p q)
      + matmul dot_S64x96_S96x10_S64x10_1_0_0_1_n_n none
          (maximumf (addf (matmul dot_S64x30_S30x96_S64x96_1_0_0_1_n_n none (shapeCast S64x30 md shapeCasts_S64x30_S64x30) wm (constant (F := Ideal) S64x96 .f32 0x00000000#32))
            (broadcastTo S64x96 (shapeCast S1x96 bm shapeCasts_S1x96_S1x96) broadcasts_S1x96_S64x96)) (broadcast S64x96 (Scalar.ofBits .f32 0x00000000#32)))
          (shapeCast S96x10 wb shapeCasts_S96x10_S96x10) (constant (F := Ideal) S64x10 .f32 0x00000000#32) (ix2 p q))
      + broadcastTo S64x10 (shapeCast S1x10 bf shapeCasts_S1x10_S1x10) broadcasts_S1x10_S64x10 (ix2 p q) = _
  rw [shapeCast_self, shapeCast_self, shapeCast_self, shapeCast_self, shapeCast_self, shapeCast_self]
  rw [dot_64x96_96x10_apply, dot_64x96_96x10_apply, broadcastTo_1b_ab_apply]
  refine congrArg (· + bf (ix2 (0 : Fin 1) q)) (congrArg ((∑ k : Fin 96, pool (ix2 p k) * wa (ix2 k q)) + ·) (Finset.sum_congr rfl fun k _ => ?_))
  show max (matmul dot_S64x30_S30x96_S64x96_1_0_0_1_n_n none md wm (constant (F := Ideal) S64x96 .f32 0x00000000#32) (ix2 p k)
      + broadcastTo S64x96 bm broadcasts_S1x96_S64x96 (ix2 p k)) (Ideal.ofBits .f32 0x00000000#32) * wb (ix2 k q) = _
  rw [dot_64x30_30x96_apply, broadcastTo_1b_ab_apply, Ideal.ofBits_zero_f32]

/-- The payload at a block index is the head of the whole arrays at the array index under it, when every block entry
    the payload reads is the array entry the head reads. -/
theorem point4 (xmd : FVec Ideal S64x30 .f32) (xwm : FVec Ideal S30x96 .f32) (xbm : FVec Ideal S1x96 .f32)
    (xpool : FVec Ideal S64x96 .f32) (xwa xwb : FVec Ideal S96x10 .f32) (xbf : FVec Ideal S1x10 .f32)
    (pool : S64x96.Idx → EReal) (md : S64x30.Idx → EReal) (wm : S30x96.Idx → EReal) (bm : S1x96.Idx → EReal)
    (wa wb : S96x10.Idx → EReal) (bf : S1x10.Idx → EReal) (p : Fin 64) (q : Fin 10) (i : S64x10.Idx)
    (hpool : ∀ k : Fin 96, xpool (ix2 p k) = pool (ix2 (i 0) k))
    (hmd : ∀ l : Fin 30, xmd (ix2 p l) = md (ix2 (i 0) l))
    (hwm : ∀ (l : Fin 30) (k : Fin 96), xwm (ix2 l k) = wm (ix2 l k))
    (hbm : ∀ k : Fin 96, xbm (ix2 (0 : Fin 1) k) = bm (ix2 (0 : Fin 1) k))
    (hwa : ∀ k : Fin 96, xwa (ix2 k q) = wa (ix2 k (i 1)))
    (hwb : ∀ k : Fin 96, xwb (ix2 k q) = wb (ix2 k (i 1)))
    (hbf : xbf (ix2 (0 : Fin 1) q) = bf (ix2 (0 : Fin 1) (i 1))) :
    k4_pay1 (F := Ideal) xmd xwm xbm xpool xwa xwb xbf (ix2 p q) = Cert.Gcn.head pool md wm bm wa wb bf i := by
  rw [pay4_apply]
  unfold Cert.Gcn.head
  simp only [hpool, hmd, hwm, hbm, hwa, hwb, hbf]

/-- The printed index maps at the grid's one point: every window sits at block zero on both axes. -/
theorem idx_facts4 : ∀ t : Fin cfg4.N, win4_0.index t (0 : Fin 2) = 0 ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 2) = 0 ∧ win4_6.index t (1 : Fin 2) = 0
    ∧ win4_7.index t (0 : Fin 2) = 0 ∧ win4_7.index t (1 : Fin 2) = 0 :=
  (by decide +kernel : ∀ t : Fin grid4.N, _)

/-- The grid has a point. -/
theorem idx_onto4 : ∃ t : Fin cfg4.N, win4_7.index t = ![0, 0] :=
  (by decide +kernel : ∃ t : Fin grid4.N, win4_7.index t = ![0, 0])

/-- An index of the output array is in point `t`'s block iff each coordinate is in the block's range on its axis. -/
theorem mem_blk4 (t : Fin cfg4.N) (i : S64x10.Idx) :
    i ∈ ((cfg4.win 7).blk t).view.set ↔ ∀ a : Fin 2, win4_7.index t a * S64x10.size a ≤ (i a).val ∧ (i a).val < win4_7.index t a * S64x10.size a + S64x10.size a := by
  show i ∈ ((View.whole main_v120).slice (win4_7.rect t)).set ↔ _
  rw [View.set_slice_whole, Rect.mem_set_unit]
  exact Iff.rfl

/-- The one block is the whole 64 × 10 array. -/
theorem cover4 (i : S64x10.Idx) :
    ∃ t : Fin cfg4.N, (cfg4.win 7).flush t = true ∧ i ∈ ((cfg4.win 7).blk t).view.set := by
  have hi0 : (i 0).val < 64 := (i 0).isLt
  have hi1 : (i 1).val < 10 := (i 1).isLt
  obtain ⟨t, ht⟩ := idx_onto4
  have q0 : win4_7.index t (0 : Fin 2) = 0 := congrFun ht 0
  have q1 : win4_7.index t (1 : Fin 2) = 0 := congrFun ht 1
  refine ⟨t, flush4_7 t, ?_⟩
  rw [mem_blk4]
  intro a
  match a with
  | ⟨0, _⟩ => show win4_7.index t (0 : Fin 2) * 64 ≤ (i 0).val ∧ (i 0).val < win4_7.index t (0 : Fin 2) * 64 + 64; omega
  | ⟨1, _⟩ => show win4_7.index t (1 : Fin 2) * 10 ≤ (i 1).val ∧ (i 1).val < win4_7.index t (1 : Fin 2) * 10 + 10; omega

section
variable (V : (c : Dev nD) → (b : Ref sig .tc) → Buf (Elt Ideal) ((c : Thread nD τ).loc b))

/-- What the one point writes back is the (whole-array) block of the head of the seven arrays as the region finds them:
    every window's block is its whole array, so a block entry is the array entry at the same coordinates. -/
theorem flushed4_eq (c : Dev nD) (t : Fin cfg4.N) :
    (dat4 (F := Ideal) V c).flushed 7 t
      = ((cfg4.win 7).blk t).view.read (Elt Ideal) (Cert.Gcn.head (V c main_v103) (V c main_v115) (V c main_arg9) (V c main_v118) (V c main_v116) (V c main_v117) (V c main_v119)) := by
  show (cfg4.win 7).cut (grid4.coords t) ((dat4 V c).after 7 t) = _
  rw [after4_7]
  unfold out4_7
  rw [View.canon_unit_zero hz4]
  simp only [View.ld_unit_zero (S := S64x30) hz4, View.ld_unit_zero (S := S30x96) hz4, View.ld_unit_zero (S := S1x96) hz4,
    View.ld_unit_zero (S := S64x96) hz4, View.ld_unit_zero (S := S96x10) hz4, View.ld_unit_zero (S := S1x10) hz4]
  obtain ⟨a00, a01, a10, a11, a20, a21, a30, a31, a40, a41, a50, a51, a60, a61, a70, a71⟩ := idx_facts4 t
  funext j
  obtain ⟨p, q, rfl⟩ : ∃ (p : Fin 64) (q : Fin 10), j = ix2 p q := ⟨j 0, j 1, eq_ix2 j⟩
  show k4_pay1 (F := Ideal) (iblk4 V c 1 t) (iblk4 V c 2 t) (iblk4 V c 3 t) (iblk4 V c 0 t) (iblk4 V c 4 t) (iblk4 V c 5 t) (iblk4 V c 6 t) (ix2 p q)
    = Cert.Gcn.head (V c main_v103) (V c main_v115) (V c main_arg9) (V c main_v118) (V c main_v116) (V c main_v117) (V c main_v119)
        (((cfg4.win 7).blk t).view.emb (ix2 p q))
  refine point4 _ _ _ _ _ _ _ _ _ _ _ _ _ _ p q _ (fun k => ?_) (fun l => ?_) (fun l k => ?_) (fun k => ?_) (fun k => ?_) (fun k => ?_) ?_
  · show V c main_v103 (((cfg4.win 0).blk t).view.emb (ix2 p k)) = V c main_v103 (ix2 ((((cfg4.win 7).blk t).view.emb (ix2 p q)) 0) k)
    congr 1
    funext a; apply Fin.ext
    match a with
    | ⟨0, _⟩ => show win4_0.index t (0 : Fin 2) * 64 + 1 * p.val = win4_7.index t (0 : Fin 2) * 64 + 1 * p.val; omega
    | ⟨1, _⟩ => show win4_0.index t (1 : Fin 2) * 96 + 1 * k.val = k.val; omega
  · show V c main_v115 (((cfg4.win 1).blk t).view.emb (ix2 p l)) = V c main_v115 (ix2 ((((cfg4.win 7).blk t).view.emb (ix2 p q)) 0) l)
    congr 1
    funext a; apply Fin.ext
    match a with
    | ⟨0, _⟩ => show win4_1.index t (0 : Fin 2) * 64 + 1 * p.val = win4_7.index t (0 : Fin 2) * 64 + 1 * p.val; omega
    | ⟨1, _⟩ => show win4_1.index t (1 : Fin 2) * 30 + 1 * l.val = l.val; omega
  · show V c main_arg9 (((cfg4.win 2).blk t).view.emb (ix2 l k)) = V c main_arg9 (ix2 l k)
    congr 1
    funext a; apply Fin.ext
    match a with
    | ⟨0, _⟩ => show win4_2.index t (0 : Fin 2) * 30 + 1 * l.val = l.val; omega
    | ⟨1, _⟩ => show win4_2.index t (1 : Fin 2) * 96 + 1 * k.val = k.val; omega
  · show V c main_v118 (((cfg4.win 3).blk t).view.emb (ix2 (0 : Fin 1) k)) = V c main_v118 (ix2 (0 : Fin 1) k)
    congr 1
    funext a; apply Fin.ext
    match a with
    | ⟨0, _⟩ => show win4_3.index t (0 : Fin 2) * 1 + 1 * 0 = 0; omega
    | ⟨1, _⟩ => show win4_3.index t (1 : Fin 2) * 96 + 1 * k.val = k.val; omega
  · show V c main_v116 (((cfg4.win 4).blk t).view.emb (ix2 k q)) = V c main_v116 (ix2 k ((((cfg4.win 7).blk t).view.emb (ix2 p q)) 1))
    congr 1
    funext a; apply Fin.ext
    match a with
    | ⟨0, _⟩ => show win4_4.index t (0 : Fin 2) * 96 + 1 * k.val = k.val; omega
    | ⟨1, _⟩ => show win4_4.index t (1 : Fin 2) * 10 + 1 * q.val = win4_7.index t (1 : Fin 2) * 10 + 1 * q.val; omega
  · show V c main_v117 (((cfg4.win 5).blk t).view.emb (ix2 k q)) = V c main_v117 (ix2 k ((((cfg4.win 7).blk t).view.emb (ix2 p q)) 1))
    congr 1
    funext a; apply Fin.ext
    match a with
    | ⟨0, _⟩ => show win4_5.index t (0 : Fin 2) * 96 + 1 * k.val = k.val; omega
    | ⟨1, _⟩ => show win4_5.index t (1 : Fin 2) * 10 + 1 * q.val = win4_7.index t (1 : Fin 2) * 10 + 1 * q.val; omega
  · show V c main_v119 (((cfg4.win 6).blk t).view.emb (ix2 (0 : Fin 1) q)) = V c main_v119 (ix2 (0 : Fin 1) ((((cfg4.win 7).blk t).view.emb (ix2 p q)) 1))
    congr 1
    funext a; apply Fin.ext
    match a with
    | ⟨0, _⟩ => show win4_6.index t (0 : Fin 2) * 1 + 1 * 0 = 0; omega
    | ⟨1, _⟩ => show win4_6.index t (1 : Fin 2) * 10 + 1 * q.val = win4_7.index t (1 : Fin 2) * 10 + 1 * q.val; omega

/-- REGION 4's OUTPUT ARRAY after the region: the head of the seven arrays as the region finds them. -/
theorem head4 (c : Dev nD) :
    (dat4 (F := Ideal) V c).arrAt 7 cfg4.N
      = Cert.Gcn.head (V c main_v103) (V c main_v115) (V c main_arg9) (V c main_v118) (V c main_v116) (V c main_v117) (V c main_v119) :=
  (dat4 (F := Ideal) V c).arrAt_eq_of_cover 7
    (Cert.Gcn.head (V c main_v103) (V c main_v115) (V c main_arg9) (V c main_v118) (V c main_v116) (V c main_v117) (V c main_v119))
    (fun t _ => flushed4_eq V c t) cover4

end

end Cert.KVal

end
-- ==== Proof.KChain.lean ====
/-
  The idealized kernel program's result buffer at the last boundary, as the network's function of the launch
  contents. Boundary by boundary: the first stretch leaves the edge list's two rows and the operands of the first
  product; a product region leaves `x · W`; the stretch after it the aggregation, the self-loop's share and the bias
  row; a close region the layer; the same again for the second layer; the last stretches the mean pool, the
  metadata rows, the halves of the head's matrix and the bias rows; the head region the output. A buffer that a
  segment does not write is carried unchanged across it.
-/
import proofs.«178079_j40450001993771_1_alg».proof.Proof.Gen.KernelIdeal.Frame
import proofs.«178079_j40450001993771_1_alg».proof.Proof.KHost
import proofs.«178079_j40450001993771_1_alg».proof.Proof.KMat0
import proofs.«178079_j40450001993771_1_alg».proof.Proof.KMat2
import proofs.«178079_j40450001993771_1_alg».proof.Proof.KClose1
import proofs.«178079_j40450001993771_1_alg».proof.Proof.KClose3
import proofs.«178079_j40450001993771_1_alg».proof.Proof.KHead

set_option maxRecDepth 16384

noncomputable section

namespace Cert.KChain

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg) (c : Dev nD)

/-! ## After the first stretch -/

theorem b1_v1 : W1 (F := Ideal) m ρ c (Proc.devRef .tc main_v1) = (Cert.Gcn.srcRow (m ((c : Thread nD τ).loc main_arg1))) :=
  Cert.KHost.src0 (W0 m ρ c)
theorem b1_v3 : W1 (F := Ideal) m ρ c (Proc.devRef .tc main_v3) = (Cert.Gcn.dstRow (m ((c : Thread nD τ).loc main_arg1))) :=
  Cert.KHost.dst0 (W0 m ρ c)
theorem b1_v4 : W1 (F := Ideal) m ρ c (Proc.devRef .tc main_v4) = (m ((c : Thread nD τ).loc main_arg0)) :=
  Cert.KHost.x0 (W0 m ρ c)
theorem b1_v5 : W1 (F := Ideal) m ρ c (Proc.devRef .tc main_v5) = (m ((c : Thread nD τ).loc main_arg5)) :=
  Cert.KHost.w0 (W0 m ρ c)
theorem b1_arg2 : W1 (F := Ideal) m ρ c (Proc.devRef .tc main_arg2) = (m ((c : Thread nD τ).loc main_arg2)) :=
  Cert.KHost.keep0_arg2 (W0 m ρ c)
theorem b1_arg3 : W1 (F := Ideal) m ρ c (Proc.devRef .tc main_arg3) = (m ((c : Thread nD τ).loc main_arg3)) :=
  Cert.KHost.keep0_arg3 (W0 m ρ c)
theorem b1_arg4 : W1 (F := Ideal) m ρ c (Proc.devRef .tc main_arg4) = (m ((c : Thread nD τ).loc main_arg4)) :=
  Cert.KHost.keep0_arg4 (W0 m ρ c)
theorem b1_arg6 : W1 (F := Ideal) m ρ c (Proc.devRef .tc main_arg6) = (m ((c : Thread nD τ).loc main_arg6)) :=
  Cert.KHost.keep0_arg6 (W0 m ρ c)
theorem b1_arg7 : W1 (F := Ideal) m ρ c (Proc.devRef .tc main_arg7) = (m ((c : Thread nD τ).loc main_arg7)) :=
  Cert.KHost.keep0_arg7 (W0 m ρ c)
theorem b1_arg8 : W1 (F := Ideal) m ρ c (Proc.devRef .tc main_arg8) = (m ((c : Thread nD τ).loc main_arg8)) :=
  Cert.KHost.keep0_arg8 (W0 m ρ c)
theorem b1_arg9 : W1 (F := Ideal) m ρ c (Proc.devRef .tc main_arg9) = (m ((c : Thread nD τ).loc main_arg9)) :=
  Cert.KHost.keep0_arg9 (W0 m ρ c)
theorem b1_arg10 : W1 (F := Ideal) m ρ c (Proc.devRef .tc main_arg10) = (m ((c : Thread nD τ).loc main_arg10)) :=
  Cert.KHost.keep0_arg10 (W0 m ρ c)
theorem b1_arg11 : W1 (F := Ideal) m ρ c (Proc.devRef .tc main_arg11) = (m ((c : Thread nD τ).loc main_arg11)) :=
  Cert.KHost.keep0_arg11 (W0 m ρ c)
theorem b1_arg12 : W1 (F := Ideal) m ρ c (Proc.devRef .tc main_arg12) = (m ((c : Thread nD τ).loc main_arg12)) :=
  Cert.KHost.keep0_arg12 (W0 m ρ c)

/-! ## After the first product -/

theorem b2_v6 : W2 (F := Ideal) m ρ c (Proc.devRef .tc main_v6) = (Cert.Gcn.matProd (m ((c : Thread nD τ).loc main_arg0)) (m ((c : Thread nD τ).loc main_arg5))) :=
  (W2_arr m ρ c 2).trans ((Cert.KVal.mat0 (V1 m ρ) c).trans (congrArg₂ Cert.Gcn.matProd (b1_v4 m ρ c) (b1_v5 m ρ c)))
theorem b2_v1 : W2 (F := Ideal) m ρ c (Proc.devRef .tc main_v1) = (Cert.Gcn.srcRow (m ((c : Thread nD τ).loc main_arg1))) :=
  (W2_of_ne m ρ c main_v1 (by decide)).trans (b1_v1 m ρ c)
theorem b2_v3 : W2 (F := Ideal) m ρ c (Proc.devRef .tc main_v3) = (Cert.Gcn.dstRow (m ((c : Thread nD τ).loc main_arg1))) :=
  (W2_of_ne m ρ c main_v3 (by decide)).trans (b1_v3 m ρ c)
theorem b2_arg2 : W2 (F := Ideal) m ρ c (Proc.devRef .tc main_arg2) = (m ((c : Thread nD τ).loc main_arg2)) :=
  (W2_of_ne m ρ c main_arg2 (by decide)).trans (b1_arg2 m ρ c)
theorem b2_arg3 : W2 (F := Ideal) m ρ c (Proc.devRef .tc main_arg3) = (m ((c : Thread nD τ).loc main_arg3)) :=
  (W2_of_ne m ρ c main_arg3 (by decide)).trans (b1_arg3 m ρ c)
theorem b2_arg4 : W2 (F := Ideal) m ρ c (Proc.devRef .tc main_arg4) = (m ((c : Thread nD τ).loc main_arg4)) :=
  (W2_of_ne m ρ c main_arg4 (by decide)).trans (b1_arg4 m ρ c)
theorem b2_arg6 : W2 (F := Ideal) m ρ c (Proc.devRef .tc main_arg6) = (m ((c : Thread nD τ).loc main_arg6)) :=
  (W2_of_ne m ρ c main_arg6 (by decide)).trans (b1_arg6 m ρ c)
theorem b2_arg7 : W2 (F := Ideal) m ρ c (Proc.devRef .tc main_arg7) = (m ((c : Thread nD τ).loc main_arg7)) :=
  (W2_of_ne m ρ c main_arg7 (by decide)).trans (b1_arg7 m ρ c)
theorem b2_arg8 : W2 (F := Ideal) m ρ c (Proc.devRef .tc main_arg8) = (m ((c : Thread nD τ).loc main_arg8)) :=
  (W2_of_ne m ρ c main_arg8 (by decide)).trans (b1_arg8 m ρ c)
theorem b2_arg9 : W2 (F := Ideal) m ρ c (Proc.devRef .tc main_arg9) = (m ((c : Thread nD τ).loc main_arg9)) :=
  (W2_of_ne m ρ c main_arg9 (by decide)).trans (b1_arg9 m ρ c)
theorem b2_arg10 : W2 (F := Ideal) m ρ c (Proc.devRef .tc main_arg10) = (m ((c : Thread nD τ).loc main_arg10)) :=
  (W2_of_ne m ρ c main_arg10 (by decide)).trans (b1_arg10 m ρ c)
theorem b2_arg11 : W2 (F := Ideal) m ρ c (Proc.devRef .tc main_arg11) = (m ((c : Thread nD τ).loc main_arg11)) :=
  (W2_of_ne m ρ c main_arg11 (by decide)).trans (b1_arg11 m ρ c)
theorem b2_arg12 : W2 (F := Ideal) m ρ c (Proc.devRef .tc main_arg12) = (m ((c : Thread nD τ).loc main_arg12)) :=
  (W2_of_ne m ρ c main_arg12 (by decide)).trans (b1_arg12 m ρ c)

/-! ## After the stretch between the first product and the first close -/

theorem b3_v41 : W3 (F := Ideal) m ρ c (Proc.devRef .tc main_v41) = Cert.Gcn.aggregate (Cert.Gcn.matProd (m ((c : Thread nD τ).loc main_arg0)) (m ((c : Thread nD τ).loc main_arg5))) (Cert.Gcn.srcRow (m ((c : Thread nD τ).loc main_arg1))) (Cert.Gcn.dstRow (m ((c : Thread nD τ).loc main_arg1))) (m ((c : Thread nD τ).loc main_arg2)) :=
  (Cert.KHost.agg1 (W2 m ρ c)).trans (by rw [b2_v6, b2_v1, b2_v3, b2_arg2])
theorem b3_v45 : W3 (F := Ideal) m ρ c (Proc.devRef .tc main_v45) = Cert.Gcn.selfLoop (Cert.Gcn.matProd (m ((c : Thread nD τ).loc main_arg0)) (m ((c : Thread nD τ).loc main_arg5))) (Cert.Gcn.dstRow (m ((c : Thread nD τ).loc main_arg1))) (m ((c : Thread nD τ).loc main_arg2)) :=
  (Cert.KHost.self1 (W2 m ρ c)).trans (by rw [b2_v6, b2_v3, b2_arg2])
theorem b3_v46 : W3 (F := Ideal) m ρ c (Proc.devRef .tc main_v46) = Cert.Gcn.biasRow96 (m ((c : Thread nD τ).loc main_arg6)) :=
  (Cert.KHost.bias1 (W2 m ρ c)).trans (by rw [b2_arg6])
theorem b3_v1 : W3 (F := Ideal) m ρ c (Proc.devRef .tc main_v1) = (Cert.Gcn.srcRow (m ((c : Thread nD τ).loc main_arg1))) :=
  (Cert.KHost.keep1_v1 (W2 m ρ c)).trans (b2_v1 m ρ c)
theorem b3_v3 : W3 (F := Ideal) m ρ c (Proc.devRef .tc main_v3) = (Cert.Gcn.dstRow (m ((c : Thread nD τ).loc main_arg1))) :=
  (Cert.KHost.keep1_v3 (W2 m ρ c)).trans (b2_v3 m ρ c)
theorem b3_arg2 : W3 (F := Ideal) m ρ c (Proc.devRef .tc main_arg2) = (m ((c : Thread nD τ).loc main_arg2)) :=
  (Cert.KHost.keep1_arg2 (W2 m ρ c)).trans (b2_arg2 m ρ c)
theorem b3_arg3 : W3 (F := Ideal) m ρ c (Proc.devRef .tc main_arg3) = (m ((c : Thread nD τ).loc main_arg3)) :=
  (Cert.KHost.keep1_arg3 (W2 m ρ c)).trans (b2_arg3 m ρ c)
theorem b3_arg4 : W3 (F := Ideal) m ρ c (Proc.devRef .tc main_arg4) = (m ((c : Thread nD τ).loc main_arg4)) :=
  (Cert.KHost.keep1_arg4 (W2 m ρ c)).trans (b2_arg4 m ρ c)
theorem b3_arg7 : W3 (F := Ideal) m ρ c (Proc.devRef .tc main_arg7) = (m ((c : Thread nD τ).loc main_arg7)) :=
  (Cert.KHost.keep1_arg7 (W2 m ρ c)).trans (b2_arg7 m ρ c)
theorem b3_arg8 : W3 (F := Ideal) m ρ c (Proc.devRef .tc main_arg8) = (m ((c : Thread nD τ).loc main_arg8)) :=
  (Cert.KHost.keep1_arg8 (W2 m ρ c)).trans (b2_arg8 m ρ c)
theorem b3_arg9 : W3 (F := Ideal) m ρ c (Proc.devRef .tc main_arg9) = (m ((c : Thread nD τ).loc main_arg9)) :=
  (Cert.KHost.keep1_arg9 (W2 m ρ c)).trans (b2_arg9 m ρ c)
theorem b3_arg10 : W3 (F := Ideal) m ρ c (Proc.devRef .tc main_arg10) = (m ((c : Thread nD τ).loc main_arg10)) :=
  (Cert.KHost.keep1_arg10 (W2 m ρ c)).trans (b2_arg10 m ρ c)
theorem b3_arg11 : W3 (F := Ideal) m ρ c (Proc.devRef .tc main_arg11) = (m ((c : Thread nD τ).loc main_arg11)) :=
  (Cert.KHost.keep1_arg11 (W2 m ρ c)).trans (b2_arg11 m ρ c)
theorem b3_arg12 : W3 (F := Ideal) m ρ c (Proc.devRef .tc main_arg12) = (m ((c : Thread nD τ).loc main_arg12)) :=
  (Cert.KHost.keep1_arg12 (W2 m ρ c)).trans (b2_arg12 m ρ c)

/-! ## After the first close: the first layer -/

theorem b4_v47 : W4 (F := Ideal) m ρ c (Proc.devRef .tc main_v47) = (Cert.Gcn.layer (m ((c : Thread nD τ).loc main_arg0)) (m ((c : Thread nD τ).loc main_arg5)) (m ((c : Thread nD τ).loc main_arg6)) (m ((c : Thread nD τ).loc main_arg1)) (m ((c : Thread nD τ).loc main_arg2))) :=
  (W4_arr m ρ c 3).trans ((Cert.KVal.close1 (V3 m ρ) c).trans (by
    rw [show V3 (F := Ideal) m ρ c main_v41 = W3 (F := Ideal) m ρ c (Proc.devRef .tc main_v41) from rfl, b3_v41,
      show V3 (F := Ideal) m ρ c main_v45 = W3 (F := Ideal) m ρ c (Proc.devRef .tc main_v45) from rfl, b3_v45,
      show V3 (F := Ideal) m ρ c main_v46 = W3 (F := Ideal) m ρ c (Proc.devRef .tc main_v46) from rfl, b3_v46]
    rfl))
theorem b4_v1 : W4 (F := Ideal) m ρ c (Proc.devRef .tc main_v1) = (Cert.Gcn.srcRow (m ((c : Thread nD τ).loc main_arg1))) :=
  (W4_of_ne m ρ c main_v1 (by decide)).trans (b3_v1 m ρ c)
theorem b4_v3 : W4 (F := Ideal) m ρ c (Proc.devRef .tc main_v3) = (Cert.Gcn.dstRow (m ((c : Thread nD τ).loc main_arg1))) :=
  (W4_of_ne m ρ c main_v3 (by decide)).trans (b3_v3 m ρ c)
theorem b4_arg2 : W4 (F := Ideal) m ρ c (Proc.devRef .tc main_arg2) = (m ((c : Thread nD τ).loc main_arg2)) :=
  (W4_of_ne m ρ c main_arg2 (by decide)).trans (b3_arg2 m ρ c)
theorem b4_arg3 : W4 (F := Ideal) m ρ c (Proc.devRef .tc main_arg3) = (m ((c : Thread nD τ).loc main_arg3)) :=
  (W4_of_ne m ρ c main_arg3 (by decide)).trans (b3_arg3 m ρ c)
theorem b4_arg4 : W4 (F := Ideal) m ρ c (Proc.devRef .tc main_arg4) = (m ((c : Thread nD τ).loc main_arg4)) :=
  (W4_of_ne m ρ c main_arg4 (by decide)).trans (b3_arg4 m ρ c)
theorem b4_arg7 : W4 (F := Ideal) m ρ c (Proc.devRef .tc main_arg7) = (m ((c : Thread nD τ).loc main_arg7)) :=
  (W4_of_ne m ρ c main_arg7 (by decide)).trans (b3_arg7 m ρ c)
theorem b4_arg8 : W4 (F := Ideal) m ρ c (Proc.devRef .tc main_arg8) = (m ((c : Thread nD τ).loc main_arg8)) :=
  (W4_of_ne m ρ c main_arg8 (by decide)).trans (b3_arg8 m ρ c)
theorem b4_arg9 : W4 (F := Ideal) m ρ c (Proc.devRef .tc main_arg9) = (m ((c : Thread nD τ).loc main_arg9)) :=
  (W4_of_ne m ρ c main_arg9 (by decide)).trans (b3_arg9 m ρ c)
theorem b4_arg10 : W4 (F := Ideal) m ρ c (Proc.devRef .tc main_arg10) = (m ((c : Thread nD τ).loc main_arg10)) :=
  (W4_of_ne m ρ c main_arg10 (by decide)).trans (b3_arg10 m ρ c)
theorem b4_arg11 : W4 (F := Ideal) m ρ c (Proc.devRef .tc main_arg11) = (m ((c : Thread nD τ).loc main_arg11)) :=
  (W4_of_ne m ρ c main_arg11 (by decide)).trans (b3_arg11 m ρ c)
theorem b4_arg12 : W4 (F := Ideal) m ρ c (Proc.devRef .tc main_arg12) = (m ((c : Thread nD τ).loc main_arg12)) :=
  (W4_of_ne m ρ c main_arg12 (by decide)).trans (b3_arg12 m ρ c)

/-! ## After the stretch before the second product -/

theorem b5_v48 : W5 (F := Ideal) m ρ c (Proc.devRef .tc main_v48) = (Cert.Gcn.layer (m ((c : Thread nD τ).loc main_arg0)) (m ((c : Thread nD τ).loc main_arg5)) (m ((c : Thread nD τ).loc main_arg6)) (m ((c : Thread nD τ).loc main_arg1)) (m ((c : Thread nD τ).loc main_arg2))) :=
  (Cert.KHost.x2 (W4 m ρ c)).trans (b4_v47 m ρ c)
theorem b5_v49 : W5 (F := Ideal) m ρ c (Proc.devRef .tc main_v49) = (m ((c : Thread nD τ).loc main_arg7)) :=
  (Cert.KHost.w2 (W4 m ρ c)).trans (b4_arg7 m ρ c)
theorem b5_v1 : W5 (F := Ideal) m ρ c (Proc.devRef .tc main_v1) = (Cert.Gcn.srcRow (m ((c : Thread nD τ).loc main_arg1))) :=
  (Cert.KHost.keep2_v1 (W4 m ρ c)).trans (b4_v1 m ρ c)
theorem b5_v3 : W5 (F := Ideal) m ρ c (Proc.devRef .tc main_v3) = (Cert.Gcn.dstRow (m ((c : Thread nD τ).loc main_arg1))) :=
  (Cert.KHost.keep2_v3 (W4 m ρ c)).trans (b4_v3 m ρ c)
theorem b5_arg2 : W5 (F := Ideal) m ρ c (Proc.devRef .tc main_arg2) = (m ((c : Thread nD τ).loc main_arg2)) :=
  (Cert.KHost.keep2_arg2 (W4 m ρ c)).trans (b4_arg2 m ρ c)
theorem b5_arg3 : W5 (F := Ideal) m ρ c (Proc.devRef .tc main_arg3) = (m ((c : Thread nD τ).loc main_arg3)) :=
  (Cert.KHost.keep2_arg3 (W4 m ρ c)).trans (b4_arg3 m ρ c)
theorem b5_arg4 : W5 (F := Ideal) m ρ c (Proc.devRef .tc main_arg4) = (m ((c : Thread nD τ).loc main_arg4)) :=
  (Cert.KHost.keep2_arg4 (W4 m ρ c)).trans (b4_arg4 m ρ c)
theorem b5_arg8 : W5 (F := Ideal) m ρ c (Proc.devRef .tc main_arg8) = (m ((c : Thread nD τ).loc main_arg8)) :=
  (Cert.KHost.keep2_arg8 (W4 m ρ c)).trans (b4_arg8 m ρ c)
theorem b5_arg9 : W5 (F := Ideal) m ρ c (Proc.devRef .tc main_arg9) = (m ((c : Thread nD τ).loc main_arg9)) :=
  (Cert.KHost.keep2_arg9 (W4 m ρ c)).trans (b4_arg9 m ρ c)
theorem b5_arg10 : W5 (F := Ideal) m ρ c (Proc.devRef .tc main_arg10) = (m ((c : Thread nD τ).loc main_arg10)) :=
  (Cert.KHost.keep2_arg10 (W4 m ρ c)).trans (b4_arg10 m ρ c)
theorem b5_arg11 : W5 (F := Ideal) m ρ c (Proc.devRef .tc main_arg11) = (m ((c : Thread nD τ).loc main_arg11)) :=
  (Cert.KHost.keep2_arg11 (W4 m ρ c)).trans (b4_arg11 m ρ c)
theorem b5_arg12 : W5 (F := Ideal) m ρ c (Proc.devRef .tc main_arg12) = (m ((c : Thread nD τ).loc main_arg12)) :=
  (Cert.KHost.keep2_arg12 (W4 m ρ c)).trans (b4_arg12 m ρ c)

/-! ## After the second product -/

theorem b6_v50 : W6 (F := Ideal) m ρ c (Proc.devRef .tc main_v50) = (Cert.Gcn.matProd (Cert.Gcn.layer (m ((c : Thread nD τ).loc main_arg0)) (m ((c : Thread nD τ).loc main_arg5)) (m ((c : Thread nD τ).loc main_arg6)) (m ((c : Thread nD τ).loc main_arg1)) (m ((c : Thread nD τ).loc main_arg2))) (m ((c : Thread nD τ).loc main_arg7))) :=
  (W6_arr m ρ c 2).trans ((Cert.KVal.mat2 (V5 m ρ) c).trans (congrArg₂ Cert.Gcn.matProd (b5_v48 m ρ c) (b5_v49 m ρ c)))
theorem b6_v1 : W6 (F := Ideal) m ρ c (Proc.devRef .tc main_v1) = (Cert.Gcn.srcRow (m ((c : Thread nD τ).loc main_arg1))) :=
  (W6_of_ne m ρ c main_v1 (by decide)).trans (b5_v1 m ρ c)
theorem b6_v3 : W6 (F := Ideal) m ρ c (Proc.devRef .tc main_v3) = (Cert.Gcn.dstRow (m ((c : Thread nD τ).loc main_arg1))) :=
  (W6_of_ne m ρ c main_v3 (by decide)).trans (b5_v3 m ρ c)
theorem b6_arg2 : W6 (F := Ideal) m ρ c (Proc.devRef .tc main_arg2) = (m ((c : Thread nD τ).loc main_arg2)) :=
  (W6_of_ne m ρ c main_arg2 (by decide)).trans (b5_arg2 m ρ c)
theorem b6_arg3 : W6 (F := Ideal) m ρ c (Proc.devRef .tc main_arg3) = (m ((c : Thread nD τ).loc main_arg3)) :=
  (W6_of_ne m ρ c main_arg3 (by decide)).trans (b5_arg3 m ρ c)
theorem b6_arg4 : W6 (F := Ideal) m ρ c (Proc.devRef .tc main_arg4) = (m ((c : Thread nD τ).loc main_arg4)) :=
  (W6_of_ne m ρ c main_arg4 (by decide)).trans (b5_arg4 m ρ c)
theorem b6_arg8 : W6 (F := Ideal) m ρ c (Proc.devRef .tc main_arg8) = (m ((c : Thread nD τ).loc main_arg8)) :=
  (W6_of_ne m ρ c main_arg8 (by decide)).trans (b5_arg8 m ρ c)
theorem b6_arg9 : W6 (F := Ideal) m ρ c (Proc.devRef .tc main_arg9) = (m ((c : Thread nD τ).loc main_arg9)) :=
  (W6_of_ne m ρ c main_arg9 (by decide)).trans (b5_arg9 m ρ c)
theorem b6_arg10 : W6 (F := Ideal) m ρ c (Proc.devRef .tc main_arg10) = (m ((c : Thread nD τ).loc main_arg10)) :=
  (W6_of_ne m ρ c main_arg10 (by decide)).trans (b5_arg10 m ρ c)
theorem b6_arg11 : W6 (F := Ideal) m ρ c (Proc.devRef .tc main_arg11) = (m ((c : Thread nD τ).loc main_arg11)) :=
  (W6_of_ne m ρ c main_arg11 (by decide)).trans (b5_arg11 m ρ c)
theorem b6_arg12 : W6 (F := Ideal) m ρ c (Proc.devRef .tc main_arg12) = (m ((c : Thread nD τ).loc main_arg12)) :=
  (W6_of_ne m ρ c main_arg12 (by decide)).trans (b5_arg12 m ρ c)

/-! ## After the stretch between the second product and the second close -/

theorem b7_v85 : W7 (F := Ideal) m ρ c (Proc.devRef .tc main_v85) = Cert.Gcn.aggregate (Cert.Gcn.matProd (Cert.Gcn.layer (m ((c : Thread nD τ).loc main_arg0)) (m ((c : Thread nD τ).loc main_arg5)) (m ((c : Thread nD τ).loc main_arg6)) (m ((c : Thread nD τ).loc main_arg1)) (m ((c : Thread nD τ).loc main_arg2))) (m ((c : Thread nD τ).loc main_arg7))) (Cert.Gcn.srcRow (m ((c : Thread nD τ).loc main_arg1))) (Cert.Gcn.dstRow (m ((c : Thread nD τ).loc main_arg1))) (m ((c : Thread nD τ).loc main_arg2)) :=
  (Cert.KHost.agg3 (W6 m ρ c)).trans (by rw [b6_v50, b6_v1, b6_v3, b6_arg2])
theorem b7_v89 : W7 (F := Ideal) m ρ c (Proc.devRef .tc main_v89) = Cert.Gcn.selfLoop (Cert.Gcn.matProd (Cert.Gcn.layer (m ((c : Thread nD τ).loc main_arg0)) (m ((c : Thread nD τ).loc main_arg5)) (m ((c : Thread nD τ).loc main_arg6)) (m ((c : Thread nD τ).loc main_arg1)) (m ((c : Thread nD τ).loc main_arg2))) (m ((c : Thread nD τ).loc main_arg7))) (Cert.Gcn.dstRow (m ((c : Thread nD τ).loc main_arg1))) (m ((c : Thread nD τ).loc main_arg2)) :=
  (Cert.KHost.self3 (W6 m ρ c)).trans (by rw [b6_v50, b6_v3, b6_arg2])
theorem b7_v90 : W7 (F := Ideal) m ρ c (Proc.devRef .tc main_v90) = Cert.Gcn.biasRow96 (m ((c : Thread nD τ).loc main_arg8)) :=
  (Cert.KHost.bias3 (W6 m ρ c)).trans (by rw [b6_arg8])
theorem b7_arg3 : W7 (F := Ideal) m ρ c (Proc.devRef .tc main_arg3) = (m ((c : Thread nD τ).loc main_arg3)) :=
  (Cert.KHost.keep3_arg3 (W6 m ρ c)).trans (b6_arg3 m ρ c)
theorem b7_arg4 : W7 (F := Ideal) m ρ c (Proc.devRef .tc main_arg4) = (m ((c : Thread nD τ).loc main_arg4)) :=
  (Cert.KHost.keep3_arg4 (W6 m ρ c)).trans (b6_arg4 m ρ c)
theorem b7_arg9 : W7 (F := Ideal) m ρ c (Proc.devRef .tc main_arg9) = (m ((c : Thread nD τ).loc main_arg9)) :=
  (Cert.KHost.keep3_arg9 (W6 m ρ c)).trans (b6_arg9 m ρ c)
theorem b7_arg10 : W7 (F := Ideal) m ρ c (Proc.devRef .tc main_arg10) = (m ((c : Thread nD τ).loc main_arg10)) :=
  (Cert.KHost.keep3_arg10 (W6 m ρ c)).trans (b6_arg10 m ρ c)
theorem b7_arg11 : W7 (F := Ideal) m ρ c (Proc.devRef .tc main_arg11) = (m ((c : Thread nD τ).loc main_arg11)) :=
  (Cert.KHost.keep3_arg11 (W6 m ρ c)).trans (b6_arg11 m ρ c)
theorem b7_arg12 : W7 (F := Ideal) m ρ c (Proc.devRef .tc main_arg12) = (m ((c : Thread nD τ).loc main_arg12)) :=
  (Cert.KHost.keep3_arg12 (W6 m ρ c)).trans (b6_arg12 m ρ c)

/-! ## After the second close: the second layer -/

theorem b8_v91 : W8 (F := Ideal) m ρ c (Proc.devRef .tc main_v91) = (Cert.Gcn.layer (Cert.Gcn.layer (m ((c : Thread nD τ).loc main_arg0)) (m ((c : Thread nD τ).loc main_arg5)) (m ((c : Thread nD τ).loc main_arg6)) (m ((c : Thread nD τ).loc main_arg1)) (m ((c : Thread nD τ).loc main_arg2))) (m ((c : Thread nD τ).loc main_arg7)) (m ((c : Thread nD τ).loc main_arg8)) (m ((c : Thread nD τ).loc main_arg1)) (m ((c : Thread nD τ).loc main_arg2))) :=
  (W8_arr m ρ c 3).trans ((Cert.KVal.close3 (V7 m ρ) c).trans (by
    rw [show V7 (F := Ideal) m ρ c main_v85 = W7 (F := Ideal) m ρ c (Proc.devRef .tc main_v85) from rfl, b7_v85,
      show V7 (F := Ideal) m ρ c main_v89 = W7 (F := Ideal) m ρ c (Proc.devRef .tc main_v89) from rfl, b7_v89,
      show V7 (F := Ideal) m ρ c main_v90 = W7 (F := Ideal) m ρ c (Proc.devRef .tc main_v90) from rfl, b7_v90]
    rfl))
theorem b8_arg3 : W8 (F := Ideal) m ρ c (Proc.devRef .tc main_arg3) = (m ((c : Thread nD τ).loc main_arg3)) :=
  (W8_of_ne m ρ c main_arg3 (by decide)).trans (b7_arg3 m ρ c)
theorem b8_arg4 : W8 (F := Ideal) m ρ c (Proc.devRef .tc main_arg4) = (m ((c : Thread nD τ).loc main_arg4)) :=
  (W8_of_ne m ρ c main_arg4 (by decide)).trans (b7_arg4 m ρ c)
theorem b8_arg9 : W8 (F := Ideal) m ρ c (Proc.devRef .tc main_arg9) = (m ((c : Thread nD τ).loc main_arg9)) :=
  (W8_of_ne m ρ c main_arg9 (by decide)).trans (b7_arg9 m ρ c)
theorem b8_arg10 : W8 (F := Ideal) m ρ c (Proc.devRef .tc main_arg10) = (m ((c : Thread nD τ).loc main_arg10)) :=
  (W8_of_ne m ρ c main_arg10 (by decide)).trans (b7_arg10 m ρ c)
theorem b8_arg11 : W8 (F := Ideal) m ρ c (Proc.devRef .tc main_arg11) = (m ((c : Thread nD τ).loc main_arg11)) :=
  (W8_of_ne m ρ c main_arg11 (by decide)).trans (b7_arg11 m ρ c)
theorem b8_arg12 : W8 (F := Ideal) m ρ c (Proc.devRef .tc main_arg12) = (m ((c : Thread nD τ).loc main_arg12)) :=
  (W8_of_ne m ρ c main_arg12 (by decide)).trans (b7_arg12 m ρ c)

/-! ## After the stretches before the head -/

theorem b11_v103 : W11 (F := Ideal) m ρ c (Proc.devRef .tc main_v103) = Cert.Gcn.meanPool (Cert.Gcn.layer (Cert.Gcn.layer (m ((c : Thread nD τ).loc main_arg0)) (m ((c : Thread nD τ).loc main_arg5)) (m ((c : Thread nD τ).loc main_arg6)) (m ((c : Thread nD τ).loc main_arg1)) (m ((c : Thread nD τ).loc main_arg2))) (m ((c : Thread nD τ).loc main_arg7)) (m ((c : Thread nD τ).loc main_arg8)) (m ((c : Thread nD τ).loc main_arg1)) (m ((c : Thread nD τ).loc main_arg2))) (m ((c : Thread nD τ).loc main_arg3)) :=
  (Cert.KHost.pool4 (W8 m ρ c)).trans (by rw [b8_v91, b8_arg3])
theorem b11_v115 : W11 (F := Ideal) m ρ c (Proc.devRef .tc main_v115) = Cert.Gcn.mdRow (m ((c : Thread nD τ).loc main_arg3)) (m ((c : Thread nD τ).loc main_arg4)) :=
  (Cert.KHost.md4 (W8 m ρ c)).trans (by rw [b8_arg3, b8_arg4])
theorem b11_v116 : W11 (F := Ideal) m ρ c (Proc.devRef .tc main_v116) = extractStridedSlice S96x10 ![0, 0] (m ((c : Thread nD τ).loc main_arg11)) Facts₀.slices_S192x10_S96x10_0_0 :=
  (Cert.KHost.wa4 (W8 m ρ c)).trans (by rw [b8_arg11])
theorem b11_v117 : W11 (F := Ideal) m ρ c (Proc.devRef .tc main_v117) = extractStridedSlice S96x10 ![96, 0] (m ((c : Thread nD τ).loc main_arg11)) Facts₀.slices_S192x10_S96x10_96_0 :=
  (Cert.KHost.wb4 (W8 m ρ c)).trans (by rw [b8_arg11])
theorem b11_v118 : W11 (F := Ideal) m ρ c (Proc.devRef .tc main_v118) = Cert.Gcn.biasRow96 (m ((c : Thread nD τ).loc main_arg10)) :=
  (Cert.KHost.bm4 (W8 m ρ c)).trans (by rw [b8_arg10])
theorem b11_v119 : W11 (F := Ideal) m ρ c (Proc.devRef .tc main_v119) = Cert.Gcn.biasRow10 (m ((c : Thread nD τ).loc main_arg12)) :=
  (Cert.KHost.bf4 (W8 m ρ c)).trans (by rw [b8_arg12])
theorem b11_arg9 : W11 (F := Ideal) m ρ c (Proc.devRef .tc main_arg9) = (m ((c : Thread nD τ).loc main_arg9)) :=
  (Cert.KHost.keep4_arg9 (W8 m ρ c)).trans (b8_arg9 m ρ c)

/-! ## After the head: the output -/

theorem result : W12 (F := Ideal) m ρ c (Proc.devRef .tc main_v120) = Cert.Gcn.net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) :=
  (W12_arr m ρ c 7).trans ((Cert.KVal.head4 (V11 m ρ) c).trans (by
    rw [show V11 (F := Ideal) m ρ c main_v103 = W11 (F := Ideal) m ρ c (Proc.devRef .tc main_v103) from rfl, b11_v103,
      show V11 (F := Ideal) m ρ c main_v115 = W11 (F := Ideal) m ρ c (Proc.devRef .tc main_v115) from rfl, b11_v115,
      show V11 (F := Ideal) m ρ c main_arg9 = W11 (F := Ideal) m ρ c (Proc.devRef .tc main_arg9) from rfl, b11_arg9,
      show V11 (F := Ideal) m ρ c main_v118 = W11 (F := Ideal) m ρ c (Proc.devRef .tc main_v118) from rfl, b11_v118,
      show V11 (F := Ideal) m ρ c main_v116 = W11 (F := Ideal) m ρ c (Proc.devRef .tc main_v116) from rfl, b11_v116,
      show V11 (F := Ideal) m ρ c main_v117 = W11 (F := Ideal) m ρ c (Proc.devRef .tc main_v117) from rfl, b11_v117,
      show V11 (F := Ideal) m ρ c main_v119 = W11 (F := Ideal) m ρ c (Proc.devRef .tc main_v119) from rfl, b11_v119]
    rfl))

end Cert.KChain

end
-- ==== Proof.RBase.lean ====
/-
  One fact about a straight line of host operations, shared by the three windows of the reference's program: an
  operation whose set of written buffers is one buffer of a list writes inside that list.
-/
import Idealize.ShloMosaic.Lib.StableHlo.Run

namespace Cert.RefSide

open Idealize.ShloMosaic Idealize.ShloMosaic.StableHlo

/-- An operation that writes exactly the buffer `y`, a member of the list `W`, writes inside `W`. -/
theorem writes_sub_of_mem {τ : Topo} {sig : RefSig} {Val : EltTy → Type} {op : HloOp τ sig Val} {W : List (Ref sig .tc)}
    (y : Ref sig .tc) (h : op.writes = {Proc.devRef .tc y}) (hy : y ∈ W) :
    op.writes ⊆ (W.map (Proc.devRef (τ := τ) .tc)).toFinset := by
  rw [h, Finset.singleton_subset_iff, List.mem_toFinset]
  exact List.mem_map_of_mem hy

end Cert.RefSide
-- ==== Proof.RRun0.lean ====
/-
  Statements 1 … 60 of the reference's host program: the edge list's two rows, the first product, the first layer's
  graph side (weights summed at their targets, the inverse root, the edge normalisation, the messages summed, the
  self-loop share, the bias, the maximum with zero), the second product and the zero that opens the second layer —
  as ONE list of operations, the call's three operations spelt at the call site over that call's record, and the
  window's program read as that list.
-/
import proofs.«178079_j40450001993771_1_alg».proof.Proof.Gen.ReferenceIdeal
import proofs.«178079_j40450001993771_1_alg».proof.Proof.RBase

noncomputable section

namespace Cert.RefSide

open Cert.ReferenceIdeal Cert.ReferenceIdeal.Facts₀ Idealize.ShloMosaic Idealize.ShloMosaic.TcCoe Idealize.SL.Sem Idealize.ShloMosaic.StableHlo

variable {F : FTy → Type} [FloatOps F]

/-- The window's 62 operations, in order. -/
abbrev ops0 : List (HloOp τ sig (Elt F)) :=
  [ StableHlo.unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v0 main_v1 rfl shapeCasts_S1x800000_S800000,
    StableHlo.unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v2 main_v3 rfl shapeCasts_S1x800000_S800000,
    StableHlo.binary main_arg0 main_arg5 main_v4 ((fun l r => Host.dotGeneral dot_S50000x96_S96x96_S50000x96_1_0_0_1_n_n none l r) : (⟨S50000x96, .f32⟩ : BufTy).Contents (Elt F) → (⟨S96x96, .f32⟩ : BufTy).Contents (Elt F) → (⟨S50000x96, .f32⟩ : BufTy).Contents (Elt F)),
    StableHlo.nullary main_cst (constant S_ .f32 0x00000000#32),
    StableHlo.unary main_cst main_v5 (broadcastInDim S50000 ![] bcast_S_S50000 : (⟨S_, .f32⟩ : BufTy).Contents (Elt F) → (⟨S50000, .f32⟩ : BufTy).Contents (Elt F)),
    StableHlo.unary main_v3 main_v6 (broadcastInDim S800000x1 ![0] bcast_S800000_S800000x1_0 : (⟨S800000, .i32⟩ : BufTy).Contents (Elt F) → (⟨S800000x1, .i32⟩ : BufTy).Contents (Elt F)),
    StableHlo.ternary main_v5 main_v6 main_arg2 main_v7 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_cst_0 (constant S_ .f32 0x3F800000#32),
    StableHlo.unary main_cst_0 main_v8 (broadcastInDim S50000 ![] bcast_S_S50000 : (⟨S_, .f32⟩ : BufTy).Contents (Elt F) → (⟨S50000, .f32⟩ : BufTy).Contents (Elt F)),
    StableHlo.binary main_v7 main_v8 main_v9 (addf : (⟨S50000, .f32⟩ : BufTy).Contents (Elt F) → (⟨S50000, .f32⟩ : BufTy).Contents (Elt F) → (⟨S50000, .f32⟩ : BufTy).Contents (Elt F)),
    StableHlo.unary main_v9 main_v10 (Host.rsqrt : (⟨S50000, .f32⟩ : BufTy).Contents (Elt F) → (⟨S50000, .f32⟩ : BufTy).Contents (Elt F)),
    StableHlo.nullary main_c (constantI S_ 32 0#32),
    StableHlo.unary main_c main_v11 (broadcastInDim S800000 ![] bcast_S_S800000 : (⟨S_, .i32⟩ : BufTy).Contents (Elt F) → (⟨S800000, .i32⟩ : BufTy).Contents (Elt F)),
    StableHlo.binary main_v1 main_v11 main_v12 (cmpi .slt : (⟨S800000, .i32⟩ : BufTy).Contents (Elt F) → (⟨S800000, .i32⟩ : BufTy).Contents (Elt F) → (⟨S800000, .i1⟩ : BufTy).Contents (Elt F)),
    StableHlo.nullary main_c_1 (constantI S_ 32 50000#32),
    StableHlo.unary main_c_1 main_v13 (broadcastInDim S800000 ![] bcast_S_S800000 : (⟨S_, .i32⟩ : BufTy).Contents (Elt F) → (⟨S800000, .i32⟩ : BufTy).Contents (Elt F)),
    StableHlo.binary main_v1 main_v13 main_v14 (addi : (⟨S800000, .i32⟩ : BufTy).Contents (Elt F) → (⟨S800000, .i32⟩ : BufTy).Contents (Elt F) → (⟨S800000, .i32⟩ : BufTy).Contents (Elt F)),
    StableHlo.ternary main_v12 main_v14 main_v1 main_v15 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v15 main_v16 (broadcastInDim S800000x1 ![0] bcast_S800000_S800000x1_0 : (⟨S800000, .i32⟩ : BufTy).Contents (Elt F) → (⟨S800000x1, .i32⟩ : BufTy).Contents (Elt F)),
    StableHlo.binary main_v10 main_v16 main_v17 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    StableHlo.binary main_v17 main_arg2 main_v18 (mulf : (⟨S800000, .f32⟩ : BufTy).Contents (Elt F) → (⟨S800000, .f32⟩ : BufTy).Contents (Elt F) → (⟨S800000, .f32⟩ : BufTy).Contents (Elt F)),
    StableHlo.nullary main_c_2 (constantI S_ 32 0#32),
    StableHlo.unary main_c_2 main_v19 (broadcastInDim S800000 ![] bcast_S_S800000 : (⟨S_, .i32⟩ : BufTy).Contents (Elt F) → (⟨S800000, .i32⟩ : BufTy).Contents (Elt F)),
    StableHlo.binary main_v3 main_v19 main_v20 (cmpi .slt : (⟨S800000, .i32⟩ : BufTy).Contents (Elt F) → (⟨S800000, .i32⟩ : BufTy).Contents (Elt F) → (⟨S800000, .i1⟩ : BufTy).Contents (Elt F)),
    StableHlo.nullary main_c_3 (constantI S_ 32 50000#32),
    StableHlo.unary main_c_3 main_v21 (broadcastInDim S800000 ![] bcast_S_S800000 : (⟨S_, .i32⟩ : BufTy).Contents (Elt F) → (⟨S800000, .i32⟩ : BufTy).Contents (Elt F)),
    StableHlo.binary main_v3 main_v21 main_v22 (addi : (⟨S800000, .i32⟩ : BufTy).Contents (Elt F) → (⟨S800000, .i32⟩ : BufTy).Contents (Elt F) → (⟨S800000, .i32⟩ : BufTy).Contents (Elt F)),
    StableHlo.ternary main_v20 main_v22 main_v3 main_v23 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v23 main_v24 (broadcastInDim S800000x1 ![0] bcast_S800000_S800000x1_0 : (⟨S800000, .i32⟩ : BufTy).Contents (Elt F) → (⟨S800000x1, .i32⟩ : BufTy).Contents (Elt F)),
    StableHlo.binary main_v10 main_v24 main_v25 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    StableHlo.binary main_v18 main_v25 main_v26 (mulf : (⟨S800000, .f32⟩ : BufTy).Contents (Elt F) → (⟨S800000, .f32⟩ : BufTy).Contents (Elt F) → (⟨S800000, .f32⟩ : BufTy).Contents (Elt F)),
    StableHlo.nullary main_c_4 (constantI S_ 32 0#32),
    StableHlo.unary main_c_4 main_v27 (broadcastInDim S800000 ![] bcast_S_S800000 : (⟨S_, .i32⟩ : BufTy).Contents (Elt F) → (⟨S800000, .i32⟩ : BufTy).Contents (Elt F)),
    StableHlo.binary main_v1 main_v27 main_v28 (cmpi .slt : (⟨S800000, .i32⟩ : BufTy).Contents (Elt F) → (⟨S800000, .i32⟩ : BufTy).Contents (Elt F) → (⟨S800000, .i1⟩ : BufTy).Contents (Elt F)),
    StableHlo.nullary main_c_5 (constantI S_ 32 50000#32),
    StableHlo.unary main_c_5 main_v29 (broadcastInDim S800000 ![] bcast_S_S800000 : (⟨S_, .i32⟩ : BufTy).Contents (Elt F) → (⟨S800000, .i32⟩ : BufTy).Contents (Elt F)),
    StableHlo.binary main_v1 main_v29 main_v30 (addi : (⟨S800000, .i32⟩ : BufTy).Contents (Elt F) → (⟨S800000, .i32⟩ : BufTy).Contents (Elt F) → (⟨S800000, .i32⟩ : BufTy).Contents (Elt F)),
    StableHlo.ternary main_v28 main_v30 main_v1 main_v31 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v31 main_v32 (broadcastInDim S800000x1 ![0] bcast_S800000_S800000x1_0 : (⟨S800000, .i32⟩ : BufTy).Contents (Elt F) → (⟨S800000x1, .i32⟩ : BufTy).Contents (Elt F)),
    StableHlo.binary main_v4 main_v32 main_v33 ((fun x i => Host.gather gather_S50000x96_S800000x1_S800000x96_1_0_n_n_0_1_196 x i) : (⟨S50000x96, .f32⟩ : BufTy).Contents (Elt F) → (⟨S800000x1, .i32⟩ : BufTy).Contents (Elt F) → (⟨S800000x96, .f32⟩ : BufTy).Contents (Elt F)),
    StableHlo.unary main_v26 main_v34 (broadcastInDim S800000x1 ![0] bcast_S800000_S800000x1_0 : (⟨S800000, .f32⟩ : BufTy).Contents (Elt F) → (⟨S800000x1, .f32⟩ : BufTy).Contents (Elt F)),
    StableHlo.unary main_v34 main_v35 (broadcastInDim S800000x96 ![0, 1] bcast_S800000x1_S800000x96_0_1 : (⟨S800000x1, .f32⟩ : BufTy).Contents (Elt F) → (⟨S800000x96, .f32⟩ : BufTy).Contents (Elt F)),
    StableHlo.binary main_v33 main_v35 main_v36 (mulf : (⟨S800000x96, .f32⟩ : BufTy).Contents (Elt F) → (⟨S800000x96, .f32⟩ : BufTy).Contents (Elt F) → (⟨S800000x96, .f32⟩ : BufTy).Contents (Elt F)),
    StableHlo.nullary main_cst_6 (constant S_ .f32 0x00000000#32),
    StableHlo.unary main_cst_6 main_v37 (broadcastInDim S50000x96 ![] bcast_S_S50000x96 : (⟨S_, .f32⟩ : BufTy).Contents (Elt F) → (⟨S50000x96, .f32⟩ : BufTy).Contents (Elt F)),
    StableHlo.unary main_v3 main_v38 (broadcastInDim S800000x1 ![0] bcast_S800000_S800000x1_0 : (⟨S800000, .i32⟩ : BufTy).Contents (Elt F) → (⟨S800000x1, .i32⟩ : BufTy).Contents (Elt F)),
    StableHlo.ternary main_v37 main_v38 main_v36 main_v39 ((fun x i u => Host.scatterAdd scatter_S50000x96_S800000x1_S800000x96_1_0_0_1 x i u) : (⟨S50000x96, .f32⟩ : BufTy).Contents (Elt F) → (⟨S800000x1, .i32⟩ : BufTy).Contents (Elt F) → (⟨S800000x96, .f32⟩ : BufTy).Contents (Elt F) → (⟨S50000x96, .f32⟩ : BufTy).Contents (Elt F)),
    StableHlo.binary main_v10 main_v10 main_v40 (mulf : (⟨S50000, .f32⟩ : BufTy).Contents (Elt F) → (⟨S50000, .f32⟩ : BufTy).Contents (Elt F) → (⟨S50000, .f32⟩ : BufTy).Contents (Elt F)),
    StableHlo.unary main_v40 main_v41 (broadcastInDim S50000x1 ![0] bcast_S50000_S50000x1_0 : (⟨S50000, .f32⟩ : BufTy).Contents (Elt F) → (⟨S50000x1, .f32⟩ : BufTy).Contents (Elt F)),
    StableHlo.unary main_v41 main_v42 (broadcastInDim S50000x96 ![0, 1] bcast_S50000x1_S50000x96_0_1 : (⟨S50000x1, .f32⟩ : BufTy).Contents (Elt F) → (⟨S50000x96, .f32⟩ : BufTy).Contents (Elt F)),
    StableHlo.binary main_v4 main_v42 main_v43 (mulf : (⟨S50000x96, .f32⟩ : BufTy).Contents (Elt F) → (⟨S50000x96, .f32⟩ : BufTy).Contents (Elt F) → (⟨S50000x96, .f32⟩ : BufTy).Contents (Elt F)),
    StableHlo.binary main_v39 main_v43 main_v44 (addf : (⟨S50000x96, .f32⟩ : BufTy).Contents (Elt F) → (⟨S50000x96, .f32⟩ : BufTy).Contents (Elt F) → (⟨S50000x96, .f32⟩ : BufTy).Contents (Elt F)),
    StableHlo.unary main_arg6 main_v45 (broadcastInDim S1x96 ![1] bcast_S96_S1x96_1 : (⟨S96, .f32⟩ : BufTy).Contents (Elt F) → (⟨S1x96, .f32⟩ : BufTy).Contents (Elt F)),
    StableHlo.unary main_v45 main_v46 (broadcastInDim S50000x96 ![0, 1] bcast_S1x96_S50000x96_0_1 : (⟨S1x96, .f32⟩ : BufTy).Contents (Elt F) → (⟨S50000x96, .f32⟩ : BufTy).Contents (Elt F)),
    StableHlo.binary main_v44 main_v46 main_v47 (addf : (⟨S50000x96, .f32⟩ : BufTy).Contents (Elt F) → (⟨S50000x96, .f32⟩ : BufTy).Contents (Elt F) → (⟨S50000x96, .f32⟩ : BufTy).Contents (Elt F)),
    StableHlo.TRef.nullary main_call0.cst (constant S_ .f32 0x00000000#32),
    StableHlo.TRef.unary main_call0.cst main_call0.v0 (broadcastInDim S50000x96 ![] bcast_S_S50000x96),
    StableHlo.TRef.binary (.of main_v47 : StableHlo.TRef sig ⟨S50000x96, .f32⟩) main_call0.v0 main_call0.v1 maximumf,
    StableHlo.binary main_v48 main_arg7 main_v49 ((fun l r => Host.dotGeneral dot_S50000x96_S96x96_S50000x96_1_0_0_1_n_n none l r) : (⟨S50000x96, .f32⟩ : BufTy).Contents (Elt F) → (⟨S96x96, .f32⟩ : BufTy).Contents (Elt F) → (⟨S50000x96, .f32⟩ : BufTy).Contents (Elt F)),
    StableHlo.nullary main_cst_7 (constant S_ .f32 0x00000000#32) ]

set_option maxRecDepth 8192 in
/-- The window's program is that straight line: the called functions' definitions unfolded at their calls, both sides
    are one chain of steps once sequencing is reassociated. -/
theorem main_part0_eq (c : Dev nD) : main_part0 (F := F) c = seq ops0 := by
  simp only [main_part0, fn_relu.body, seq, bind_assoc, pure_bind]
  rfl

set_option maxRecDepth 8192 in
/-- Every operation of the window touches TensorCore references only. -/
theorem ops0_sub : (ops0 : List (HloOp τ sig (Elt F))).Forall fun op => op.bufs ⊆ tcRefs τ sig :=
  ⟨unary_bufs_sub .., reshape_bufs_sub .., unary_bufs_sub .., reshape_bufs_sub .., binary_bufs_sub .., nullary_bufs_sub ..,
    unary_bufs_sub .., unary_bufs_sub .., ternary_bufs_sub .., nullary_bufs_sub .., unary_bufs_sub .., binary_bufs_sub ..,
    unary_bufs_sub .., nullary_bufs_sub .., unary_bufs_sub .., binary_bufs_sub .., nullary_bufs_sub .., unary_bufs_sub ..,
    binary_bufs_sub .., ternary_bufs_sub .., unary_bufs_sub .., binary_bufs_sub .., binary_bufs_sub .., nullary_bufs_sub ..,
    unary_bufs_sub .., binary_bufs_sub .., nullary_bufs_sub .., unary_bufs_sub .., binary_bufs_sub .., ternary_bufs_sub ..,
    unary_bufs_sub .., binary_bufs_sub .., binary_bufs_sub .., nullary_bufs_sub .., unary_bufs_sub .., binary_bufs_sub ..,
    nullary_bufs_sub .., unary_bufs_sub .., binary_bufs_sub .., ternary_bufs_sub .., unary_bufs_sub .., binary_bufs_sub ..,
    unary_bufs_sub .., unary_bufs_sub .., binary_bufs_sub .., nullary_bufs_sub .., unary_bufs_sub .., unary_bufs_sub ..,
    ternary_bufs_sub .., binary_bufs_sub .., unary_bufs_sub .., unary_bufs_sub .., binary_bufs_sub .., binary_bufs_sub ..,
    unary_bufs_sub .., unary_bufs_sub .., binary_bufs_sub .., nullary_bufs_sub .., unary_bufs_sub .., binary_bufs_sub ..,
    binary_bufs_sub .., nullary_bufs_sub ..⟩

/-- The buffers the window's operations write, in order. -/
abbrev ops0_W : List (Ref sig .tc) :=
  [main_v0, main_v1, main_v2, main_v3, main_v4, main_cst, main_v5, main_v6,
    main_v7, main_cst_0, main_v8, main_v9, main_v10, main_c, main_v11, main_v12,
    main_c_1, main_v13, main_v14, main_v15, main_v16, main_v17, main_v18, main_c_2,
    main_v19, main_v20, main_c_3, main_v21, main_v22, main_v23, main_v24, main_v25,
    main_v26, main_c_4, main_v27, main_v28, main_c_5, main_v29, main_v30, main_v31,
    main_v32, main_v33, main_v34, main_v35, main_v36, main_cst_6, main_v37, main_v38,
    main_v39, main_v40, main_v41, main_v42, main_v43, main_v44, main_v45, main_v46,
    main_v47, main_call0.cst.ref, main_call0.v0.ref, main_call0.v1.ref, main_v49, main_cst_7]

set_option maxRecDepth 8192 in
/-- Each operation of the window writes its own result buffer, which is in that list. -/
theorem ops0_writes : (ops0 : List (HloOp τ sig (Elt F))).Forall fun op =>
    op.writes ⊆ (ops0_W.map (Proc.devRef (τ := τ) .tc)).toFinset :=
  ⟨writes_sub_of_mem main_v0 rfl (by decide),
    writes_sub_of_mem main_v1 rfl (by decide),
    writes_sub_of_mem main_v2 rfl (by decide),
    writes_sub_of_mem main_v3 rfl (by decide),
    writes_sub_of_mem main_v4 rfl (by decide),
    writes_sub_of_mem main_cst rfl (by decide),
    writes_sub_of_mem main_v5 rfl (by decide),
    writes_sub_of_mem main_v6 rfl (by decide),
    writes_sub_of_mem main_v7 rfl (by decide),
    writes_sub_of_mem main_cst_0 rfl (by decide),
    writes_sub_of_mem main_v8 rfl (by decide),
    writes_sub_of_mem main_v9 rfl (by decide),
    writes_sub_of_mem main_v10 rfl (by decide),
    writes_sub_of_mem main_c rfl (by decide),
    writes_sub_of_mem main_v11 rfl (by decide),
    writes_sub_of_mem main_v12 rfl (by decide),
    writes_sub_of_mem main_c_1 rfl (by decide),
    writes_sub_of_mem main_v13 rfl (by decide),
    writes_sub_of_mem main_v14 rfl (by decide),
    writes_sub_of_mem main_v15 rfl (by decide),
    writes_sub_of_mem main_v16 rfl (by decide),
    writes_sub_of_mem main_v17 rfl (by decide),
    writes_sub_of_mem main_v18 rfl (by decide),
    writes_sub_of_mem main_c_2 rfl (by decide),
    writes_sub_of_mem main_v19 rfl (by decide),
    writes_sub_of_mem main_v20 rfl (by decide),
    writes_sub_of_mem main_c_3 rfl (by decide),
    writes_sub_of_mem main_v21 rfl (by decide),
    writes_sub_of_mem main_v22 rfl (by decide),
    writes_sub_of_mem main_v23 rfl (by decide),
    writes_sub_of_mem main_v24 rfl (by decide),
    writes_sub_of_mem main_v25 rfl (by decide),
    writes_sub_of_mem main_v26 rfl (by decide),
    writes_sub_of_mem main_c_4 rfl (by decide),
    writes_sub_of_mem main_v27 rfl (by decide),
    writes_sub_of_mem main_v28 rfl (by decide),
    writes_sub_of_mem main_c_5 rfl (by decide),
    writes_sub_of_mem main_v29 rfl (by decide),
    writes_sub_of_mem main_v30 rfl (by decide),
    writes_sub_of_mem main_v31 rfl (by decide),
    writes_sub_of_mem main_v32 rfl (by decide),
    writes_sub_of_mem main_v33 rfl (by decide),
    writes_sub_of_mem main_v34 rfl (by decide),
    writes_sub_of_mem main_v35 rfl (by decide),
    writes_sub_of_mem main_v36 rfl (by decide),
    writes_sub_of_mem main_cst_6 rfl (by decide),
    writes_sub_of_mem main_v37 rfl (by decide),
    writes_sub_of_mem main_v38 rfl (by decide),
    writes_sub_of_mem main_v39 rfl (by decide),
    writes_sub_of_mem main_v40 rfl (by decide),
    writes_sub_of_mem main_v41 rfl (by decide),
    writes_sub_of_mem main_v42 rfl (by decide),
    writes_sub_of_mem main_v43 rfl (by decide),
    writes_sub_of_mem main_v44 rfl (by decide),
    writes_sub_of_mem main_v45 rfl (by decide),
    writes_sub_of_mem main_v46 rfl (by decide),
    writes_sub_of_mem main_v47 rfl (by decide),
    writes_sub_of_mem (main_call0.cst.ref) rfl (by decide),
    writes_sub_of_mem (main_call0.v0.ref) rfl (by decide),
    writes_sub_of_mem (main_call0.v1.ref) rfl (by decide),
    writes_sub_of_mem main_v49 rfl (by decide),
    writes_sub_of_mem main_cst_7 rfl (by decide)⟩

set_option maxRecDepth 8192 in
/-- Every operation of the window determines its results: none is an allocation. -/
theorem ops0_fresh : ∀ op ∈ (ops0 : List (HloOp τ sig (Elt F))), op.fresh = ∅ := by
  intro _ h; (repeat (cases h with | head => rfl | tail _ h => ?_)); exact nomatch h

/-- A buffer the window does not write keeps its contents through it. -/
theorem ops0_keep (V : Valuation τ sig (Elt F)) (r : Ref sig .tc) (h : r ∉ ops0_W) :
    after ops0 V (Proc.devRef .tc r) = V (Proc.devRef .tc r) :=
  after_of_writes_sub ops0 V ops0_writes h

end Cert.RefSide

end
-- ==== Proof.RRun1.lean ====
/-
  Statements 61 … 120 of the reference's host program: the second layer's graph side and its maximum with zero, the
  per-graph sums of the rows, and the constants the node counts start from — as ONE list of operations, the call's
  three operations spelt at the call site over that call's record, and the window's program read as that list.
-/
import proofs.«178079_j40450001993771_1_alg».proof.Proof.Gen.ReferenceIdeal
import proofs.«178079_j40450001993771_1_alg».proof.Proof.RBase

noncomputable section

namespace Cert.RefSide

open Cert.ReferenceIdeal Cert.ReferenceIdeal.Facts₀ Idealize.ShloMosaic Idealize.ShloMosaic.TcCoe Idealize.SL.Sem Idealize.ShloMosaic.StableHlo

variable {F : FTy → Type} [FloatOps F]

/-- The window's 62 operations, in order. -/
abbrev ops1 : List (HloOp τ sig (Elt F)) :=
  [ StableHlo.unary main_cst_7 main_v50 (broadcastInDim S50000 ![] bcast_S_S50000 : (⟨S_, .f32⟩ : BufTy).Contents (Elt F) → (⟨S50000, .f32⟩ : BufTy).Contents (Elt F)),
    StableHlo.unary main_v3 main_v51 (broadcastInDim S800000x1 ![0] bcast_S800000_S800000x1_0 : (⟨S800000, .i32⟩ : BufTy).Contents (Elt F) → (⟨S800000x1, .i32⟩ : BufTy).Contents (Elt F)),
    StableHlo.ternary main_v50 main_v51 main_arg2 main_v52 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_cst_8 (constant S_ .f32 0x3F800000#32),
    StableHlo.unary main_cst_8 main_v53 (broadcastInDim S50000 ![] bcast_S_S50000 : (⟨S_, .f32⟩ : BufTy).Contents (Elt F) → (⟨S50000, .f32⟩ : BufTy).Contents (Elt F)),
    StableHlo.binary main_v52 main_v53 main_v54 (addf : (⟨S50000, .f32⟩ : BufTy).Contents (Elt F) → (⟨S50000, .f32⟩ : BufTy).Contents (Elt F) → (⟨S50000, .f32⟩ : BufTy).Contents (Elt F)),
    StableHlo.unary main_v54 main_v55 (Host.rsqrt : (⟨S50000, .f32⟩ : BufTy).Contents (Elt F) → (⟨S50000, .f32⟩ : BufTy).Contents (Elt F)),
    StableHlo.nullary main_c_9 (constantI S_ 32 0#32),
    StableHlo.unary main_c_9 main_v56 (broadcastInDim S800000 ![] bcast_S_S800000 : (⟨S_, .i32⟩ : BufTy).Contents (Elt F) → (⟨S800000, .i32⟩ : BufTy).Contents (Elt F)),
    StableHlo.binary main_v1 main_v56 main_v57 (cmpi .slt : (⟨S800000, .i32⟩ : BufTy).Contents (Elt F) → (⟨S800000, .i32⟩ : BufTy).Contents (Elt F) → (⟨S800000, .i1⟩ : BufTy).Contents (Elt F)),
    StableHlo.nullary main_c_10 (constantI S_ 32 50000#32),
    StableHlo.unary main_c_10 main_v58 (broadcastInDim S800000 ![] bcast_S_S800000 : (⟨S_, .i32⟩ : BufTy).Contents (Elt F) → (⟨S800000, .i32⟩ : BufTy).Contents (Elt F)),
    StableHlo.binary main_v1 main_v58 main_v59 (addi : (⟨S800000, .i32⟩ : BufTy).Contents (Elt F) → (⟨S800000, .i32⟩ : BufTy).Contents (Elt F) → (⟨S800000, .i32⟩ : BufTy).Contents (Elt F)),
    StableHlo.ternary main_v57 main_v59 main_v1 main_v60 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v60 main_v61 (broadcastInDim S800000x1 ![0] bcast_S800000_S800000x1_0 : (⟨S800000, .i32⟩ : BufTy).Contents (Elt F) → (⟨S800000x1, .i32⟩ : BufTy).Contents (Elt F)),
    StableHlo.binary main_v55 main_v61 main_v62 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    StableHlo.binary main_v62 main_arg2 main_v63 (mulf : (⟨S800000, .f32⟩ : BufTy).Contents (Elt F) → (⟨S800000, .f32⟩ : BufTy).Contents (Elt F) → (⟨S800000, .f32⟩ : BufTy).Contents (Elt F)),
    StableHlo.nullary main_c_11 (constantI S_ 32 0#32),
    StableHlo.unary main_c_11 main_v64 (broadcastInDim S800000 ![] bcast_S_S800000 : (⟨S_, .i32⟩ : BufTy).Contents (Elt F) → (⟨S800000, .i32⟩ : BufTy).Contents (Elt F)),
    StableHlo.binary main_v3 main_v64 main_v65 (cmpi .slt : (⟨S800000, .i32⟩ : BufTy).Contents (Elt F) → (⟨S800000, .i32⟩ : BufTy).Contents (Elt F) → (⟨S800000, .i1⟩ : BufTy).Contents (Elt F)),
    StableHlo.nullary main_c_12 (constantI S_ 32 50000#32),
    StableHlo.unary main_c_12 main_v66 (broadcastInDim S800000 ![] bcast_S_S800000 : (⟨S_, .i32⟩ : BufTy).Contents (Elt F) → (⟨S800000, .i32⟩ : BufTy).Contents (Elt F)),
    StableHlo.binary main_v3 main_v66 main_v67 (addi : (⟨S800000, .i32⟩ : BufTy).Contents (Elt F) → (⟨S800000, .i32⟩ : BufTy).Contents (Elt F) → (⟨S800000, .i32⟩ : BufTy).Contents (Elt F)),
    StableHlo.ternary main_v65 main_v67 main_v3 main_v68 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v68 main_v69 (broadcastInDim S800000x1 ![0] bcast_S800000_S800000x1_0 : (⟨S800000, .i32⟩ : BufTy).Contents (Elt F) → (⟨S800000x1, .i32⟩ : BufTy).Contents (Elt F)),
    StableHlo.binary main_v55 main_v69 main_v70 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    StableHlo.binary main_v63 main_v70 main_v71 (mulf : (⟨S800000, .f32⟩ : BufTy).Contents (Elt F) → (⟨S800000, .f32⟩ : BufTy).Contents (Elt F) → (⟨S800000, .f32⟩ : BufTy).Contents (Elt F)),
    StableHlo.nullary main_c_13 (constantI S_ 32 0#32),
    StableHlo.unary main_c_13 main_v72 (broadcastInDim S800000 ![] bcast_S_S800000 : (⟨S_, .i32⟩ : BufTy).Contents (Elt F) → (⟨S800000, .i32⟩ : BufTy).Contents (Elt F)),
    StableHlo.binary main_v1 main_v72 main_v73 (cmpi .slt : (⟨S800000, .i32⟩ : BufTy).Contents (Elt F) → (⟨S800000, .i32⟩ : BufTy).Contents (Elt F) → (⟨S800000, .i1⟩ : BufTy).Contents (Elt F)),
    StableHlo.nullary main_c_14 (constantI S_ 32 50000#32),
    StableHlo.unary main_c_14 main_v74 (broadcastInDim S800000 ![] bcast_S_S800000 : (⟨S_, .i32⟩ : BufTy).Contents (Elt F) → (⟨S800000, .i32⟩ : BufTy).Contents (Elt F)),
    StableHlo.binary main_v1 main_v74 main_v75 (addi : (⟨S800000, .i32⟩ : BufTy).Contents (Elt F) → (⟨S800000, .i32⟩ : BufTy).Contents (Elt F) → (⟨S800000, .i32⟩ : BufTy).Contents (Elt F)),
    StableHlo.ternary main_v73 main_v75 main_v1 main_v76 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v76 main_v77 (broadcastInDim S800000x1 ![0] bcast_S800000_S800000x1_0 : (⟨S800000, .i32⟩ : BufTy).Contents (Elt F) → (⟨S800000x1, .i32⟩ : BufTy).Contents (Elt F)),
    StableHlo.binary main_v49 main_v77 main_v78 ((fun x i => Host.gather gather_S50000x96_S800000x1_S800000x96_1_0_n_n_0_1_196 x i) : (⟨S50000x96, .f32⟩ : BufTy).Contents (Elt F) → (⟨S800000x1, .i32⟩ : BufTy).Contents (Elt F) → (⟨S800000x96, .f32⟩ : BufTy).Contents (Elt F)),
    StableHlo.unary main_v71 main_v79 (broadcastInDim S800000x1 ![0] bcast_S800000_S800000x1_0 : (⟨S800000, .f32⟩ : BufTy).Contents (Elt F) → (⟨S800000x1, .f32⟩ : BufTy).Contents (Elt F)),
    StableHlo.unary main_v79 main_v80 (broadcastInDim S800000x96 ![0, 1] bcast_S800000x1_S800000x96_0_1 : (⟨S800000x1, .f32⟩ : BufTy).Contents (Elt F) → (⟨S800000x96, .f32⟩ : BufTy).Contents (Elt F)),
    StableHlo.binary main_v78 main_v80 main_v81 (mulf : (⟨S800000x96, .f32⟩ : BufTy).Contents (Elt F) → (⟨S800000x96, .f32⟩ : BufTy).Contents (Elt F) → (⟨S800000x96, .f32⟩ : BufTy).Contents (Elt F)),
    StableHlo.nullary main_cst_15 (constant S_ .f32 0x00000000#32),
    StableHlo.unary main_cst_15 main_v82 (broadcastInDim S50000x96 ![] bcast_S_S50000x96 : (⟨S_, .f32⟩ : BufTy).Contents (Elt F) → (⟨S50000x96, .f32⟩ : BufTy).Contents (Elt F)),
    StableHlo.unary main_v3 main_v83 (broadcastInDim S800000x1 ![0] bcast_S800000_S800000x1_0 : (⟨S800000, .i32⟩ : BufTy).Contents (Elt F) → (⟨S800000x1, .i32⟩ : BufTy).Contents (Elt F)),
    StableHlo.ternary main_v82 main_v83 main_v81 main_v84 ((fun x i u => Host.scatterAdd scatter_S50000x96_S800000x1_S800000x96_1_0_0_1 x i u) : (⟨S50000x96, .f32⟩ : BufTy).Contents (Elt F) → (⟨S800000x1, .i32⟩ : BufTy).Contents (Elt F) → (⟨S800000x96, .f32⟩ : BufTy).Contents (Elt F) → (⟨S50000x96, .f32⟩ : BufTy).Contents (Elt F)),
    StableHlo.binary main_v55 main_v55 main_v85 (mulf : (⟨S50000, .f32⟩ : BufTy).Contents (Elt F) → (⟨S50000, .f32⟩ : BufTy).Contents (Elt F) → (⟨S50000, .f32⟩ : BufTy).Contents (Elt F)),
    StableHlo.unary main_v85 main_v86 (broadcastInDim S50000x1 ![0] bcast_S50000_S50000x1_0 : (⟨S50000, .f32⟩ : BufTy).Contents (Elt F) → (⟨S50000x1, .f32⟩ : BufTy).Contents (Elt F)),
    StableHlo.unary main_v86 main_v87 (broadcastInDim S50000x96 ![0, 1] bcast_S50000x1_S50000x96_0_1 : (⟨S50000x1, .f32⟩ : BufTy).Contents (Elt F) → (⟨S50000x96, .f32⟩ : BufTy).Contents (Elt F)),
    StableHlo.binary main_v49 main_v87 main_v88 (mulf : (⟨S50000x96, .f32⟩ : BufTy).Contents (Elt F) → (⟨S50000x96, .f32⟩ : BufTy).Contents (Elt F) → (⟨S50000x96, .f32⟩ : BufTy).Contents (Elt F)),
    StableHlo.binary main_v84 main_v88 main_v89 (addf : (⟨S50000x96, .f32⟩ : BufTy).Contents (Elt F) → (⟨S50000x96, .f32⟩ : BufTy).Contents (Elt F) → (⟨S50000x96, .f32⟩ : BufTy).Contents (Elt F)),
    StableHlo.unary main_arg8 main_v90 (broadcastInDim S1x96 ![1] bcast_S96_S1x96_1 : (⟨S96, .f32⟩ : BufTy).Contents (Elt F) → (⟨S1x96, .f32⟩ : BufTy).Contents (Elt F)),
    StableHlo.unary main_v90 main_v91 (broadcastInDim S50000x96 ![0, 1] bcast_S1x96_S50000x96_0_1 : (⟨S1x96, .f32⟩ : BufTy).Contents (Elt F) → (⟨S50000x96, .f32⟩ : BufTy).Contents (Elt F)),
    StableHlo.binary main_v89 main_v91 main_v92 (addf : (⟨S50000x96, .f32⟩ : BufTy).Contents (Elt F) → (⟨S50000x96, .f32⟩ : BufTy).Contents (Elt F) → (⟨S50000x96, .f32⟩ : BufTy).Contents (Elt F)),
    StableHlo.TRef.nullary main_call1.cst (constant S_ .f32 0x00000000#32),
    StableHlo.TRef.unary main_call1.cst main_call1.v0 (broadcastInDim S50000x96 ![] bcast_S_S50000x96),
    StableHlo.TRef.binary (.of main_v92 : StableHlo.TRef sig ⟨S50000x96, .f32⟩) main_call1.v0 main_call1.v1 maximumf,
    StableHlo.nullary main_cst_16 (constant S_ .f32 0x00000000#32),
    StableHlo.unary main_cst_16 main_v94 (broadcastInDim S64x96 ![] bcast_S_S64x96 : (⟨S_, .f32⟩ : BufTy).Contents (Elt F) → (⟨S64x96, .f32⟩ : BufTy).Contents (Elt F)),
    StableHlo.unary main_arg3 main_v95 (broadcastInDim S50000x1 ![0] bcast_S50000_S50000x1_0 : (⟨S50000, .i32⟩ : BufTy).Contents (Elt F) → (⟨S50000x1, .i32⟩ : BufTy).Contents (Elt F)),
    StableHlo.ternary main_v94 main_v95 main_v93 main_v96 ((fun x i u => Host.scatterAdd scatter_S64x96_S50000x1_S50000x96_1_0_0_1 x i u) : (⟨S64x96, .f32⟩ : BufTy).Contents (Elt F) → (⟨S50000x1, .i32⟩ : BufTy).Contents (Elt F) → (⟨S50000x96, .f32⟩ : BufTy).Contents (Elt F) → (⟨S64x96, .f32⟩ : BufTy).Contents (Elt F)),
    StableHlo.nullary main_cst_17 (constant S_ .f32 0x3F800000#32),
    StableHlo.unary main_cst_17 main_v97 (broadcastInDim S50000 ![] bcast_S_S50000 : (⟨S_, .f32⟩ : BufTy).Contents (Elt F) → (⟨S50000, .f32⟩ : BufTy).Contents (Elt F)),
    StableHlo.nullary main_cst_18 (constant S_ .f32 0x00000000#32),
    StableHlo.unary main_cst_18 main_v98 (broadcastInDim S64 ![] bcast_S_S64 : (⟨S_, .f32⟩ : BufTy).Contents (Elt F) → (⟨S64, .f32⟩ : BufTy).Contents (Elt F)) ]

set_option maxRecDepth 8192 in
/-- The window's program is that straight line: the called functions' definitions unfolded at their calls, both sides
    are one chain of steps once sequencing is reassociated. -/
theorem main_part1_eq (c : Dev nD) : main_part1 (F := F) c = seq ops1 := by
  simp only [main_part1, fn_relu.body, seq, bind_assoc, pure_bind]
  rfl

set_option maxRecDepth 8192 in
/-- Every operation of the window touches TensorCore references only. -/
theorem ops1_sub : (ops1 : List (HloOp τ sig (Elt F))).Forall fun op => op.bufs ⊆ tcRefs τ sig :=
  ⟨unary_bufs_sub .., unary_bufs_sub .., ternary_bufs_sub .., nullary_bufs_sub .., unary_bufs_sub .., binary_bufs_sub ..,
    unary_bufs_sub .., nullary_bufs_sub .., unary_bufs_sub .., binary_bufs_sub .., nullary_bufs_sub .., unary_bufs_sub ..,
    binary_bufs_sub .., ternary_bufs_sub .., unary_bufs_sub .., binary_bufs_sub .., binary_bufs_sub .., nullary_bufs_sub ..,
    unary_bufs_sub .., binary_bufs_sub .., nullary_bufs_sub .., unary_bufs_sub .., binary_bufs_sub .., ternary_bufs_sub ..,
    unary_bufs_sub .., binary_bufs_sub .., binary_bufs_sub .., nullary_bufs_sub .., unary_bufs_sub .., binary_bufs_sub ..,
    nullary_bufs_sub .., unary_bufs_sub .., binary_bufs_sub .., ternary_bufs_sub .., unary_bufs_sub .., binary_bufs_sub ..,
    unary_bufs_sub .., unary_bufs_sub .., binary_bufs_sub .., nullary_bufs_sub .., unary_bufs_sub .., unary_bufs_sub ..,
    ternary_bufs_sub .., binary_bufs_sub .., unary_bufs_sub .., unary_bufs_sub .., binary_bufs_sub .., binary_bufs_sub ..,
    unary_bufs_sub .., unary_bufs_sub .., binary_bufs_sub .., nullary_bufs_sub .., unary_bufs_sub .., binary_bufs_sub ..,
    nullary_bufs_sub .., unary_bufs_sub .., unary_bufs_sub .., ternary_bufs_sub .., nullary_bufs_sub .., unary_bufs_sub ..,
    nullary_bufs_sub .., unary_bufs_sub ..⟩

/-- The buffers the window's operations write, in order. -/
abbrev ops1_W : List (Ref sig .tc) :=
  [main_v50, main_v51, main_v52, main_cst_8, main_v53, main_v54, main_v55, main_c_9,
    main_v56, main_v57, main_c_10, main_v58, main_v59, main_v60, main_v61, main_v62,
    main_v63, main_c_11, main_v64, main_v65, main_c_12, main_v66, main_v67, main_v68,
    main_v69, main_v70, main_v71, main_c_13, main_v72, main_v73, main_c_14, main_v74,
    main_v75, main_v76, main_v77, main_v78, main_v79, main_v80, main_v81, main_cst_15,
    main_v82, main_v83, main_v84, main_v85, main_v86, main_v87, main_v88, main_v89,
    main_v90, main_v91, main_v92, main_call1.cst.ref, main_call1.v0.ref, main_call1.v1.ref, main_cst_16, main_v94,
    main_v95, main_v96, main_cst_17, main_v97, main_cst_18, main_v98]

set_option maxRecDepth 8192 in
/-- Each operation of the window writes its own result buffer, which is in that list. -/
theorem ops1_writes : (ops1 : List (HloOp τ sig (Elt F))).Forall fun op =>
    op.writes ⊆ (ops1_W.map (Proc.devRef (τ := τ) .tc)).toFinset :=
  ⟨writes_sub_of_mem main_v50 rfl (by decide),
    writes_sub_of_mem main_v51 rfl (by decide),
    writes_sub_of_mem main_v52 rfl (by decide),
    writes_sub_of_mem main_cst_8 rfl (by decide),
    writes_sub_of_mem main_v53 rfl (by decide),
    writes_sub_of_mem main_v54 rfl (by decide),
    writes_sub_of_mem main_v55 rfl (by decide),
    writes_sub_of_mem main_c_9 rfl (by decide),
    writes_sub_of_mem main_v56 rfl (by decide),
    writes_sub_of_mem main_v57 rfl (by decide),
    writes_sub_of_mem main_c_10 rfl (by decide),
    writes_sub_of_mem main_v58 rfl (by decide),
    writes_sub_of_mem main_v59 rfl (by decide),
    writes_sub_of_mem main_v60 rfl (by decide),
    writes_sub_of_mem main_v61 rfl (by decide),
    writes_sub_of_mem main_v62 rfl (by decide),
    writes_sub_of_mem main_v63 rfl (by decide),
    writes_sub_of_mem main_c_11 rfl (by decide),
    writes_sub_of_mem main_v64 rfl (by decide),
    writes_sub_of_mem main_v65 rfl (by decide),
    writes_sub_of_mem main_c_12 rfl (by decide),
    writes_sub_of_mem main_v66 rfl (by decide),
    writes_sub_of_mem main_v67 rfl (by decide),
    writes_sub_of_mem main_v68 rfl (by decide),
    writes_sub_of_mem main_v69 rfl (by decide),
    writes_sub_of_mem main_v70 rfl (by decide),
    writes_sub_of_mem main_v71 rfl (by decide),
    writes_sub_of_mem main_c_13 rfl (by decide),
    writes_sub_of_mem main_v72 rfl (by decide),
    writes_sub_of_mem main_v73 rfl (by decide),
    writes_sub_of_mem main_c_14 rfl (by decide),
    writes_sub_of_mem main_v74 rfl (by decide),
    writes_sub_of_mem main_v75 rfl (by decide),
    writes_sub_of_mem main_v76 rfl (by decide),
    writes_sub_of_mem main_v77 rfl (by decide),
    writes_sub_of_mem main_v78 rfl (by decide),
    writes_sub_of_mem main_v79 rfl (by decide),
    writes_sub_of_mem main_v80 rfl (by decide),
    writes_sub_of_mem main_v81 rfl (by decide),
    writes_sub_of_mem main_cst_15 rfl (by decide),
    writes_sub_of_mem main_v82 rfl (by decide),
    writes_sub_of_mem main_v83 rfl (by decide),
    writes_sub_of_mem main_v84 rfl (by decide),
    writes_sub_of_mem main_v85 rfl (by decide),
    writes_sub_of_mem main_v86 rfl (by decide),
    writes_sub_of_mem main_v87 rfl (by decide),
    writes_sub_of_mem main_v88 rfl (by decide),
    writes_sub_of_mem main_v89 rfl (by decide),
    writes_sub_of_mem main_v90 rfl (by decide),
    writes_sub_of_mem main_v91 rfl (by decide),
    writes_sub_of_mem main_v92 rfl (by decide),
    writes_sub_of_mem (main_call1.cst.ref) rfl (by decide),
    writes_sub_of_mem (main_call1.v0.ref) rfl (by decide),
    writes_sub_of_mem (main_call1.v1.ref) rfl (by decide),
    writes_sub_of_mem main_cst_16 rfl (by decide),
    writes_sub_of_mem main_v94 rfl (by decide),
    writes_sub_of_mem main_v95 rfl (by decide),
    writes_sub_of_mem main_v96 rfl (by decide),
    writes_sub_of_mem main_cst_17 rfl (by decide),
    writes_sub_of_mem main_v97 rfl (by decide),
    writes_sub_of_mem main_cst_18 rfl (by decide),
    writes_sub_of_mem main_v98 rfl (by decide)⟩

set_option maxRecDepth 8192 in
/-- Every operation of the window determines its results: none is an allocation. -/
theorem ops1_fresh : ∀ op ∈ (ops1 : List (HloOp τ sig (Elt F))), op.fresh = ∅ := by
  intro _ h; (repeat (cases h with | head => rfl | tail _ h => ?_)); exact nomatch h

/-- A buffer the window does not write keeps its contents through it. -/
theorem ops1_keep (V : Valuation τ sig (Elt F)) (r : Ref sig .tc) (h : r ∉ ops1_W) :
    after ops1 V (Proc.devRef .tc r) = V (Proc.devRef .tc r) :=
  after_of_writes_sub ops1 V ops1_writes h

end Cert.RefSide

end
-- ==== Proof.RRun2.lean ====
/-
  Statements 121 … 155 of the reference's host program: the node counts and the mean, each graph's first node, its
  floored remainder by 64 (twenty-one operations, the select of the divisor among them), the metadata rows, the
  metadata branch, the concatenation and the head — as ONE list of operations, each call's operations spelt at the
  call site over that call's record, and the window's program read as that list.
-/
import proofs.«178079_j40450001993771_1_alg».proof.Proof.Gen.ReferenceIdeal
import proofs.«178079_j40450001993771_1_alg».proof.Proof.RBase

noncomputable section

namespace Cert.RefSide

open Cert.ReferenceIdeal Cert.ReferenceIdeal.Facts₀ Idealize.ShloMosaic Idealize.ShloMosaic.TcCoe Idealize.SL.Sem Idealize.ShloMosaic.StableHlo

variable {F : FTy → Type} [FloatOps F]

/-- The window's 56 operations, in order. -/
abbrev ops2 : List (HloOp τ sig (Elt F)) :=
  [ StableHlo.unary main_arg3 main_v99 (broadcastInDim S50000x1 ![0] bcast_S50000_S50000x1_0 : (⟨S50000, .i32⟩ : BufTy).Contents (Elt F) → (⟨S50000x1, .i32⟩ : BufTy).Contents (Elt F)),
    StableHlo.ternary main_v98 main_v99 main_v97 main_v100 ((fun x i u => Host.scatterAdd scatter_S64_S50000x1_S50000_n_0_0_1 x i u) : (⟨S64, .f32⟩ : BufTy).Contents (Elt F) → (⟨S50000x1, .i32⟩ : BufTy).Contents (Elt F) → (⟨S50000, .f32⟩ : BufTy).Contents (Elt F) → (⟨S64, .f32⟩ : BufTy).Contents (Elt F)),
    StableHlo.nullary main_cst_19 (constant S_ .f32 0x3F800000#32),
    StableHlo.unary main_cst_19 main_v101 (broadcastInDim S64 ![] bcast_S_S64 : (⟨S_, .f32⟩ : BufTy).Contents (Elt F) → (⟨S64, .f32⟩ : BufTy).Contents (Elt F)),
    StableHlo.binary main_v100 main_v101 main_v102 (maximumf : (⟨S64, .f32⟩ : BufTy).Contents (Elt F) → (⟨S64, .f32⟩ : BufTy).Contents (Elt F) → (⟨S64, .f32⟩ : BufTy).Contents (Elt F)),
    StableHlo.unary main_v102 main_v103 (broadcastInDim S64x1 ![0] bcast_S64_S64x1_0 : (⟨S64, .f32⟩ : BufTy).Contents (Elt F) → (⟨S64x1, .f32⟩ : BufTy).Contents (Elt F)),
    StableHlo.unary main_v103 main_v104 (broadcastInDim S64x96 ![0, 1] bcast_S64x1_S64x96_0_1 : (⟨S64x1, .f32⟩ : BufTy).Contents (Elt F) → (⟨S64x96, .f32⟩ : BufTy).Contents (Elt F)),
    StableHlo.binary main_v96 main_v104 main_v105 (Host.divf : (⟨S64x96, .f32⟩ : BufTy).Contents (Elt F) → (⟨S64x96, .f32⟩ : BufTy).Contents (Elt F) → (⟨S64x96, .f32⟩ : BufTy).Contents (Elt F)),
    StableHlo.nullary main_v106 (iotaInDim S50000 32 0),
    StableHlo.nullary main_c_20 (constantI S_ 32 2147483647#32),
    StableHlo.unary main_c_20 main_v107 (broadcastInDim S64 ![] bcast_S_S64 : (⟨S_, .i32⟩ : BufTy).Contents (Elt F) → (⟨S64, .i32⟩ : BufTy).Contents (Elt F)),
    StableHlo.unary main_arg3 main_v108 (broadcastInDim S50000x1 ![0] bcast_S50000_S50000x1_0 : (⟨S50000, .i32⟩ : BufTy).Contents (Elt F) → (⟨S50000x1, .i32⟩ : BufTy).Contents (Elt F)),
    StableHlo.ternary main_v107 main_v108 main_v106 main_v109 ((fun x i u => Host.scatter scatter_S64_S50000x1_S50000_n_0_0_1 IntOp.minsi x i u) : (⟨S64, .i32⟩ : BufTy).Contents (Elt F) → (⟨S50000x1, .i32⟩ : BufTy).Contents (Elt F) → (⟨S50000, .i32⟩ : BufTy).Contents (Elt F) → (⟨S64, .i32⟩ : BufTy).Contents (Elt F)),
    StableHlo.nullary main_c_21 (constantI S_ 32 64#32),
    StableHlo.TRef.unary (.of main_c_21 : StableHlo.TRef sig ⟨S_, .i32⟩) main_call2.v0 id,
    StableHlo.TRef.nullary main_call2.c (constantI S_ 32 0#32),
    StableHlo.TRef.binary main_call2.v0 main_call2.c main_call2.v1 (cmpi .eq),
    StableHlo.TRef.nullary main_call2.c_0 (constantI S_ 32 1#32),
    StableHlo.TRef.ternary main_call2.v1 main_call2.c_0 main_call2.v0 main_call2.call0.v0 select,
    StableHlo.TRef.unary main_call2.call0.v0 main_call2.v3 (broadcastInDim S64 ![] bcast_S_S64),
    StableHlo.TRef.binary (.of main_v109 : StableHlo.TRef sig ⟨S64, .i32⟩) main_call2.v3 main_call2.v4 Host.remsi,
    StableHlo.TRef.nullary main_call2.c_1 (constantI S_ 32 0#32),
    StableHlo.TRef.unary main_call2.c_1 main_call2.v5 (broadcastInDim S64 ![] bcast_S_S64),
    StableHlo.TRef.binary main_call2.v4 main_call2.v5 main_call2.v6 (cmpi .ne),
    StableHlo.TRef.nullary main_call2.c_2 (constantI S_ 32 0#32),
    StableHlo.TRef.unary main_call2.c_2 main_call2.v7 (broadcastInDim S64 ![] bcast_S_S64),
    StableHlo.TRef.binary main_call2.v4 main_call2.v7 main_call2.v8 (cmpi .slt),
    StableHlo.TRef.nullary main_call2.c_3 (constantI S_ 32 0#32),
    StableHlo.TRef.binary main_call2.call0.v0 main_call2.c_3 main_call2.v9 (cmpi .slt),
    StableHlo.TRef.unary main_call2.v9 main_call2.v10 (broadcastInDim S64 ![] bcast_S_S64),
    StableHlo.TRef.binary main_call2.v8 main_call2.v10 main_call2.v11 (cmpi .ne),
    StableHlo.TRef.binary main_call2.v11 main_call2.v6 main_call2.v12 andi,
    StableHlo.TRef.unary main_call2.call0.v0 main_call2.v13 (broadcastInDim S64 ![] bcast_S_S64),
    StableHlo.TRef.binary main_call2.v4 main_call2.v13 main_call2.v14 addi,
    StableHlo.TRef.ternary main_call2.v12 main_call2.v14 main_call2.v4 main_call2.v15 select,
    StableHlo.nullary main_c_22 (constantI S_ 32 0#32),
    StableHlo.unary main_c_22 main_v111 (broadcastInDim S64 ![] bcast_S_S64 : (⟨S_, .i32⟩ : BufTy).Contents (Elt F) → (⟨S64, .i32⟩ : BufTy).Contents (Elt F)),
    StableHlo.binary main_v110 main_v111 main_v112 (cmpi .slt : (⟨S64, .i32⟩ : BufTy).Contents (Elt F) → (⟨S64, .i32⟩ : BufTy).Contents (Elt F) → (⟨S64, .i1⟩ : BufTy).Contents (Elt F)),
    StableHlo.nullary main_c_23 (constantI S_ 32 64#32),
    StableHlo.unary main_c_23 main_v113 (broadcastInDim S64 ![] bcast_S_S64 : (⟨S_, .i32⟩ : BufTy).Contents (Elt F) → (⟨S64, .i32⟩ : BufTy).Contents (Elt F)),
    StableHlo.binary main_v110 main_v113 main_v114 (addi : (⟨S64, .i32⟩ : BufTy).Contents (Elt F) → (⟨S64, .i32⟩ : BufTy).Contents (Elt F) → (⟨S64, .i32⟩ : BufTy).Contents (Elt F)),
    StableHlo.ternary main_v112 main_v114 main_v110 main_v115 (select : (⟨S64, .i1⟩ : BufTy).Contents (Elt F) → (⟨S64, .i32⟩ : BufTy).Contents (Elt F) → (⟨S64, .i32⟩ : BufTy).Contents (Elt F) → (⟨S64, .i32⟩ : BufTy).Contents (Elt F)),
    StableHlo.unary main_v115 main_v116 (broadcastInDim S64x1 ![0] bcast_S64_S64x1_0 : (⟨S64, .i32⟩ : BufTy).Contents (Elt F) → (⟨S64x1, .i32⟩ : BufTy).Contents (Elt F)),
    StableHlo.binary main_arg4 main_v116 main_v117 ((fun x i => Host.gather gather_S64x30_S64x1_S64x30_1_0_n_n_0_1_130 x i) : (⟨S64x30, .f32⟩ : BufTy).Contents (Elt F) → (⟨S64x1, .i32⟩ : BufTy).Contents (Elt F) → (⟨S64x30, .f32⟩ : BufTy).Contents (Elt F)),
    StableHlo.binary main_v117 main_arg9 main_v118 ((fun l r => Host.dotGeneral dot_S64x30_S30x96_S64x96_1_0_0_1_n_n none l r) : (⟨S64x30, .f32⟩ : BufTy).Contents (Elt F) → (⟨S30x96, .f32⟩ : BufTy).Contents (Elt F) → (⟨S64x96, .f32⟩ : BufTy).Contents (Elt F)),
    StableHlo.unary main_arg10 main_v119 (broadcastInDim S1x96 ![1] bcast_S96_S1x96_1 : (⟨S96, .f32⟩ : BufTy).Contents (Elt F) → (⟨S1x96, .f32⟩ : BufTy).Contents (Elt F)),
    StableHlo.unary main_v119 main_v120 (broadcastInDim S64x96 ![0, 1] bcast_S1x96_S64x96_0_1 : (⟨S1x96, .f32⟩ : BufTy).Contents (Elt F) → (⟨S64x96, .f32⟩ : BufTy).Contents (Elt F)),
    StableHlo.binary main_v118 main_v120 main_v121 (addf : (⟨S64x96, .f32⟩ : BufTy).Contents (Elt F) → (⟨S64x96, .f32⟩ : BufTy).Contents (Elt F) → (⟨S64x96, .f32⟩ : BufTy).Contents (Elt F)),
    StableHlo.TRef.nullary main_call3.cst (constant S_ .f32 0x00000000#32),
    StableHlo.TRef.unary main_call3.cst main_call3.v0 (broadcastInDim S64x96 ![] bcast_S_S64x96),
    StableHlo.TRef.binary (.of main_v121 : StableHlo.TRef sig ⟨S64x96, .f32⟩) main_call3.v0 main_call3.v1 maximumf,
    StableHlo.binary main_v105 main_v122 main_v123 ((fun a b => concatenate S64x192 1 [⟨S64x96, a⟩, ⟨S64x96, b⟩] concatenates_S64x96_S64x96_S64x192_d1) : (⟨S64x96, .f32⟩ : BufTy).Contents (Elt F) → (⟨S64x96, .f32⟩ : BufTy).Contents (Elt F) → (⟨S64x192, .f32⟩ : BufTy).Contents (Elt F)),
    StableHlo.binary main_v123 main_arg11 main_v124 ((fun l r => Host.dotGeneral dot_S64x192_S192x10_S64x10_1_0_0_1_n_n none l r) : (⟨S64x192, .f32⟩ : BufTy).Contents (Elt F) → (⟨S192x10, .f32⟩ : BufTy).Contents (Elt F) → (⟨S64x10, .f32⟩ : BufTy).Contents (Elt F)),
    StableHlo.unary main_arg12 main_v125 (broadcastInDim S1x10 ![1] bcast_S10_S1x10_1 : (⟨S10, .f32⟩ : BufTy).Contents (Elt F) → (⟨S1x10, .f32⟩ : BufTy).Contents (Elt F)),
    StableHlo.unary main_v125 main_v126 (broadcastInDim S64x10 ![0, 1] bcast_S1x10_S64x10_0_1 : (⟨S1x10, .f32⟩ : BufTy).Contents (Elt F) → (⟨S64x10, .f32⟩ : BufTy).Contents (Elt F)),
    StableHlo.binary main_v124 main_v126 main_v127 (addf : (⟨S64x10, .f32⟩ : BufTy).Contents (Elt F) → (⟨S64x10, .f32⟩ : BufTy).Contents (Elt F) → (⟨S64x10, .f32⟩ : BufTy).Contents (Elt F)) ]

set_option maxRecDepth 8192 in
/-- The window's program is that straight line: the called functions' definitions unfolded at their calls, both sides
    are one chain of steps once sequencing is reassociated. -/
theorem main_part2_eq (c : Dev nD) : main_part2 (F := F) c = seq ops2 := by
  simp only [main_part2, fn_remainder.body, fn_where.body, fn_relu_0.body, seq, bind_assoc, pure_bind]

set_option maxRecDepth 8192 in
/-- Every operation of the window touches TensorCore references only. -/
theorem ops2_sub : (ops2 : List (HloOp τ sig (Elt F))).Forall fun op => op.bufs ⊆ tcRefs τ sig :=
  ⟨unary_bufs_sub .., ternary_bufs_sub .., nullary_bufs_sub .., unary_bufs_sub .., binary_bufs_sub .., unary_bufs_sub ..,
    unary_bufs_sub .., binary_bufs_sub .., nullary_bufs_sub .., nullary_bufs_sub .., unary_bufs_sub .., unary_bufs_sub ..,
    ternary_bufs_sub .., nullary_bufs_sub .., unary_bufs_sub .., nullary_bufs_sub .., binary_bufs_sub .., nullary_bufs_sub ..,
    ternary_bufs_sub .., unary_bufs_sub .., binary_bufs_sub .., nullary_bufs_sub .., unary_bufs_sub .., binary_bufs_sub ..,
    nullary_bufs_sub .., unary_bufs_sub .., binary_bufs_sub .., nullary_bufs_sub .., binary_bufs_sub .., unary_bufs_sub ..,
    binary_bufs_sub .., binary_bufs_sub .., unary_bufs_sub .., binary_bufs_sub .., ternary_bufs_sub .., nullary_bufs_sub ..,
    unary_bufs_sub .., binary_bufs_sub .., nullary_bufs_sub .., unary_bufs_sub .., binary_bufs_sub .., ternary_bufs_sub ..,
    unary_bufs_sub .., binary_bufs_sub .., binary_bufs_sub .., unary_bufs_sub .., unary_bufs_sub .., binary_bufs_sub ..,
    nullary_bufs_sub .., unary_bufs_sub .., binary_bufs_sub .., binary_bufs_sub .., binary_bufs_sub .., unary_bufs_sub ..,
    unary_bufs_sub .., binary_bufs_sub ..⟩

/-- The buffers the window's operations write, in order. -/
abbrev ops2_W : List (Ref sig .tc) :=
  [main_v99, main_v100, main_cst_19, main_v101, main_v102, main_v103, main_v104, main_v105,
    main_v106, main_c_20, main_v107, main_v108, main_v109, main_c_21, main_call2.v0.ref, main_call2.c.ref,
    main_call2.v1.ref, main_call2.c_0.ref, main_call2.call0.v0.ref, main_call2.v3.ref, main_call2.v4.ref, main_call2.c_1.ref, main_call2.v5.ref, main_call2.v6.ref,
    main_call2.c_2.ref, main_call2.v7.ref, main_call2.v8.ref, main_call2.c_3.ref, main_call2.v9.ref, main_call2.v10.ref, main_call2.v11.ref, main_call2.v12.ref,
    main_call2.v13.ref, main_call2.v14.ref, main_call2.v15.ref, main_c_22, main_v111, main_v112, main_c_23, main_v113,
    main_v114, main_v115, main_v116, main_v117, main_v118, main_v119, main_v120, main_v121,
    main_call3.cst.ref, main_call3.v0.ref, main_call3.v1.ref, main_v123, main_v124, main_v125, main_v126, main_v127]

set_option maxRecDepth 8192 in
/-- Each operation of the window writes its own result buffer, which is in that list. -/
theorem ops2_writes : (ops2 : List (HloOp τ sig (Elt F))).Forall fun op =>
    op.writes ⊆ (ops2_W.map (Proc.devRef (τ := τ) .tc)).toFinset :=
  ⟨writes_sub_of_mem main_v99 rfl (by decide),
    writes_sub_of_mem main_v100 rfl (by decide),
    writes_sub_of_mem main_cst_19 rfl (by decide),
    writes_sub_of_mem main_v101 rfl (by decide),
    writes_sub_of_mem main_v102 rfl (by decide),
    writes_sub_of_mem main_v103 rfl (by decide),
    writes_sub_of_mem main_v104 rfl (by decide),
    writes_sub_of_mem main_v105 rfl (by decide),
    writes_sub_of_mem main_v106 rfl (by decide),
    writes_sub_of_mem main_c_20 rfl (by decide),
    writes_sub_of_mem main_v107 rfl (by decide),
    writes_sub_of_mem main_v108 rfl (by decide),
    writes_sub_of_mem main_v109 rfl (by decide),
    writes_sub_of_mem main_c_21 rfl (by decide),
    writes_sub_of_mem (main_call2.v0.ref) rfl (by decide),
    writes_sub_of_mem (main_call2.c.ref) rfl (by decide),
    writes_sub_of_mem (main_call2.v1.ref) rfl (by decide),
    writes_sub_of_mem (main_call2.c_0.ref) rfl (by decide),
    writes_sub_of_mem (main_call2.call0.v0.ref) rfl (by decide),
    writes_sub_of_mem (main_call2.v3.ref) rfl (by decide),
    writes_sub_of_mem (main_call2.v4.ref) rfl (by decide),
    writes_sub_of_mem (main_call2.c_1.ref) rfl (by decide),
    writes_sub_of_mem (main_call2.v5.ref) rfl (by decide),
    writes_sub_of_mem (main_call2.v6.ref) rfl (by decide),
    writes_sub_of_mem (main_call2.c_2.ref) rfl (by decide),
    writes_sub_of_mem (main_call2.v7.ref) rfl (by decide),
    writes_sub_of_mem (main_call2.v8.ref) rfl (by decide),
    writes_sub_of_mem (main_call2.c_3.ref) rfl (by decide),
    writes_sub_of_mem (main_call2.v9.ref) rfl (by decide),
    writes_sub_of_mem (main_call2.v10.ref) rfl (by decide),
    writes_sub_of_mem (main_call2.v11.ref) rfl (by decide),
    writes_sub_of_mem (main_call2.v12.ref) rfl (by decide),
    writes_sub_of_mem (main_call2.v13.ref) rfl (by decide),
    writes_sub_of_mem (main_call2.v14.ref) rfl (by decide),
    writes_sub_of_mem (main_call2.v15.ref) rfl (by decide),
    writes_sub_of_mem main_c_22 rfl (by decide),
    writes_sub_of_mem main_v111 rfl (by decide),
    writes_sub_of_mem main_v112 rfl (by decide),
    writes_sub_of_mem main_c_23 rfl (by decide),
    writes_sub_of_mem main_v113 rfl (by decide),
    writes_sub_of_mem main_v114 rfl (by decide),
    writes_sub_of_mem main_v115 rfl (by decide),
    writes_sub_of_mem main_v116 rfl (by decide),
    writes_sub_of_mem main_v117 rfl (by decide),
    writes_sub_of_mem main_v118 rfl (by decide),
    writes_sub_of_mem main_v119 rfl (by decide),
    writes_sub_of_mem main_v120 rfl (by decide),
    writes_sub_of_mem main_v121 rfl (by decide),
    writes_sub_of_mem (main_call3.cst.ref) rfl (by decide),
    writes_sub_of_mem (main_call3.v0.ref) rfl (by decide),
    writes_sub_of_mem (main_call3.v1.ref) rfl (by decide),
    writes_sub_of_mem main_v123 rfl (by decide),
    writes_sub_of_mem main_v124 rfl (by decide),
    writes_sub_of_mem main_v125 rfl (by decide),
    writes_sub_of_mem main_v126 rfl (by decide),
    writes_sub_of_mem main_v127 rfl (by decide)⟩

set_option maxRecDepth 8192 in
/-- Every operation of the window determines its results: none is an allocation. -/
theorem ops2_fresh : ∀ op ∈ (ops2 : List (HloOp τ sig (Elt F))), op.fresh = ∅ := by
  intro _ h; (repeat (cases h with | head => rfl | tail _ h => ?_)); exact nomatch h

/-- A buffer the window does not write keeps its contents through it. -/
theorem ops2_keep (V : Valuation τ sig (Elt F)) (r : Ref sig .tc) (h : r ∉ ops2_W) :
    after ops2 V (Proc.devRef .tc r) = V (Proc.devRef .tc r) :=
  after_of_writes_sub ops2 V ops2_writes h

end Cert.RefSide

end
-- ==== Proof.RRun.lean ====
/-
  The reference's host program as ONE list of operations — its three windows' lists in a row — and its run: every
  weakly fair execution terminates with every buffer at the list's fold over the launch contents.
-/
import proofs.«178079_j40450001993771_1_alg».proof.Proof.RRun0
import proofs.«178079_j40450001993771_1_alg».proof.Proof.RRun1
import proofs.«178079_j40450001993771_1_alg».proof.Proof.RRun2
import Idealize.ShloMosaic.Lib.Pipeline.Frame

noncomputable section

namespace Cert.RefSide

open Cert.ReferenceIdeal Cert.ReferenceIdeal.Facts₀ Idealize.ShloMosaic Idealize.ShloMosaic.TcCoe Idealize.SL.Sem Idealize.ShloMosaic.StableHlo

variable {F : FTy → Type} [FloatOps F]

/-- The program's 180 operations, in order: the three windows' lists in a row. -/
abbrev ops : List (HloOp τ sig (Elt F)) := ops0 ++ (ops1 ++ ops2)

/-- The program is that straight line: each window is its own list, and lists in a row run one after the other. -/
theorem main_eq (c : Dev nD) : main (F := F) c = seq ops := by
  simp only [ops, seq_append, ← main_part0_eq c, ← main_part1_eq c, ← main_part2_eq c]
  rfl

theorem scopedRefs_eq : (Finset.univ.filter fun b : Ref sig .tc => b.isScoped) = ∅ := by decide
theorem scopedSems_eq : (Finset.univ.filter fun sm : SemLoc sig => sm.isScoped .tc) = ∅ := by decide

/-- Every operation touches TensorCore references only: window by window. -/
theorem ops_sub : (ops : List (HloOp τ sig (Elt F))).Forall fun op => op.bufs ⊆ tcRefs τ sig :=
  List.forall_iff_forall_mem.mpr fun op h => by
    simp only [ops, List.mem_append] at h
    rcases h with h | h | h
    exacts [List.forall_iff_forall_mem.mp ops0_sub op h, List.forall_iff_forall_mem.mp ops1_sub op h,
      List.forall_iff_forall_mem.mp ops2_sub op h]

/-- Every operation determines its results: window by window. -/
theorem ops_fresh : ∀ op ∈ (ops : List (HloOp τ sig (Elt F))), op.fresh = ∅ := fun op h => by
  simp only [ops, List.mem_append] at h
  rcases h with h | h | h
  exacts [ops0_fresh op h, ops1_fresh op h, ops2_fresh op h]

/-- The fold of the whole list is the three windows' folds in a row. -/
theorem after_ops (V : Valuation τ sig (Elt F)) : after ops V = after ops2 (after ops1 (after ops0 V)) := by
  simp only [ops, after_append]

/-- On every device, for any float values, from any memory with zero counters: every weakly fair execution of the
    program terminates, and every final state has each TensorCore buffer at the operations' fold over the launch
    contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ (fun _ => ops_fresh)

end Cert.RefSide

end
-- ==== Proof.RSpec.lean ====
/-
  The reference's arrangement of the network, over its own printed records: the same graph-side functions as the
  kernel's arrangement (scatter-add of weights, inverse root, gathers, scatter-add of messages, mean pool, first
  node's metadata row), each dense step as ONE host operation (a `dot_general`, additions with broadcast biases,
  a `maximum` with zero), and the head as one product of the concatenated features with the whole `192 × 10` matrix.
-/
import proofs.«178079_j40450001993771_1_alg».proof.Proof.Gen.ReferenceIdeal
import Idealize.ShloMosaic.PureOps.Ideal

noncomputable section

namespace Cert.GcnRef

open Idealize.ShloMosaic Cert.ReferenceIdeal Cert.ReferenceIdeal.Facts₀

/-- A float array of shape `s` at the ideal instance: extended reals. -/
abbrev RArr (s : Shape) : Type := FVec Ideal s .f32
/-- An array of 32-bit words of shape `s`. -/
abbrev NArr (s : Shape) : Type := IVec s 32

/-! ## The edge list -/

/-- Row `0` of the edge list: each edge's source node. -/
def srcRow (ei : NArr S2x800000) : NArr S800000 :=
  shapeCast S800000 (extractStridedSlice S1x800000 ![0, 0] ei slices_S2x800000_S1x800000_0_0) shapeCasts_S1x800000_S800000

/-- Row `1` of the edge list: each edge's target node. -/
def dstRow (ei : NArr S2x800000) : NArr S800000 :=
  shapeCast S800000 (extractStridedSlice S1x800000 ![1, 0] ei slices_S2x800000_S1x800000_1_0) shapeCasts_S1x800000_S800000

/-- A node word below zero counts from the end of the node axis. -/
def wrapNode (v : NArr S800000) : NArr S800000 :=
  select (cmpi .slt v (broadcastInDim S800000 ![] bcast_S_S800000 (constantI S_ 32 0#32)))
    (addi v (broadcastInDim S800000 ![] bcast_S_S800000 (constantI S_ 32 50000#32))) v

/-! ## One layer's graph side -/

/-- The inverse square root of one plus the weight arriving at each node. -/
def dinv (dst : NArr S800000) (ea : RArr S800000) : RArr S50000 :=
  Host.rsqrt (F := Ideal) (addf (F := Ideal)
    (Host.scatterAdd (F := Ideal) scatter_S50000_S800000x1_S800000_n_0_0_1
      (broadcastInDim S50000 ![] bcast_S_S50000 (constant (F := Ideal) S_ .f32 0x00000000#32))
      (broadcastInDim S800000x1 ![0] bcast_S800000_S800000x1_0 dst) ea)
    (broadcastInDim S50000 ![] bcast_S_S50000 (constant (F := Ideal) S_ .f32 0x3F800000#32)))

/-- Each edge's symmetric normalisation `dinv[src] * w * dinv[dst]`. -/
def edgeNorm (src dst : NArr S800000) (ea : RArr S800000) : RArr S800000 :=
  mulf (F := Ideal) (mulf (F := Ideal)
      (Host.gather gather_S50000_S800000x1_S800000_n_0_n_n_0_1_1 (dinv dst ea)
        (broadcastInDim S800000x1 ![0] bcast_S800000_S800000x1_0 (wrapNode src))) ea)
    (Host.gather gather_S50000_S800000x1_S800000_n_0_n_n_0_1_1 (dinv dst ea)
      (broadcastInDim S800000x1 ![0] bcast_S800000_S800000x1_0 (wrapNode dst)))

/-- The messages summed at their target nodes: row `n` is the sum over the edges into `n` of `h[src] * norm`. -/
def aggregate (h : RArr S50000x96) (src dst : NArr S800000) (ea : RArr S800000) : RArr S50000x96 :=
  Host.scatterAdd (F := Ideal) scatter_S50000x96_S800000x1_S800000x96_1_0_0_1
    (broadcastInDim S50000x96 ![] bcast_S_S50000x96 (constant (F := Ideal) S_ .f32 0x00000000#32))
    (broadcastInDim S800000x1 ![0] bcast_S800000_S800000x1_0 dst)
    (mulf (F := Ideal)
      (Host.gather gather_S50000x96_S800000x1_S800000x96_1_0_n_n_0_1_196 h
        (broadcastInDim S800000x1 ![0] bcast_S800000_S800000x1_0 (wrapNode src)))
      (broadcastInDim S800000x96 ![0, 1] bcast_S800000x1_S800000x96_0_1
        (broadcastInDim S800000x1 ![0] bcast_S800000_S800000x1_0 (edgeNorm src dst ea))))

/-- The self-loop's share: each row of `h` times `dinv^2` of its node. -/
def selfLoop (h : RArr S50000x96) (dst : NArr S800000) (ea : RArr S800000) : RArr S50000x96 :=
  mulf (F := Ideal) h (broadcastInDim S50000x96 ![0, 1] bcast_S50000x1_S50000x96_0_1
    (broadcastInDim S50000x1 ![0] bcast_S50000_S50000x1_0 (mulf (F := Ideal) (dinv dst ea) (dinv dst ea))))

/-! ## The pooling and the metadata row -/

/-- Each graph's mean row: the sum of its nodes' rows over `max (its node count, 1)`. -/
def meanPool (h : RArr S50000x96) (batch : NArr S50000) : RArr S64x96 :=
  Host.divf (F := Ideal)
    (Host.scatterAdd (F := Ideal) scatter_S64x96_S50000x1_S50000x96_1_0_0_1
      (broadcastInDim S64x96 ![] bcast_S_S64x96 (constant (F := Ideal) S_ .f32 0x00000000#32))
      (broadcastInDim S50000x1 ![0] bcast_S50000_S50000x1_0 batch) h)
    (broadcastInDim S64x96 ![0, 1] bcast_S64x1_S64x96_0_1
      (broadcastInDim S64x1 ![0] bcast_S64_S64x1_0
        (maximumf (F := Ideal)
          (Host.scatterAdd (F := Ideal) scatter_S64_S50000x1_S50000_n_0_0_1
            (broadcastInDim S64 ![] bcast_S_S64 (constant (F := Ideal) S_ .f32 0x00000000#32))
            (broadcastInDim S50000x1 ![0] bcast_S50000_S50000x1_0 batch)
            (broadcastInDim S50000 ![] bcast_S_S50000 (constant (F := Ideal) S_ .f32 0x3F800000#32)))
          (broadcastInDim S64 ![] bcast_S_S64 (constant (F := Ideal) S_ .f32 0x3F800000#32)))))

/-- The smallest node number of each graph (the largest signed word where a graph has no node). -/
def firstNode (batch : NArr S50000) : NArr S64 :=
  Host.scatter scatter_S64_S50000x1_S50000_n_0_0_1 IntOp.minsi
    (broadcastInDim S64 ![] bcast_S_S64 (constantI S_ 32 2147483647#32))
    (broadcastInDim S50000x1 ![0] bcast_S50000_S50000x1_0 batch)
    (iotaInDim S50000 32 0)

/-- The divisor `64` as the floored-remainder routine reads it: `1` in place of a zero divisor. -/
def remDivisor : NArr S_ :=
  select (cmpi .eq (constantI S_ 32 64#32) (constantI S_ 32 0#32)) (constantI S_ 32 1#32) (constantI S_ 32 64#32)

/-- The floored remainder from the truncated one: moved by the divisor where its sign differs from the divisor's. -/
def remFix (r : NArr S64) : NArr S64 :=
  select
    (andi
      (cmpi .ne (cmpi .slt r (broadcastInDim S64 ![] bcast_S_S64 (constantI S_ 32 0#32)))
        (broadcastInDim S64 ![] bcast_S_S64 (cmpi .slt remDivisor (constantI S_ 32 0#32))))
      (cmpi .ne r (broadcastInDim S64 ![] bcast_S_S64 (constantI S_ 32 0#32))))
    (addi r (broadcastInDim S64 ![] bcast_S_S64 remDivisor)) r

/-- The floored remainder by `64`. -/
def rem64 (x : NArr S64) : NArr S64 :=
  remFix (Host.remsi x (broadcastInDim S64 ![] bcast_S_S64 remDivisor))

/-- A row word below zero counts from the end of the `64` metadata rows. -/
def wrapRow (v : NArr S64) : NArr S64 :=
  select (cmpi .slt v (broadcastInDim S64 ![] bcast_S_S64 (constantI S_ 32 0#32)))
    (addi v (broadcastInDim S64 ![] bcast_S_S64 (constantI S_ 32 64#32))) v

/-- Each graph's metadata row: row `first node mod 64`. -/
def mdRow (batch : NArr S50000) (mdata : RArr S64x30) : RArr S64x30 :=
  Host.gather gather_S64x30_S64x1_S64x30_1_0_n_n_0_1_130 mdata
    (broadcastInDim S64x1 ![0] bcast_S64_S64x1_0 (wrapRow (rem64 (firstNode batch))))

/-! ## The dense steps as host operations -/

/-- `max (x, 0)` on a `50000 × 96` array. -/
def relu (x : RArr S50000x96) : RArr S50000x96 :=
  maximumf (F := Ideal) x (broadcastInDim S50000x96 ![] bcast_S_S50000x96 (constant (F := Ideal) S_ .f32 0x00000000#32))

/-- One graph-convolution layer with its ReLU, from the product `h = x · w`. -/
def layerOf (h : RArr S50000x96) (b : RArr S96) (ei : NArr S2x800000) (ea : RArr S800000) : RArr S50000x96 :=
  relu (addf (F := Ideal) (addf (F := Ideal) (aggregate h (srcRow ei) (dstRow ei) ea) (selfLoop h (dstRow ei) ea))
    (broadcastInDim S50000x96 ![0, 1] bcast_S1x96_S50000x96_0_1 (broadcastInDim S1x96 ![1] bcast_S96_S1x96_1 b)))

/-- One layer from its input: the product first. -/
def layer (x : RArr S50000x96) (w : RArr S96x96) (b : RArr S96) (ei : NArr S2x800000) (ea : RArr S800000) : RArr S50000x96 :=
  layerOf (Host.dotGeneral (F := Ideal) (φ₁ := .f32) (φ₂ := .f32) dot_S50000x96_S96x96_S50000x96_1_0_0_1_n_n none x w) b ei ea

/-- The metadata branch: `max (md · wm + bm, 0)`. -/
def mdHidden (md : RArr S64x30) (wm : RArr S30x96) (bm : RArr S96) : RArr S64x96 :=
  maximumf (F := Ideal)
    (addf (F := Ideal) (Host.dotGeneral (F := Ideal) (φ₁ := .f32) (φ₂ := .f32) dot_S64x30_S30x96_S64x96_1_0_0_1_n_n none md wm)
      (broadcastInDim S64x96 ![0, 1] bcast_S1x96_S64x96_0_1 (broadcastInDim S1x96 ![1] bcast_S96_S1x96_1 bm)))
    (broadcastInDim S64x96 ![] bcast_S_S64x96 (constant (F := Ideal) S_ .f32 0x00000000#32))

/-- The head: the two feature blocks side by side, times the whole matrix, plus the bias. -/
def headOf (pool mdh : RArr S64x96) (wf : RArr S192x10) (bf : RArr S10) : RArr S64x10 :=
  addf (F := Ideal)
    (Host.dotGeneral (F := Ideal) (φ₁ := .f32) (φ₂ := .f32) dot_S64x192_S192x10_S64x10_1_0_0_1_n_n none
      (concatenate (α := Ideal .f32) S64x192 1 [⟨S64x96, pool⟩, ⟨S64x96, mdh⟩] concatenates_S64x96_S64x96_S64x192_d1) wf)
    (broadcastInDim S64x10 ![0, 1] bcast_S1x10_S64x10_0_1 (broadcastInDim S1x10 ![1] bcast_S10_S1x10_1 bf))

/-- The reference's output from its thirteen arguments. -/
def net (x : RArr S50000x96) (ei : NArr S2x800000) (ea : RArr S800000) (batch : NArr S50000)
    (mdata : RArr S64x30) (w1 : RArr S96x96) (b1 : RArr S96) (w2 : RArr S96x96) (b2 : RArr S96)
    (wm : RArr S30x96) (bm : RArr S96) (wf : RArr S192x10) (bf : RArr S10) : RArr S64x10 :=
  headOf (meanPool (layer (layer x w1 b1 ei ea) w2 b2 ei ea) batch) (mdHidden (mdRow batch mdata) wm bm) wf bf

end Cert.GcnRef

end
-- ==== Proof.RVal0.lean ====
/-
  What the first window of the reference's program leaves, for any contents `V` it starts from: the two rows of the
  edge list, the first layer of the arguments, the second layer's product (that layer times the second weight
  matrix), and the zero constant the second layer's sums start from. The arguments keep their contents.
-/
import proofs.«178079_j40450001993771_1_alg».proof.Proof.RRun0
import proofs.«178079_j40450001993771_1_alg».proof.Proof.RSpec

set_option maxRecDepth 16384

noncomputable section

namespace Cert.RefSide

open Cert.ReferenceIdeal Cert.ReferenceIdeal.Facts₀ Idealize.ShloMosaic Idealize.ShloMosaic.StableHlo

-- the folds over an operand's elements stay folded: the equations below never look inside them
attribute [local irreducible] Host.gather Host.scatter Host.scatterAdd Host.rsqrt

variable (V : Valuation τ sig (Elt Ideal))

/-- Row 0 of the edge list. -/
theorem val0_src : after (ops0 (F := Ideal)) V (Proc.devRef .tc main_v1) = Cert.GcnRef.srcRow (V (Proc.devRef .tc main_arg1)) := by
  simp only [ops0]
  after_results_simp
  first | done | rfl

/-- Row 1 of the edge list. -/
theorem val0_dst : after (ops0 (F := Ideal)) V (Proc.devRef .tc main_v3) = Cert.GcnRef.dstRow (V (Proc.devRef .tc main_arg1)) := by
  simp only [ops0]
  after_results_simp
  first | done | rfl

/-- The zero constant the window ends on. -/
theorem val0_zero : after (ops0 (F := Ideal)) V (Proc.devRef .tc main_cst_7) = constant (F := Ideal) S_ .f32 0x00000000#32 := by
  simp only [ops0]
  after_results_simp
  first | done | rfl

set_option maxHeartbeats 400000 in
/-- Before the maximum with zero: the aggregate plus the self-loop share plus the bias rows, of the first product. -/
theorem val0_pre : after (ops0 (F := Ideal)) V (Proc.devRef .tc main_v47)
    = addf (F := Ideal) (addf (F := Ideal)
        (Cert.GcnRef.aggregate
          (Host.dotGeneral (F := Ideal) (φ₁ := .f32) (φ₂ := .f32) dot_S50000x96_S96x96_S50000x96_1_0_0_1_n_n none
            (V (Proc.devRef .tc main_arg0)) (V (Proc.devRef .tc main_arg5)))
          (Cert.GcnRef.srcRow (V (Proc.devRef .tc main_arg1))) (Cert.GcnRef.dstRow (V (Proc.devRef .tc main_arg1)))
          (V (Proc.devRef .tc main_arg2)))
        (Cert.GcnRef.selfLoop
          (Host.dotGeneral (F := Ideal) (φ₁ := .f32) (φ₂ := .f32) dot_S50000x96_S96x96_S50000x96_1_0_0_1_n_n none
            (V (Proc.devRef .tc main_arg0)) (V (Proc.devRef .tc main_arg5)))
          (Cert.GcnRef.dstRow (V (Proc.devRef .tc main_arg1))) (V (Proc.devRef .tc main_arg2))))
      (broadcastInDim S50000x96 ![0, 1] bcast_S1x96_S50000x96_0_1
        (broadcastInDim S1x96 ![1] bcast_S96_S1x96_1 (V (Proc.devRef .tc main_arg6)))) := by
  simp only [ops0]
  after_results_simp
  first | done | rfl

/-! ## The call's three operations at its literal buffers

The call of the maximum-with-zero function is spelt over typed references; at the literal buffers of this call each
of its operations is the plain operation on those buffers (the transport along a buffer's type is the identity). -/

theorem relu0_cst :
    (TRef.nullary main_call0.cst (constant (F := Ideal) S_ .f32 0x00000000#32) : HloOp τ sig (Elt Ideal))
      = StableHlo.nullary main_call0_cst (constant (F := Ideal) S_ .f32 0x00000000#32) := rfl

theorem relu0_v0 :
    (TRef.unary main_call0.cst main_call0.v0 (broadcastInDim S50000x96 ![] bcast_S_S50000x96) : HloOp τ sig (Elt Ideal))
      = StableHlo.unary main_call0_cst main_call0_v0
          (broadcastInDim S50000x96 ![] bcast_S_S50000x96 :
            (⟨S_, .f32⟩ : BufTy).Contents (Elt Ideal) → (⟨S50000x96, .f32⟩ : BufTy).Contents (Elt Ideal)) := rfl

theorem relu0_v1 :
    (TRef.binary (.of main_v47 : TRef sig ⟨S50000x96, .f32⟩) main_call0.v0 main_call0.v1 (maximumf (F := Ideal) (s := S50000x96) (φ := .f32)) : HloOp τ sig (Elt Ideal))
      = StableHlo.binary main_v47 main_call0_v0 main_v48
          (maximumf (F := Ideal) (s := S50000x96) (φ := .f32) : (⟨S50000x96, .f32⟩ : BufTy).Contents (Elt Ideal) → (⟨S50000x96, .f32⟩ : BufTy).Contents (Elt Ideal)
            → (⟨S50000x96, .f32⟩ : BufTy).Contents (Elt Ideal)) := rfl

set_option maxHeartbeats 400000 in
/-- The first layer of the arguments. -/
theorem val0_layer : after (ops0 (F := Ideal)) V (Proc.devRef .tc main_v48)
    = Cert.GcnRef.layer (V (Proc.devRef .tc main_arg0)) (V (Proc.devRef .tc main_arg5)) (V (Proc.devRef .tc main_arg6))
        (V (Proc.devRef .tc main_arg1)) (V (Proc.devRef .tc main_arg2)) := by
  simp only [ops0]
  rw [relu0_cst, relu0_v0, relu0_v1]
  after_results_simp
  first | done | rfl

set_option maxHeartbeats 400000 in
/-- The second layer's product: the first layer of the arguments, times the second weight matrix. -/
theorem val0_prod : after (ops0 (F := Ideal)) V (Proc.devRef .tc main_v49)
    = Host.dotGeneral (F := Ideal) (φ₁ := .f32) (φ₂ := .f32) dot_S50000x96_S96x96_S50000x96_1_0_0_1_n_n none
        (Cert.GcnRef.layer (V (Proc.devRef .tc main_arg0)) (V (Proc.devRef .tc main_arg5)) (V (Proc.devRef .tc main_arg6))
          (V (Proc.devRef .tc main_arg1)) (V (Proc.devRef .tc main_arg2)))
        (V (Proc.devRef .tc main_arg7)) := by
  simp only [ops0]
  rw [relu0_cst, relu0_v0, relu0_v1]
  after_results_simp
  first | done | rfl

/-! ## The arguments keep their contents -/

theorem val0_arg0 : after (ops0 (F := Ideal)) V (Proc.devRef .tc main_arg0) = V (Proc.devRef .tc main_arg0) :=
  ops0_keep V main_arg0 (by decide)
theorem val0_arg1 : after (ops0 (F := Ideal)) V (Proc.devRef .tc main_arg1) = V (Proc.devRef .tc main_arg1) :=
  ops0_keep V main_arg1 (by decide)
theorem val0_arg2 : after (ops0 (F := Ideal)) V (Proc.devRef .tc main_arg2) = V (Proc.devRef .tc main_arg2) :=
  ops0_keep V main_arg2 (by decide)
theorem val0_arg3 : after (ops0 (F := Ideal)) V (Proc.devRef .tc main_arg3) = V (Proc.devRef .tc main_arg3) :=
  ops0_keep V main_arg3 (by decide)
theorem val0_arg4 : after (ops0 (F := Ideal)) V (Proc.devRef .tc main_arg4) = V (Proc.devRef .tc main_arg4) :=
  ops0_keep V main_arg4 (by decide)
theorem val0_arg5 : after (ops0 (F := Ideal)) V (Proc.devRef .tc main_arg5) = V (Proc.devRef .tc main_arg5) :=
  ops0_keep V main_arg5 (by decide)
theorem val0_arg6 : after (ops0 (F := Ideal)) V (Proc.devRef .tc main_arg6) = V (Proc.devRef .tc main_arg6) :=
  ops0_keep V main_arg6 (by decide)
theorem val0_arg7 : after (ops0 (F := Ideal)) V (Proc.devRef .tc main_arg7) = V (Proc.devRef .tc main_arg7) :=
  ops0_keep V main_arg7 (by decide)
theorem val0_arg8 : after (ops0 (F := Ideal)) V (Proc.devRef .tc main_arg8) = V (Proc.devRef .tc main_arg8) :=
  ops0_keep V main_arg8 (by decide)
theorem val0_arg9 : after (ops0 (F := Ideal)) V (Proc.devRef .tc main_arg9) = V (Proc.devRef .tc main_arg9) :=
  ops0_keep V main_arg9 (by decide)
theorem val0_arg10 : after (ops0 (F := Ideal)) V (Proc.devRef .tc main_arg10) = V (Proc.devRef .tc main_arg10) :=
  ops0_keep V main_arg10 (by decide)
theorem val0_arg11 : after (ops0 (F := Ideal)) V (Proc.devRef .tc main_arg11) = V (Proc.devRef .tc main_arg11) :=
  ops0_keep V main_arg11 (by decide)
theorem val0_arg12 : after (ops0 (F := Ideal)) V (Proc.devRef .tc main_arg12) = V (Proc.devRef .tc main_arg12) :=
  ops0_keep V main_arg12 (by decide)

end Cert.RefSide

end
-- ==== Proof.RVal1.lean ====
/-
  What the second window of the reference's program leaves, for any contents `V` it starts from: the second layer's
  close (the aggregation plus the self-loop's share plus the bias rows, then the maximum with zero), the per-graph
  sums of its rows, and the two constant arrays the node counts are made from — each as the reference arrangement's
  function of the contents the window read. The zero constant the window's first sums start from was written
  before the window: the two statements that depend on it take its contents as a hypothesis.
-/
import proofs.«178079_j40450001993771_1_alg».proof.Proof.RRun1
import proofs.«178079_j40450001993771_1_alg».proof.Proof.RSpec

set_option maxRecDepth 16384

noncomputable section

namespace Cert.RefSide

open Cert.ReferenceIdeal Cert.ReferenceIdeal.Facts₀ Idealize.ShloMosaic Idealize.ShloMosaic.StableHlo

-- the folds over an operand's elements stay folded: the equations below never look inside them
attribute [local irreducible] Host.gather Host.scatter Host.scatterAdd Host.rsqrt

variable (V : Valuation τ sig (Elt Ideal))

/-! ## The call's three operations at its literal buffers

The call of the maximum-with-zero function is spelt over typed references; at the literal buffers of this call each
of its operations is the plain operation on those buffers (the transport along a buffer's type is the identity). -/

theorem relu1_cst :
    (TRef.nullary main_call1.cst (constant (F := Ideal) S_ .f32 0x00000000#32) : HloOp τ sig (Elt Ideal))
      = StableHlo.nullary main_call1_cst (constant (F := Ideal) S_ .f32 0x00000000#32) := rfl

theorem relu1_v0 :
    (TRef.unary main_call1.cst main_call1.v0 (broadcastInDim S50000x96 ![] bcast_S_S50000x96) : HloOp τ sig (Elt Ideal))
      = StableHlo.unary main_call1_cst main_call1_v0
          (broadcastInDim S50000x96 ![] bcast_S_S50000x96 :
            (⟨S_, .f32⟩ : BufTy).Contents (Elt Ideal) → (⟨S50000x96, .f32⟩ : BufTy).Contents (Elt Ideal)) := rfl

theorem relu1_v1 :
    (TRef.binary (.of main_v92 : TRef sig ⟨S50000x96, .f32⟩) main_call1.v0 main_call1.v1 (maximumf (F := Ideal) (s := S50000x96) (φ := .f32)) : HloOp τ sig (Elt Ideal))
      = StableHlo.binary main_v92 main_call1_v0 main_v93
          (maximumf (F := Ideal) (s := S50000x96) (φ := .f32) : (⟨S50000x96, .f32⟩ : BufTy).Contents (Elt Ideal) → (⟨S50000x96, .f32⟩ : BufTy).Contents (Elt Ideal)
            → (⟨S50000x96, .f32⟩ : BufTy).Contents (Elt Ideal)) := rfl

/-! ## The window's values -/

set_option maxHeartbeats 400000 in
/-- The second layer's close, as the reference arranges it. -/
theorem val1_layer (hz : V (Proc.devRef .tc main_cst_7) = constant (F := Ideal) S_ .f32 0x00000000#32) :
    after (ops1 (F := Ideal)) V (Proc.devRef .tc main_v93)
      = Cert.GcnRef.relu (addf (F := Ideal) (addf (F := Ideal)
          (Cert.GcnRef.aggregate (V (Proc.devRef .tc main_v49)) (V (Proc.devRef .tc main_v1)) (V (Proc.devRef .tc main_v3)) (V (Proc.devRef .tc main_arg2)))
          (Cert.GcnRef.selfLoop (V (Proc.devRef .tc main_v49)) (V (Proc.devRef .tc main_v3)) (V (Proc.devRef .tc main_arg2))))
        (broadcastInDim S50000x96 ![0, 1] bcast_S1x96_S50000x96_0_1 (broadcastInDim S1x96 ![1] bcast_S96_S1x96_1 (V (Proc.devRef .tc main_arg8))))) := by
  simp only [ops1]
  rw [relu1_cst, relu1_v0, relu1_v1]
  after_results_simp
  rw [hz]
  first | done | rfl

set_option maxHeartbeats 400000 in
/-- The per-graph sums of the second layer's rows. -/
theorem val1_sums (hz : V (Proc.devRef .tc main_cst_7) = constant (F := Ideal) S_ .f32 0x00000000#32) :
    after (ops1 (F := Ideal)) V (Proc.devRef .tc main_v96)
      = Host.scatterAdd (F := Ideal) scatter_S64x96_S50000x1_S50000x96_1_0_0_1
          (broadcastInDim S64x96 ![] bcast_S_S64x96 (constant (F := Ideal) S_ .f32 0x00000000#32))
          (broadcastInDim S50000x1 ![0] bcast_S50000_S50000x1_0 (V (Proc.devRef .tc main_arg3)))
          (Cert.GcnRef.relu (addf (F := Ideal) (addf (F := Ideal)
          (Cert.GcnRef.aggregate (V (Proc.devRef .tc main_v49)) (V (Proc.devRef .tc main_v1)) (V (Proc.devRef .tc main_v3)) (V (Proc.devRef .tc main_arg2)))
          (Cert.GcnRef.selfLoop (V (Proc.devRef .tc main_v49)) (V (Proc.devRef .tc main_v3)) (V (Proc.devRef .tc main_arg2))))
        (broadcastInDim S50000x96 ![0, 1] bcast_S1x96_S50000x96_0_1 (broadcastInDim S1x96 ![1] bcast_S96_S1x96_1 (V (Proc.devRef .tc main_arg8)))))) := by
  simp only [ops1]
  rw [relu1_cst, relu1_v0, relu1_v1]
  after_results_simp
  rw [hz]
  first | done | rfl

/-- The array of ones the node counts add up. -/
theorem val1_ones :
    after (ops1 (F := Ideal)) V (Proc.devRef .tc main_v97)
      = broadcastInDim S50000 ![] bcast_S_S50000 (constant (F := Ideal) S_ .f32 0x3F800000#32) := by
  simp only [ops1]
  after_results_simp
  first | done | rfl

/-- The array of zeros the node counts start from. -/
theorem val1_zeros :
    after (ops1 (F := Ideal)) V (Proc.devRef .tc main_v98)
      = broadcastInDim S64 ![] bcast_S_S64 (constant (F := Ideal) S_ .f32 0x00000000#32) := by
  simp only [ops1]
  after_results_simp
  first | done | rfl

end Cert.RefSide

end
-- ==== Proof.RVal2.lean ====
/-
  What the third window of the reference's program leaves in the output buffer, for any contents `V` it starts
  from: the head of the quotient of the per-graph sums by the clamped node counts and of the metadata branch (the
  metadata rows of each graph's first node modulo 64, times the metadata weights, plus the bias, maximum with zero).

  The two called functions (the floored remainder, and the maximum with zero) are spelt over typed references; at the
  literal buffers of these calls each of their operations is the plain operation on those buffers, the transport
  along a buffer's type being the identity. The window is therefore one list of plain operations. It is read in two
  stretches: the first ends with the metadata branch, and the second — the concatenation, the product with the
  head's matrix and the bias — is read from any contents and then applied to what the first stretch leaves.
-/
import proofs.«178079_j40450001993771_1_alg».proof.Proof.RRun2
import proofs.«178079_j40450001993771_1_alg».proof.Proof.RSpec

set_option maxRecDepth 16384

noncomputable section

namespace Cert.RefSide

open Cert.ReferenceIdeal Cert.ReferenceIdeal.Facts₀ Idealize.ShloMosaic Idealize.ShloMosaic.TcCoe Idealize.SL.Sem Idealize.ShloMosaic.StableHlo

section Plain

variable {F : FTy → Type} [FloatOps F]

/-- The window's first 51 operations, the calls' operations written at their literal buffers: up to the metadata
    branch. -/
abbrev ops2a : List (HloOp τ sig (Elt F)) :=
  [ StableHlo.unary main_arg3 main_v99 (broadcastInDim S50000x1 ![0] bcast_S50000_S50000x1_0 : (⟨S50000, .i32⟩ : BufTy).Contents (Elt F) → (⟨S50000x1, .i32⟩ : BufTy).Contents (Elt F)),
    StableHlo.ternary main_v98 main_v99 main_v97 main_v100 ((fun x i u => Host.scatterAdd scatter_S64_S50000x1_S50000_n_0_0_1 x i u) : (⟨S64, .f32⟩ : BufTy).Contents (Elt F) → (⟨S50000x1, .i32⟩ : BufTy).Contents (Elt F) → (⟨S50000, .f32⟩ : BufTy).Contents (Elt F) → (⟨S64, .f32⟩ : BufTy).Contents (Elt F)),
    StableHlo.nullary main_cst_19 (constant S_ .f32 0x3F800000#32),
    StableHlo.unary main_cst_19 main_v101 (broadcastInDim S64 ![] bcast_S_S64 : (⟨S_, .f32⟩ : BufTy).Contents (Elt F) → (⟨S64, .f32⟩ : BufTy).Contents (Elt F)),
    StableHlo.binary main_v100 main_v101 main_v102 (maximumf : (⟨S64, .f32⟩ : BufTy).Contents (Elt F) → (⟨S64, .f32⟩ : BufTy).Contents (Elt F) → (⟨S64, .f32⟩ : BufTy).Contents (Elt F)),
    StableHlo.unary main_v102 main_v103 (broadcastInDim S64x1 ![0] bcast_S64_S64x1_0 : (⟨S64, .f32⟩ : BufTy).Contents (Elt F) → (⟨S64x1, .f32⟩ : BufTy).Contents (Elt F)),
    StableHlo.unary main_v103 main_v104 (broadcastInDim S64x96 ![0, 1] bcast_S64x1_S64x96_0_1 : (⟨S64x1, .f32⟩ : BufTy).Contents (Elt F) → (⟨S64x96, .f32⟩ : BufTy).Contents (Elt F)),
    StableHlo.binary main_v96 main_v104 main_v105 (Host.divf : (⟨S64x96, .f32⟩ : BufTy).Contents (Elt F) → (⟨S64x96, .f32⟩ : BufTy).Contents (Elt F) → (⟨S64x96, .f32⟩ : BufTy).Contents (Elt F)),
    StableHlo.nullary main_v106 (iotaInDim S50000 32 0),
    StableHlo.nullary main_c_20 (constantI S_ 32 2147483647#32),
    StableHlo.unary main_c_20 main_v107 (broadcastInDim S64 ![] bcast_S_S64 : (⟨S_, .i32⟩ : BufTy).Contents (Elt F) → (⟨S64, .i32⟩ : BufTy).Contents (Elt F)),
    StableHlo.unary main_arg3 main_v108 (broadcastInDim S50000x1 ![0] bcast_S50000_S50000x1_0 : (⟨S50000, .i32⟩ : BufTy).Contents (Elt F) → (⟨S50000x1, .i32⟩ : BufTy).Contents (Elt F)),
    StableHlo.ternary main_v107 main_v108 main_v106 main_v109 ((fun x i u => Host.scatter scatter_S64_S50000x1_S50000_n_0_0_1 IntOp.minsi x i u) : (⟨S64, .i32⟩ : BufTy).Contents (Elt F) → (⟨S50000x1, .i32⟩ : BufTy).Contents (Elt F) → (⟨S50000, .i32⟩ : BufTy).Contents (Elt F) → (⟨S64, .i32⟩ : BufTy).Contents (Elt F)),
    StableHlo.nullary main_c_21 (constantI S_ 32 64#32),
    StableHlo.unary main_c_21 main_call2_v0 (id : (⟨S_, .i32⟩ : BufTy).Contents (Elt F) → (⟨S_, .i32⟩ : BufTy).Contents (Elt F)),
    StableHlo.nullary main_call2_c (constantI S_ 32 0#32 : (⟨S_, .i32⟩ : BufTy).Contents (Elt F)),
    StableHlo.binary main_call2_v0 main_call2_c main_call2_v1 (cmpi .eq : (⟨S_, .i32⟩ : BufTy).Contents (Elt F) → (⟨S_, .i32⟩ : BufTy).Contents (Elt F) → (⟨S_, .i1⟩ : BufTy).Contents (Elt F)),
    StableHlo.nullary main_call2_c_0 (constantI S_ 32 1#32 : (⟨S_, .i32⟩ : BufTy).Contents (Elt F)),
    StableHlo.ternary main_call2_v1 main_call2_c_0 main_call2_v0 main_call2_v2 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.unary main_call2_v2 main_call2_v3 (broadcastInDim S64 ![] bcast_S_S64 : (⟨S_, .i32⟩ : BufTy).Contents (Elt F) → (⟨S64, .i32⟩ : BufTy).Contents (Elt F)),
    StableHlo.binary main_v109 main_call2_v3 main_call2_v4 (Host.remsi : (⟨S64, .i32⟩ : BufTy).Contents (Elt F) → (⟨S64, .i32⟩ : BufTy).Contents (Elt F) → (⟨S64, .i32⟩ : BufTy).Contents (Elt F)),
    StableHlo.nullary main_call2_c_1 (constantI S_ 32 0#32 : (⟨S_, .i32⟩ : BufTy).Contents (Elt F)),
    StableHlo.unary main_call2_c_1 main_call2_v5 (broadcastInDim S64 ![] bcast_S_S64 : (⟨S_, .i32⟩ : BufTy).Contents (Elt F) → (⟨S64, .i32⟩ : BufTy).Contents (Elt F)),
    StableHlo.binary main_call2_v4 main_call2_v5 main_call2_v6 (cmpi .ne : (⟨S64, .i32⟩ : BufTy).Contents (Elt F) → (⟨S64, .i32⟩ : BufTy).Contents (Elt F) → (⟨S64, .i1⟩ : BufTy).Contents (Elt F)),
    StableHlo.nullary main_call2_c_2 (constantI S_ 32 0#32 : (⟨S_, .i32⟩ : BufTy).Contents (Elt F)),
    StableHlo.unary main_call2_c_2 main_call2_v7 (broadcastInDim S64 ![] bcast_S_S64 : (⟨S_, .i32⟩ : BufTy).Contents (Elt F) → (⟨S64, .i32⟩ : BufTy).Contents (Elt F)),
    StableHlo.binary main_call2_v4 main_call2_v7 main_call2_v8 (cmpi .slt : (⟨S64, .i32⟩ : BufTy).Contents (Elt F) → (⟨S64, .i32⟩ : BufTy).Contents (Elt F) → (⟨S64, .i1⟩ : BufTy).Contents (Elt F)),
    StableHlo.nullary main_call2_c_3 (constantI S_ 32 0#32 : (⟨S_, .i32⟩ : BufTy).Contents (Elt F)),
    StableHlo.binary main_call2_v2 main_call2_c_3 main_call2_v9 (cmpi .slt : (⟨S_, .i32⟩ : BufTy).Contents (Elt F) → (⟨S_, .i32⟩ : BufTy).Contents (Elt F) → (⟨S_, .i1⟩ : BufTy).Contents (Elt F)),
    StableHlo.unary main_call2_v9 main_call2_v10 (broadcastInDim S64 ![] bcast_S_S64 : (⟨S_, .i1⟩ : BufTy).Contents (Elt F) → (⟨S64, .i1⟩ : BufTy).Contents (Elt F)),
    StableHlo.binary main_call2_v8 main_call2_v10 main_call2_v11 (cmpi .ne : (⟨S64, .i1⟩ : BufTy).Contents (Elt F) → (⟨S64, .i1⟩ : BufTy).Contents (Elt F) → (⟨S64, .i1⟩ : BufTy).Contents (Elt F)),
    StableHlo.binary main_call2_v11 main_call2_v6 main_call2_v12 (andi : (⟨S64, .i1⟩ : BufTy).Contents (Elt F) → (⟨S64, .i1⟩ : BufTy).Contents (Elt F) → (⟨S64, .i1⟩ : BufTy).Contents (Elt F)),
    StableHlo.unary main_call2_v2 main_call2_v13 (broadcastInDim S64 ![] bcast_S_S64 : (⟨S_, .i32⟩ : BufTy).Contents (Elt F) → (⟨S64, .i32⟩ : BufTy).Contents (Elt F)),
    StableHlo.binary main_call2_v4 main_call2_v13 main_call2_v14 (addi : (⟨S64, .i32⟩ : BufTy).Contents (Elt F) → (⟨S64, .i32⟩ : BufTy).Contents (Elt F) → (⟨S64, .i32⟩ : BufTy).Contents (Elt F)),
    StableHlo.ternary main_call2_v12 main_call2_v14 main_call2_v4 main_v110 (select : (⟨S64, .i1⟩ : BufTy).Contents (Elt F) → (⟨S64, .i32⟩ : BufTy).Contents (Elt F) → (⟨S64, .i32⟩ : BufTy).Contents (Elt F) → (⟨S64, .i32⟩ : BufTy).Contents (Elt F)),
    StableHlo.nullary main_c_22 (constantI S_ 32 0#32),
    StableHlo.unary main_c_22 main_v111 (broadcastInDim S64 ![] bcast_S_S64 : (⟨S_, .i32⟩ : BufTy).Contents (Elt F) → (⟨S64, .i32⟩ : BufTy).Contents (Elt F)),
    StableHlo.binary main_v110 main_v111 main_v112 (cmpi .slt : (⟨S64, .i32⟩ : BufTy).Contents (Elt F) → (⟨S64, .i32⟩ : BufTy).Contents (Elt F) → (⟨S64, .i1⟩ : BufTy).Contents (Elt F)),
    StableHlo.nullary main_c_23 (constantI S_ 32 64#32),
    StableHlo.unary main_c_23 main_v113 (broadcastInDim S64 ![] bcast_S_S64 : (⟨S_, .i32⟩ : BufTy).Contents (Elt F) → (⟨S64, .i32⟩ : BufTy).Contents (Elt F)),
    StableHlo.binary main_v110 main_v113 main_v114 (addi : (⟨S64, .i32⟩ : BufTy).Contents (Elt F) → (⟨S64, .i32⟩ : BufTy).Contents (Elt F) → (⟨S64, .i32⟩ : BufTy).Contents (Elt F)),
    StableHlo.ternary main_v112 main_v114 main_v110 main_v115 (select : (⟨S64, .i1⟩ : BufTy).Contents (Elt F) → (⟨S64, .i32⟩ : BufTy).Contents (Elt F) → (⟨S64, .i32⟩ : BufTy).Contents (Elt F) → (⟨S64, .i32⟩ : BufTy).Contents (Elt F)),
    StableHlo.unary main_v115 main_v116 (broadcastInDim S64x1 ![0] bcast_S64_S64x1_0 : (⟨S64, .i32⟩ : BufTy).Contents (Elt F) → (⟨S64x1, .i32⟩ : BufTy).Contents (Elt F)),
    StableHlo.binary main_arg4 main_v116 main_v117 ((fun x i => Host.gather gather_S64x30_S64x1_S64x30_1_0_n_n_0_1_130 x i) : (⟨S64x30, .f32⟩ : BufTy).Contents (Elt F) → (⟨S64x1, .i32⟩ : BufTy).Contents (Elt F) → (⟨S64x30, .f32⟩ : BufTy).Contents (Elt F)),
    StableHlo.binary main_v117 main_arg9 main_v118 ((fun l r => Host.dotGeneral dot_S64x30_S30x96_S64x96_1_0_0_1_n_n none l r) : (⟨S64x30, .f32⟩ : BufTy).Contents (Elt F) → (⟨S30x96, .f32⟩ : BufTy).Contents (Elt F) → (⟨S64x96, .f32⟩ : BufTy).Contents (Elt F)),
    StableHlo.unary main_arg10 main_v119 (broadcastInDim S1x96 ![1] bcast_S96_S1x96_1 : (⟨S96, .f32⟩ : BufTy).Contents (Elt F) → (⟨S1x96, .f32⟩ : BufTy).Contents (Elt F)),
    StableHlo.unary main_v119 main_v120 (broadcastInDim S64x96 ![0, 1] bcast_S1x96_S64x96_0_1 : (⟨S1x96, .f32⟩ : BufTy).Contents (Elt F) → (⟨S64x96, .f32⟩ : BufTy).Contents (Elt F)),
    StableHlo.binary main_v118 main_v120 main_v121 (addf : (⟨S64x96, .f32⟩ : BufTy).Contents (Elt F) → (⟨S64x96, .f32⟩ : BufTy).Contents (Elt F) → (⟨S64x96, .f32⟩ : BufTy).Contents (Elt F)),
    StableHlo.nullary main_call3_cst (constant S_ .f32 0x00000000#32 : (⟨S_, .f32⟩ : BufTy).Contents (Elt F)),
    StableHlo.unary main_call3_cst main_call3_v0 (broadcastInDim S64x96 ![] bcast_S_S64x96 : (⟨S_, .f32⟩ : BufTy).Contents (Elt F) → (⟨S64x96, .f32⟩ : BufTy).Contents (Elt F)),
    StableHlo.binary main_v121 main_call3_v0 main_v122 (maximumf : (⟨S64x96, .f32⟩ : BufTy).Contents (Elt F) → (⟨S64x96, .f32⟩ : BufTy).Contents (Elt F) → (⟨S64x96, .f32⟩ : BufTy).Contents (Elt F)) ]

/-- The window's last 5 operations: the concatenation, the head's product and the bias. -/
abbrev ops2b : List (HloOp τ sig (Elt F)) :=
  [ StableHlo.binary main_v105 main_v122 main_v123 ((fun a b => concatenate S64x192 1 [⟨S64x96, a⟩, ⟨S64x96, b⟩] concatenates_S64x96_S64x96_S64x192_d1) : (⟨S64x96, .f32⟩ : BufTy).Contents (Elt F) → (⟨S64x96, .f32⟩ : BufTy).Contents (Elt F) → (⟨S64x192, .f32⟩ : BufTy).Contents (Elt F)),
    StableHlo.binary main_v123 main_arg11 main_v124 ((fun l r => Host.dotGeneral dot_S64x192_S192x10_S64x10_1_0_0_1_n_n none l r) : (⟨S64x192, .f32⟩ : BufTy).Contents (Elt F) → (⟨S192x10, .f32⟩ : BufTy).Contents (Elt F) → (⟨S64x10, .f32⟩ : BufTy).Contents (Elt F)),
    StableHlo.unary main_arg12 main_v125 (broadcastInDim S1x10 ![1] bcast_S10_S1x10_1 : (⟨S10, .f32⟩ : BufTy).Contents (Elt F) → (⟨S1x10, .f32⟩ : BufTy).Contents (Elt F)),
    StableHlo.unary main_v125 main_v126 (broadcastInDim S64x10 ![0, 1] bcast_S1x10_S64x10_0_1 : (⟨S1x10, .f32⟩ : BufTy).Contents (Elt F) → (⟨S64x10, .f32⟩ : BufTy).Contents (Elt F)),
    StableHlo.binary main_v124 main_v126 main_v127 (addf : (⟨S64x10, .f32⟩ : BufTy).Contents (Elt F) → (⟨S64x10, .f32⟩ : BufTy).Contents (Elt F) → (⟨S64x10, .f32⟩ : BufTy).Contents (Elt F)) ]

set_option maxHeartbeats 400000 in
/-- The window's operations are those two stretches of plain operations. -/
theorem ops2_plain : (ops2 : List (HloOp τ sig (Elt F))) = ops2a ++ ops2b := rfl

end Plain

-- the folds over an operand's elements stay folded: the equations below never look inside them
attribute [local irreducible] Host.gather Host.scatter Host.scatterAdd Host.remsi Host.divf concatenate

variable (V : Valuation τ sig (Elt Ideal))

/-! ## The first stretch -/

/-- The mean rows: the per-graph sums over the clamped node counts. -/
theorem p2_pool : after (ops2a (F := Ideal)) V (Proc.devRef .tc main_v105)
      = (Host.divf (F := Ideal) (V (Proc.devRef .tc main_v96))
            (broadcastInDim S64x96 ![0, 1] bcast_S64x1_S64x96_0_1
              (broadcastInDim S64x1 ![0] bcast_S64_S64x1_0
                (maximumf (F := Ideal)
                  (Host.scatterAdd (F := Ideal) scatter_S64_S50000x1_S50000_n_0_0_1 (V (Proc.devRef .tc main_v98))
                    (broadcastInDim S50000x1 ![0] bcast_S50000_S50000x1_0 (V (Proc.devRef .tc main_arg3))) (V (Proc.devRef .tc main_v97)))
                  (broadcastInDim S64 ![] bcast_S_S64 (constant (F := Ideal) S_ .f32 0x3F800000#32)))))) := by
  simp only [ops2a]
  after_results_simp
  first | done | rfl

/-- Each graph's first node. -/
theorem p2_first : after (ops2a (F := Ideal)) V (Proc.devRef .tc main_v109) = Cert.GcnRef.firstNode (V (Proc.devRef .tc main_arg3)) := by
  simp only [ops2a]
  after_results_simp
  first | done | rfl

set_option maxHeartbeats 400000 in
/-- Its floored remainder by 64. -/
theorem p2_rem : after (ops2a (F := Ideal)) V (Proc.devRef .tc main_v110)
      = Cert.GcnRef.rem64 (Cert.GcnRef.firstNode (V (Proc.devRef .tc main_arg3))) := by
  have h0 := p2_first V
  simp only [ops2a] at h0 ⊢
  simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne'] at h0 ⊢
  rw [h0]
  first | done | rfl

set_option maxHeartbeats 400000 in
/-- The metadata rows. -/
theorem p2_md : after (ops2a (F := Ideal)) V (Proc.devRef .tc main_v117)
      = Cert.GcnRef.mdRow (V (Proc.devRef .tc main_arg3)) (V (Proc.devRef .tc main_arg4)) := by
  have h0 := p2_rem V
  simp only [ops2a] at h0 ⊢
  simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne'] at h0 ⊢
  rw [h0]
  first | done | rfl

set_option maxHeartbeats 400000 in
/-- The metadata branch. -/
theorem p2_hidden : after (ops2a (F := Ideal)) V (Proc.devRef .tc main_v122)
      = Cert.GcnRef.mdHidden (Cert.GcnRef.mdRow (V (Proc.devRef .tc main_arg3)) (V (Proc.devRef .tc main_arg4))) (V (Proc.devRef .tc main_arg9))
          (V (Proc.devRef .tc main_arg10)) := by
  have h0 := p2_md V
  simp only [ops2a] at h0 ⊢
  simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne'] at h0 ⊢
  rw [h0]
  first | done | rfl

/-- The head's matrix keeps its contents through the first stretch. -/
theorem p2_arg11 : after (ops2a (F := Ideal)) V (Proc.devRef .tc main_arg11) = V (Proc.devRef .tc main_arg11) := by
  simp only [ops2a]
  after_results_simp

/-- The head's bias keeps its contents through the first stretch. -/
theorem p2_arg12 : after (ops2a (F := Ideal)) V (Proc.devRef .tc main_arg12) = V (Proc.devRef .tc main_arg12) := by
  simp only [ops2a]
  after_results_simp

/-! ## The second stretch, and the window -/

/-- Two stretches run one after the other: the second runs from what the first leaves. -/
theorem after_stretches {Val : EltTy → Type} :
    ∀ (l₁ l₂ : List (HloOp τ sig Val)) (W : Valuation τ sig Val), after (l₁ ++ l₂) W = after l₂ (after l₁ W)
  | [], _, _ => rfl
  | op :: l₁, l₂, W => by rw [List.cons_append, after_cons, after_cons, after_stretches l₁ l₂]

/-- From any contents, the second stretch leaves the head of the two feature blocks it finds. -/
theorem p2_head (W : Valuation τ sig (Elt Ideal)) : after (ops2b (F := Ideal)) W (Proc.devRef .tc main_v127)
      = Cert.GcnRef.headOf (W (Proc.devRef .tc main_v105)) (W (Proc.devRef .tc main_v122)) (W (Proc.devRef .tc main_arg11)) (W (Proc.devRef .tc main_arg12)) := by
  simp only [ops2b]
  after_results_simp
  first | done | rfl

/-- The output buffer after the window. -/
theorem val2 :
    after (ops2 (F := Ideal)) V (Proc.devRef .tc main_v127)
      = Cert.GcnRef.headOf
          (Host.divf (F := Ideal) (V (Proc.devRef .tc main_v96))
            (broadcastInDim S64x96 ![0, 1] bcast_S64x1_S64x96_0_1
              (broadcastInDim S64x1 ![0] bcast_S64_S64x1_0
                (maximumf (F := Ideal)
                  (Host.scatterAdd (F := Ideal) scatter_S64_S50000x1_S50000_n_0_0_1 (V (Proc.devRef .tc main_v98))
                    (broadcastInDim S50000x1 ![0] bcast_S50000_S50000x1_0 (V (Proc.devRef .tc main_arg3))) (V (Proc.devRef .tc main_v97)))
                  (broadcastInDim S64 ![] bcast_S_S64 (constant (F := Ideal) S_ .f32 0x3F800000#32))))))
          (Cert.GcnRef.mdHidden (Cert.GcnRef.mdRow (V (Proc.devRef .tc main_arg3)) (V (Proc.devRef .tc main_arg4))) (V (Proc.devRef .tc main_arg9))
            (V (Proc.devRef .tc main_arg10)))
          (V (Proc.devRef .tc main_arg11)) (V (Proc.devRef .tc main_arg12)) := by
  rw [ops2_plain, after_stretches, p2_head, p2_pool, p2_hidden, p2_arg11, p2_arg12]

end Cert.RefSide

end
-- ==== Proof.RVal.lean ====
/-
  The reference's run read back: from any memory with zero counters every weakly fair execution of its program
  terminates with the result buffer at the network function of the thirteen arguments' launch contents — the head
  of the mean pool of two graph-convolution layers and of the metadata branch — and the arguments unchanged. The
  three windows' value equations are chained: what one window leaves is what the next starts from.
-/
import proofs.«178079_j40450001993771_1_alg».proof.Proof.RRun
import proofs.«178079_j40450001993771_1_alg».proof.Proof.RSpec
import proofs.«178079_j40450001993771_1_alg».proof.Proof.RVal0
import proofs.«178079_j40450001993771_1_alg».proof.Proof.RVal1
import proofs.«178079_j40450001993771_1_alg».proof.Proof.RVal2

noncomputable section

namespace Cert.RefSide

open Cert.ReferenceIdeal Cert.ReferenceIdeal.Facts₀ Idealize.ShloMosaic Idealize.ShloMosaic.TcCoe Idealize.SL.Sem Idealize.ShloMosaic.StableHlo Cert.GcnRef

section Args

variable {F : FTy → Type} [FloatOps F]

/-- Argument 0 keeps its contents through the whole program. -/
theorem arg0_eq (V : Valuation τ sig (Elt F)) : after ops V (main_arg0 : DevRef τ sig) = V (main_arg0 : DevRef τ sig) :=
  (congrFun (after_ops V) _).trans ((ops2_keep _ main_arg0 (by decide)).trans ((ops1_keep _ main_arg0 (by decide)).trans
    (ops0_keep V main_arg0 (by decide))))

/-- Argument 1 keeps its contents through the whole program. -/
theorem arg1_eq (V : Valuation τ sig (Elt F)) : after ops V (main_arg1 : DevRef τ sig) = V (main_arg1 : DevRef τ sig) :=
  (congrFun (after_ops V) _).trans ((ops2_keep _ main_arg1 (by decide)).trans ((ops1_keep _ main_arg1 (by decide)).trans
    (ops0_keep V main_arg1 (by decide))))

/-- Argument 2 keeps its contents through the whole program. -/
theorem arg2_eq (V : Valuation τ sig (Elt F)) : after ops V (main_arg2 : DevRef τ sig) = V (main_arg2 : DevRef τ sig) :=
  (congrFun (after_ops V) _).trans ((ops2_keep _ main_arg2 (by decide)).trans ((ops1_keep _ main_arg2 (by decide)).trans
    (ops0_keep V main_arg2 (by decide))))

/-- Argument 3 keeps its contents through the whole program. -/
theorem arg3_eq (V : Valuation τ sig (Elt F)) : after ops V (main_arg3 : DevRef τ sig) = V (main_arg3 : DevRef τ sig) :=
  (congrFun (after_ops V) _).trans ((ops2_keep _ main_arg3 (by decide)).trans ((ops1_keep _ main_arg3 (by decide)).trans
    (ops0_keep V main_arg3 (by decide))))

/-- Argument 4 keeps its contents through the whole program. -/
theorem arg4_eq (V : Valuation τ sig (Elt F)) : after ops V (main_arg4 : DevRef τ sig) = V (main_arg4 : DevRef τ sig) :=
  (congrFun (after_ops V) _).trans ((ops2_keep _ main_arg4 (by decide)).trans ((ops1_keep _ main_arg4 (by decide)).trans
    (ops0_keep V main_arg4 (by decide))))

/-- Argument 5 keeps its contents through the whole program. -/
theorem arg5_eq (V : Valuation τ sig (Elt F)) : after ops V (main_arg5 : DevRef τ sig) = V (main_arg5 : DevRef τ sig) :=
  (congrFun (after_ops V) _).trans ((ops2_keep _ main_arg5 (by decide)).trans ((ops1_keep _ main_arg5 (by decide)).trans
    (ops0_keep V main_arg5 (by decide))))

/-- Argument 6 keeps its contents through the whole program. -/
theorem arg6_eq (V : Valuation τ sig (Elt F)) : after ops V (main_arg6 : DevRef τ sig) = V (main_arg6 : DevRef τ sig) :=
  (congrFun (after_ops V) _).trans ((ops2_keep _ main_arg6 (by decide)).trans ((ops1_keep _ main_arg6 (by decide)).trans
    (ops0_keep V main_arg6 (by decide))))

/-- Argument 7 keeps its contents through the whole program. -/
theorem arg7_eq (V : Valuation τ sig (Elt F)) : after ops V (main_arg7 : DevRef τ sig) = V (main_arg7 : DevRef τ sig) :=
  (congrFun (after_ops V) _).trans ((ops2_keep _ main_arg7 (by decide)).trans ((ops1_keep _ main_arg7 (by decide)).trans
    (ops0_keep V main_arg7 (by decide))))

/-- Argument 8 keeps its contents through the whole program. -/
theorem arg8_eq (V : Valuation τ sig (Elt F)) : after ops V (main_arg8 : DevRef τ sig) = V (main_arg8 : DevRef τ sig) :=
  (congrFun (after_ops V) _).trans ((ops2_keep _ main_arg8 (by decide)).trans ((ops1_keep _ main_arg8 (by decide)).trans
    (ops0_keep V main_arg8 (by decide))))

/-- Argument 9 keeps its contents through the whole program. -/
theorem arg9_eq (V : Valuation τ sig (Elt F)) : after ops V (main_arg9 : DevRef τ sig) = V (main_arg9 : DevRef τ sig) :=
  (congrFun (after_ops V) _).trans ((ops2_keep _ main_arg9 (by decide)).trans ((ops1_keep _ main_arg9 (by decide)).trans
    (ops0_keep V main_arg9 (by decide))))

/-- Argument 10 keeps its contents through the whole program. -/
theorem arg10_eq (V : Valuation τ sig (Elt F)) : after ops V (main_arg10 : DevRef τ sig) = V (main_arg10 : DevRef τ sig) :=
  (congrFun (after_ops V) _).trans ((ops2_keep _ main_arg10 (by decide)).trans ((ops1_keep _ main_arg10 (by decide)).trans
    (ops0_keep V main_arg10 (by decide))))

/-- Argument 11 keeps its contents through the whole program. -/
theorem arg11_eq (V : Valuation τ sig (Elt F)) : after ops V (main_arg11 : DevRef τ sig) = V (main_arg11 : DevRef τ sig) :=
  (congrFun (after_ops V) _).trans ((ops2_keep _ main_arg11 (by decide)).trans ((ops1_keep _ main_arg11 (by decide)).trans
    (ops0_keep V main_arg11 (by decide))))

/-- Argument 12 keeps its contents through the whole program. -/
theorem arg12_eq (V : Valuation τ sig (Elt F)) : after ops V (main_arg12 : DevRef τ sig) = V (main_arg12 : DevRef τ sig) :=
  (congrFun (after_ops V) _).trans ((ops2_keep _ main_arg12 (by decide)).trans ((ops1_keep _ main_arg12 (by decide)).trans
    (ops0_keep V main_arg12 (by decide))))

end Args

-- the folds over an operand's elements stay folded: the chain never looks inside them
attribute [local irreducible] Host.gather Host.scatter Host.scatterAdd Host.rsqrt concatenate

/-- The arguments the second window reads keep their contents through the first. -/
theorem thru0_arg2 (W : Valuation τ sig (Elt Ideal)) :
    after (ops0 (F := Ideal)) W (Proc.devRef .tc main_arg2) = W (Proc.devRef .tc main_arg2) := ops0_keep W main_arg2 (by decide)
theorem thru0_arg3 (W : Valuation τ sig (Elt Ideal)) :
    after (ops0 (F := Ideal)) W (Proc.devRef .tc main_arg3) = W (Proc.devRef .tc main_arg3) := ops0_keep W main_arg3 (by decide)
theorem thru0_arg4 (W : Valuation τ sig (Elt Ideal)) :
    after (ops0 (F := Ideal)) W (Proc.devRef .tc main_arg4) = W (Proc.devRef .tc main_arg4) := ops0_keep W main_arg4 (by decide)
theorem thru0_arg8 (W : Valuation τ sig (Elt Ideal)) :
    after (ops0 (F := Ideal)) W (Proc.devRef .tc main_arg8) = W (Proc.devRef .tc main_arg8) := ops0_keep W main_arg8 (by decide)
theorem thru0_arg9 (W : Valuation τ sig (Elt Ideal)) :
    after (ops0 (F := Ideal)) W (Proc.devRef .tc main_arg9) = W (Proc.devRef .tc main_arg9) := ops0_keep W main_arg9 (by decide)
theorem thru0_arg10 (W : Valuation τ sig (Elt Ideal)) :
    after (ops0 (F := Ideal)) W (Proc.devRef .tc main_arg10) = W (Proc.devRef .tc main_arg10) := ops0_keep W main_arg10 (by decide)
theorem thru0_arg11 (W : Valuation τ sig (Elt Ideal)) :
    after (ops0 (F := Ideal)) W (Proc.devRef .tc main_arg11) = W (Proc.devRef .tc main_arg11) := ops0_keep W main_arg11 (by decide)
theorem thru0_arg12 (W : Valuation τ sig (Elt Ideal)) :
    after (ops0 (F := Ideal)) W (Proc.devRef .tc main_arg12) = W (Proc.devRef .tc main_arg12) := ops0_keep W main_arg12 (by decide)

/-- The arguments the third window reads keep their contents through the second. -/
theorem thru1_arg3 (W : Valuation τ sig (Elt Ideal)) :
    after (ops1 (F := Ideal)) W (Proc.devRef .tc main_arg3) = W (Proc.devRef .tc main_arg3) := ops1_keep W main_arg3 (by decide)
theorem thru1_arg4 (W : Valuation τ sig (Elt Ideal)) :
    after (ops1 (F := Ideal)) W (Proc.devRef .tc main_arg4) = W (Proc.devRef .tc main_arg4) := ops1_keep W main_arg4 (by decide)
theorem thru1_arg9 (W : Valuation τ sig (Elt Ideal)) :
    after (ops1 (F := Ideal)) W (Proc.devRef .tc main_arg9) = W (Proc.devRef .tc main_arg9) := ops1_keep W main_arg9 (by decide)
theorem thru1_arg10 (W : Valuation τ sig (Elt Ideal)) :
    after (ops1 (F := Ideal)) W (Proc.devRef .tc main_arg10) = W (Proc.devRef .tc main_arg10) := ops1_keep W main_arg10 (by decide)
theorem thru1_arg11 (W : Valuation τ sig (Elt Ideal)) :
    after (ops1 (F := Ideal)) W (Proc.devRef .tc main_arg11) = W (Proc.devRef .tc main_arg11) := ops1_keep W main_arg11 (by decide)
theorem thru1_arg12 (W : Valuation τ sig (Elt Ideal)) :
    after (ops1 (F := Ideal)) W (Proc.devRef .tc main_arg12) = W (Proc.devRef .tc main_arg12) := ops1_keep W main_arg12 (by decide)

set_option maxRecDepth 8192 in
/-- The result buffer after the whole program, from any contents: the network function of the arguments. The third
    window's value is read at what the second leaves, the second's at what the first leaves; what is left is the
    network function with its two layers, its mean pool and its head unfolded once. -/
theorem out_eq (V : Valuation τ sig (Elt Ideal)) :
    after ops V (main_v127 : DevRef τ sig)
      = net (V (main_arg0 : DevRef τ sig))
        (V (main_arg1 : DevRef τ sig))
        (V (main_arg2 : DevRef τ sig))
        (V (main_arg3 : DevRef τ sig))
        (V (main_arg4 : DevRef τ sig))
        (V (main_arg5 : DevRef τ sig))
        (V (main_arg6 : DevRef τ sig))
        (V (main_arg7 : DevRef τ sig))
        (V (main_arg8 : DevRef τ sig))
        (V (main_arg9 : DevRef τ sig))
        (V (main_arg10 : DevRef τ sig))
        (V (main_arg11 : DevRef τ sig))
        (V (main_arg12 : DevRef τ sig)) := by
  rw [after_ops, val2, val1_sums _ (val0_zero V), val1_ones, val1_zeros]
  simp only [thru1_arg3, thru1_arg4, thru1_arg9, thru1_arg10, thru1_arg11, thru1_arg12,
    thru0_arg2, thru0_arg3, thru0_arg4, thru0_arg8, thru0_arg9, thru0_arg10, thru0_arg11, thru0_arg12]
  rw [val0_prod, val0_src, val0_dst]
  rfl

/-- On every device, from any memory with zero counters: every weakly fair execution of the reference's program
    terminates with the result at the network function of the arguments' launch contents and the arguments
    unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v127)
        = Cert.GcnRef.net (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c => ⟨(h c main_v127).trans (out_eq (launchContents m c)),
      (h c main_arg0).trans (arg0_eq (launchContents m c)),
      (h c main_arg1).trans (arg1_eq (launchContents m c)),
      (h c main_arg2).trans (arg2_eq (launchContents m c)),
      (h c main_arg3).trans (arg3_eq (launchContents m c)),
      (h c main_arg4).trans (arg4_eq (launchContents m c)),
      (h c main_arg5).trans (arg5_eq (launchContents m c)),
      (h c main_arg6).trans (arg6_eq (launchContents m c)),
      (h c main_arg7).trans (arg7_eq (launchContents m c)),
      (h c main_arg8).trans (arg8_eq (launchContents m c)),
      (h c main_arg9).trans (arg9_eq (launchContents m c)),
      (h c main_arg10).trans (arg10_eq (launchContents m c)),
      (h c main_arg11).trans (arg11_eq (launchContents m c)),
      (h c main_arg12).trans (arg12_eq (launchContents m c))⟩)
    (run_main m ρ)

end Cert.RefSide

end
-- ==== Proof.BridgeGraph.lean ====
/-
  The graph side of the two arrangements is one family of functions.

  Each of the edge rows, the inverse-root degree, the edge normalisation, the aggregation, the self-loop share, the mean
  pool and the metadata row is written twice with the same text, once over each program's dimension records. The records'
  data fields are the same literals and their remaining field is a proof of one proposition, so the two texts denote the
  same function. The scatters and gathers are never opened: they are compared as applications of one operation to
  equal arguments.
-/
import proofs.«178079_j40450001993771_1_alg».proof.Proof.Spec
import proofs.«178079_j40450001993771_1_alg».proof.Proof.RSpec

noncomputable section

namespace Cert.Bridge

open Idealize.ShloMosaic

attribute [local irreducible] Host.scatterAdd Host.scatter Host.gather Host.rsqrt Host.divf Host.remsi

/-- Row `0` of the edge list. -/
theorem srcRow_eq (ei : GcnRef.NArr ReferenceIdeal.S2x800000) : GcnRef.srcRow ei = Gcn.srcRow ei := rfl

/-- Row `1` of the edge list. -/
theorem dstRow_eq (ei : GcnRef.NArr ReferenceIdeal.S2x800000) : GcnRef.dstRow ei = Gcn.dstRow ei := rfl

/-- The wrap of a negative node word. -/
theorem wrapNode_eq (v : GcnRef.NArr ReferenceIdeal.S800000) : GcnRef.wrapNode v = Gcn.wrapNode v := rfl

/-- The inverse square root of one plus the arriving weight. -/
theorem dinv_eq (dst : GcnRef.NArr ReferenceIdeal.S800000) (ea : GcnRef.RArr ReferenceIdeal.S800000) :
    GcnRef.dinv dst ea = Gcn.dinv dst ea := rfl

/-- The per-edge normalisation. -/
theorem edgeNorm_eq (src dst : GcnRef.NArr ReferenceIdeal.S800000) (ea : GcnRef.RArr ReferenceIdeal.S800000) :
    GcnRef.edgeNorm src dst ea = Gcn.edgeNorm src dst ea := rfl

/-- The messages summed at their targets. -/
theorem aggregate_eq (h : GcnRef.RArr ReferenceIdeal.S50000x96) (src dst : GcnRef.NArr ReferenceIdeal.S800000)
    (ea : GcnRef.RArr ReferenceIdeal.S800000) : GcnRef.aggregate h src dst ea = Gcn.aggregate h src dst ea := rfl

/-- The self-loop's share. -/
theorem selfLoop_eq (h : GcnRef.RArr ReferenceIdeal.S50000x96) (dst : GcnRef.NArr ReferenceIdeal.S800000)
    (ea : GcnRef.RArr ReferenceIdeal.S800000) : GcnRef.selfLoop h dst ea = Gcn.selfLoop h dst ea := rfl

/-- The mean pool. -/
theorem meanPool_eq (h : GcnRef.RArr ReferenceIdeal.S50000x96) (batch : GcnRef.NArr ReferenceIdeal.S50000) :
    GcnRef.meanPool h batch = Gcn.meanPool h batch := rfl

/-- The metadata row of each graph. -/
theorem mdRow_eq (batch : GcnRef.NArr ReferenceIdeal.S50000) (mdata : GcnRef.RArr ReferenceIdeal.S64x30) :
    GcnRef.mdRow batch mdata = Gcn.mdRow batch mdata := rfl

end Cert.Bridge

end
-- ==== Proof.BridgeMat.lean ====
/-
  The reference's dense host operations read at an index: a product of two matrices, a bias repeated as rows, and
  the array of zeros.

  Each of the reference's three `dot_general` operations contracts the second axis of its left operand with the first
  axis of its right operand and has no batch axis: it is the plain product of an `m × k` by a `k × n` matrix, and at the
  extended reals its entry `(a, b)` is the sum over the contracted coordinate `c` of `lhs (a, c) * rhs (c, b)`.
-/
import proofs.«178079_j40450001993771_1_alg».proof.Proof.Spec
import proofs.«178079_j40450001993771_1_alg».proof.Proof.RSpec
import Idealize.ShloMosaic.PureOps.Ideal.Laws
import Idealize.ShloMosaic.Lib.ValueIdx
import Idealize.ShloMosaic.Lib.StackMember
import Idealize.ShloMosaic.Lib.IdealHost
import Idealize.ShloMosaic.Lib.Pipeline.Value

noncomputable section

namespace Cert.Bridge

open Idealize.ShloMosaic Idealize.ShloMosaic.ValueIdx

/-- The layers' product record is the plain `50000 × 96` by `96 × 96` one. -/
theorem dotLayer_plain :
    ReferenceIdeal.dot_S50000x96_S96x96_S50000x96_1_0_0_1_n_n = DotDims.plain 50000 96 96 := rfl

/-- The metadata branch's product record is the plain `64 × 30` by `30 × 96` one. -/
theorem dotMd_plain :
    ReferenceIdeal.dot_S64x30_S30x96_S64x96_1_0_0_1_n_n = DotDims.plain 64 30 96 := rfl

/-- The head's product record is the plain `64 × 192` by `192 × 10` one. -/
theorem dotHead_plain :
    ReferenceIdeal.dot_S64x192_S192x10_S64x10_1_0_0_1_n_n = DotDims.plain 64 192 10 := rfl

/-- The layers' product at `(a, b)`. -/
theorem dotLayer_apply (x : GcnRef.RArr ReferenceIdeal.S50000x96) (w : GcnRef.RArr ReferenceIdeal.S96x96)
    (a : Fin 50000) (b : Fin 96) :
    Host.dotGeneral (F := Ideal) (φ₁ := .f32) (φ₂ := .f32) ReferenceIdeal.dot_S50000x96_S96x96_S50000x96_1_0_0_1_n_n none x w (ix2 a b)
      = ∑ c : Fin 96, x (ix2 a c) * w (ix2 c b) := by
  rw [dotLayer_plain]
  exact StackMember.dotGeneral_plain_apply none x w a b

/-- The metadata branch's product at `(a, b)`. -/
theorem dotMd_apply (x : GcnRef.RArr ReferenceIdeal.S64x30) (w : GcnRef.RArr ReferenceIdeal.S30x96)
    (a : Fin 64) (b : Fin 96) :
    Host.dotGeneral (F := Ideal) (φ₁ := .f32) (φ₂ := .f32) ReferenceIdeal.dot_S64x30_S30x96_S64x96_1_0_0_1_n_n none x w (ix2 a b)
      = ∑ c : Fin 30, x (ix2 a c) * w (ix2 c b) := by
  rw [dotMd_plain]
  exact StackMember.dotGeneral_plain_apply none x w a b

/-- The head's product at `(a, b)`. -/
theorem dotHead_apply (x : GcnRef.RArr ReferenceIdeal.S64x192) (w : GcnRef.RArr ReferenceIdeal.S192x10)
    (a : Fin 64) (b : Fin 10) :
    Host.dotGeneral (F := Ideal) (φ₁ := .f32) (φ₂ := .f32) ReferenceIdeal.dot_S64x192_S192x10_S64x10_1_0_0_1_n_n none x w (ix2 a b)
      = ∑ c : Fin 192, x (ix2 a c) * w (ix2 c b) := by
  rw [dotHead_plain]
  exact StackMember.dotGeneral_plain_apply none x w a b

/-- The layers' product is the matrix product of the specification. -/
theorem matProd_eq (x : GcnRef.RArr ReferenceIdeal.S50000x96) (w : GcnRef.RArr ReferenceIdeal.S96x96) :
    Host.dotGeneral (F := Ideal) (φ₁ := .f32) (φ₂ := .f32) ReferenceIdeal.dot_S50000x96_S96x96_S50000x96_1_0_0_1_n_n none x w
      = Gcn.matProd x w := by
  funext i
  obtain ⟨a, b, rfl⟩ : ∃ (a : Fin 50000) (b : Fin 96), i = ix2 a b := ⟨i 0, i 1, eq_ix2 i⟩
  rw [dotLayer_apply]
  rfl

/-! ## A bias as rows, and the array of zeros, read at an index -/

/-- A length-`n` vector made a row (its axis sent to axis `1` of `[1, n]`) reads, at `(u, q)`, the vector at `q`. -/
theorem rowOf_apply {α : Type} {n : Nat} (h : (⟨1, ![n]⟩ : Shape).BroadcastsInDim ⟨2, ![1, n]⟩ ![1])
    (b : (⟨1, ![n]⟩ : Shape).Idx → α) (u : Fin 1) (q : Fin n) :
    broadcastInDim ⟨2, ![1, n]⟩ ![1] h b (ix2 u q) = b (ix1 q) :=
  broadcastInDim_apply _ h b _ (ix1 q) (fun a => by
    match a with
    | ⟨0, _⟩ =>
      show q.val = if n = 1 then 0 else q.val
      split
      · omega
      · rfl)

/-- A one-row array repeated down `m` rows reads, at `(p, q)`, the row at `(0, q)`. -/
theorem rowsOf_apply {α : Type} {m n : Nat} (h : (⟨2, ![1, n]⟩ : Shape).BroadcastsInDim ⟨2, ![m, n]⟩ ![0, 1])
    (r : (⟨2, ![1, n]⟩ : Shape).Idx → α) (p : Fin m) (q : Fin n) :
    broadcastInDim ⟨2, ![m, n]⟩ ![0, 1] h r (ix2 p q) = r (ix2 (0 : Fin 1) q) :=
  broadcastInDim_apply _ h r _ (ix2 (0 : Fin 1) q) (fun a => by
    match a with
    | ⟨0, _⟩ => rfl
    | ⟨1, _⟩ =>
      show q.val = if n = 1 then 0 else q.val
      split
      · omega
      · rfl)

/-- The array of zeros a maximum is taken with reads `0` everywhere. -/
theorem zeros_apply {T : Shape} (h : (⟨0, ![]⟩ : Shape).BroadcastsInDim T ![]) (j : T.Idx) :
    broadcastInDim T ![] h (constant (F := Ideal) ⟨0, ![]⟩ .f32 0x00000000#32) j = (0 : EReal) := by
  rw [broadcastInDim_scalar_apply, constant_apply, Ideal.ofBits_zero_f32]

end Cert.Bridge

end
-- ==== Proof.BridgeClose.lean ====
/-
  A layer's close read at an index.

  The reference closes a layer with host operations on whole arrays: the aggregate plus the self-loop share, plus the
  bias (a length-96 vector made a row and the row repeated down the nodes), then the maximum with an array of zeros.
  At entry `(p, q)` that is `max ((agg (p, q) + self (p, q)) + b q) 0`, which is the specification's pointwise close
  with the bias read as a one-row array.
-/
import proofs.«178079_j40450001993771_1_alg».proof.Proof.BridgeGraph
import proofs.«178079_j40450001993771_1_alg».proof.Proof.BridgeMat
import Idealize.ShloMosaic.PureOps.Ideal.Laws
import Idealize.ShloMosaic.Lib.ValueIdx
import Idealize.ShloMosaic.Lib.ValueLayout
import Idealize.ShloMosaic.Lib.IdealHost
import Idealize.ShloMosaic.Lib.Pipeline.Value

noncomputable section

namespace Cert.Bridge

open Idealize.ShloMosaic Idealize.ShloMosaic.ValueIdx

/-- The close on any aggregate and self-loop share: the host operations are the pointwise close. -/
theorem close_eq (agg self : GcnRef.RArr ReferenceIdeal.S50000x96) (b : GcnRef.RArr ReferenceIdeal.S96) :
    GcnRef.relu (addf (F := Ideal) (addf (F := Ideal) agg self)
      (broadcastInDim ReferenceIdeal.S50000x96 ![0, 1] ReferenceIdeal.Facts₀.bcast_S1x96_S50000x96_0_1
        (broadcastInDim ReferenceIdeal.S1x96 ![1] ReferenceIdeal.Facts₀.bcast_S96_S1x96_1 b)))
      = Gcn.layerClose agg self (Gcn.biasRow96 b) := by
  funext i
  obtain ⟨p, q, rfl⟩ : ∃ (p : Fin 50000) (q : Fin 96), i = ix2 p q := ⟨i 0, i 1, eq_ix2 i⟩
  unfold GcnRef.relu Gcn.layerClose Gcn.biasRow96
  rw [maximumf_apply, addf_apply, addf_apply, zeros_apply, rowsOf_apply, rowOf_apply, shapeCast_a_1a_apply]

/-- One layer from the product `h`: the reference's host operations are the specification's close of the
    specification's aggregate and self-loop share. -/
theorem layerOf_eq (h : GcnRef.RArr ReferenceIdeal.S50000x96) (b : GcnRef.RArr ReferenceIdeal.S96)
    (ei : GcnRef.NArr ReferenceIdeal.S2x800000) (ea : GcnRef.RArr ReferenceIdeal.S800000) :
    GcnRef.layerOf h b ei ea
      = Gcn.layerClose (Gcn.aggregate h (Gcn.srcRow ei) (Gcn.dstRow ei) ea) (Gcn.selfLoop h (Gcn.dstRow ei) ea)
          (Gcn.biasRow96 b) := by
  unfold GcnRef.layerOf
  rw [close_eq, aggregate_eq, selfLoop_eq, srcRow_eq, dstRow_eq]

end Cert.Bridge

end
-- ==== Proof.BridgeHead.lean ====
/-
  The head read at an index.

  The reference multiplies the `64 × 192` array made of the pooled features and the metadata features side by side
  with the whole `192 × 10` matrix and adds the bias. Entry `(a, b)` of that product is a sum over the `192 = 96 + 96`
  columns; the first `96` terms read the pooled features against rows `0 … 95` of the matrix and the last `96` read the
  metadata features against rows `96 … 191`. A finite sum in an additive commutative monoid splits over such a
  partition of its index set, so the product is the sum of the two `96`-term products of the specification, whose two
  matrices are those two bands of rows. The metadata features are `max (md · wm + bm, 0)`, entry by entry.
-/
import proofs.«178079_j40450001993771_1_alg».proof.Proof.BridgeMat
import Idealize.ShloMosaic.Lib.ValueLayout

noncomputable section

namespace Cert.Bridge

open Idealize.ShloMosaic Idealize.ShloMosaic.ValueIdx

/-- A sum over `192` indices is the sum over the first `96` plus the sum over the last `96`. -/
theorem sum_split_192 {M : Type} [AddCommMonoid M] (f : Fin 192 → M) :
    ∑ c : Fin 192, f c
      = (∑ k : Fin 96, f ⟨k.val, by omega⟩) + ∑ k : Fin 96, f ⟨96 + k.val, by omega⟩ :=
  Fin.sum_univ_add (a := 96) (b := 96) f

/-- The two feature blocks side by side, read in the left block. -/
theorem concat_left (pool mdh : GcnRef.RArr ReferenceIdeal.S64x96) (a : Fin 64) (k : Fin 96) (c : Fin 192)
    (hc : c.val = k.val) :
    concatenate (α := Ideal .f32) ReferenceIdeal.S64x192 1 [⟨ReferenceIdeal.S64x96, pool⟩, ⟨ReferenceIdeal.S64x96, mdh⟩]
      ReferenceIdeal.Facts₀.concatenates_S64x96_S64x96_S64x192_d1 (ix2 a c) = pool (ix2 a k) :=
  concatenate_pair_apply_left (t := ReferenceIdeal.S64x192) (1 : Fin 2) pool mdh
    ReferenceIdeal.Facts₀.concatenates_S64x96_S64x96_S64x192_d1 (ix2 a c) rfl (ix2 a k) (fun b => by
    match b with
    | ⟨0, _⟩ => rfl
    | ⟨1, _⟩ => exact hc.symm)

/-- The two feature blocks side by side, read in the right block. -/
theorem concat_right (pool mdh : GcnRef.RArr ReferenceIdeal.S64x96) (a : Fin 64) (k : Fin 96) (c : Fin 192)
    (hc : c.val = 96 + k.val) :
    concatenate (α := Ideal .f32) ReferenceIdeal.S64x192 1 [⟨ReferenceIdeal.S64x96, pool⟩, ⟨ReferenceIdeal.S64x96, mdh⟩]
      ReferenceIdeal.Facts₀.concatenates_S64x96_S64x96_S64x192_d1 (ix2 a c) = mdh (ix2 a k) :=
  concatenate_pair_apply_right (t := ReferenceIdeal.S64x192) (1 : Fin 2) pool mdh
    ReferenceIdeal.Facts₀.concatenates_S64x96_S64x96_S64x192_d1 (ix2 a c) rfl rfl (ix2 a k) (fun b hb => by
    match b, hb with
    | ⟨0, _⟩, _ => rfl
    | ⟨1, _⟩, hb => exact absurd (Fin.ext rfl) hb)
    (by show k.val + 96 = c.val; omega)

/-- The metadata features at `(a, k)`. -/
theorem mdHidden_apply (md : GcnRef.RArr ReferenceIdeal.S64x30) (wm : GcnRef.RArr ReferenceIdeal.S30x96)
    (bm : GcnRef.RArr ReferenceIdeal.S96) (a : Fin 64) (k : Fin 96) :
    GcnRef.mdHidden md wm bm (ix2 a k)
      = max ((∑ l : Fin 30, md (ix2 a l) * wm (ix2 l k)) + bm (ix1 k)) 0 := by
  unfold GcnRef.mdHidden
  rw [maximumf_apply, addf_apply, zeros_apply, rowsOf_apply, rowOf_apply, dotMd_apply]

/-- The specification's head at `(a, b)`. -/
theorem head_apply (pool : Gcn.RArr KernelIdeal.S64x96) (md : Gcn.RArr KernelIdeal.S64x30) (wm : Gcn.RArr KernelIdeal.S30x96)
    (bm : Gcn.RArr KernelIdeal.S1x96) (wa wb : Gcn.RArr KernelIdeal.S96x10) (bf : Gcn.RArr KernelIdeal.S1x10)
    (a : Fin 64) (b : Fin 10) :
    Gcn.head pool md wm bm wa wb bf (ix2 a b)
      = ((∑ k : Fin 96, pool (ix2 a k) * wa (ix2 k b))
          + ∑ k : Fin 96, max ((∑ l : Fin 30, md (ix2 a l) * wm (ix2 l k)) + bm (ix2 (0 : Fin 1) k)) 0 * wb (ix2 k b))
        + bf (ix2 (0 : Fin 1) b) := rfl

/-- The head: the product with the whole matrix is the sum of the two products with its two bands of rows. -/
theorem head_eq (pool : GcnRef.RArr ReferenceIdeal.S64x96) (md : GcnRef.RArr ReferenceIdeal.S64x30)
    (wm : GcnRef.RArr ReferenceIdeal.S30x96) (bm : GcnRef.RArr ReferenceIdeal.S96)
    (wf : GcnRef.RArr ReferenceIdeal.S192x10) (bf : GcnRef.RArr ReferenceIdeal.S10) :
    GcnRef.headOf pool (GcnRef.mdHidden md wm bm) wf bf
      = Gcn.head pool md wm (Gcn.biasRow96 bm)
          (extractStridedSlice KernelIdeal.S96x10 ![0, 0] wf KernelIdeal.Facts₀.slices_S192x10_S96x10_0_0)
          (extractStridedSlice KernelIdeal.S96x10 ![96, 0] wf KernelIdeal.Facts₀.slices_S192x10_S96x10_96_0)
          (Gcn.biasRow10 bf) := by
  funext i
  obtain ⟨a, b, rfl⟩ : ∃ (a : Fin 64) (b : Fin 10), i = ix2 a b := ⟨i 0, i 1, eq_ix2 i⟩
  rw [head_apply]
  unfold GcnRef.headOf Gcn.biasRow96 Gcn.biasRow10
  rw [addf_apply, rowsOf_apply, rowOf_apply, dotHead_apply, sum_split_192, shapeCast_a_1a_apply]
  refine congrArg₂ (· + ·) (congrArg₂ (· + ·) (Finset.sum_congr rfl fun k _ => ?_) (Finset.sum_congr rfl fun k _ => ?_)) rfl
  · rw [concat_left pool _ a k _ rfl, slice2_axis0_apply 0 wf _ k b ⟨k.val, by omega⟩ (Nat.zero_add _).symm]
  · rw [concat_right pool _ a k _ rfl, mdHidden_apply, shapeCast_a_1a_apply,
      slice2_axis0_apply 96 wf _ k b ⟨96 + k.val, by omega⟩ rfl]

end Cert.Bridge

end
-- ==== Proof.Bridge.lean ====
/-
  The two arrangements of the network are one function of the thirteen arguments.

  The graph-side functions are the same on both sides; each product of the reference is the specification's matrix
  product; a layer's host close is the specification's pointwise close; the head's product with the whole
  `192 × 10` matrix is the sum of the two `96`-term products. Rewriting the reference's arrangement with these gives
  the specification's arrangement.
-/
import proofs.«178079_j40450001993771_1_alg».proof.Proof.BridgeGraph
import proofs.«178079_j40450001993771_1_alg».proof.Proof.BridgeMat
import proofs.«178079_j40450001993771_1_alg».proof.Proof.BridgeClose
import proofs.«178079_j40450001993771_1_alg».proof.Proof.BridgeHead

noncomputable section

namespace Cert.Bridge

open Idealize.ShloMosaic

/-- One graph-convolution layer with its ReLU. -/
theorem layer_eq (x : GcnRef.RArr ReferenceIdeal.S50000x96) (w : GcnRef.RArr ReferenceIdeal.S96x96)
    (b : GcnRef.RArr ReferenceIdeal.S96) (ei : GcnRef.NArr ReferenceIdeal.S2x800000)
    (ea : GcnRef.RArr ReferenceIdeal.S800000) :
    GcnRef.layer x w b ei ea = Gcn.layer x w b ei ea := by
  unfold GcnRef.layer Gcn.layer
  rw [layerOf_eq, matProd_eq]

/-- The whole network. -/
theorem net_eq (x : Cert.GcnRef.RArr Cert.ReferenceIdeal.S50000x96) (ei : Cert.GcnRef.NArr Cert.ReferenceIdeal.S2x800000)
    (ea : Cert.GcnRef.RArr Cert.ReferenceIdeal.S800000) (batch : Cert.GcnRef.NArr Cert.ReferenceIdeal.S50000)
    (mdata : Cert.GcnRef.RArr Cert.ReferenceIdeal.S64x30) (w1 : Cert.GcnRef.RArr Cert.ReferenceIdeal.S96x96)
    (b1 : Cert.GcnRef.RArr Cert.ReferenceIdeal.S96) (w2 : Cert.GcnRef.RArr Cert.ReferenceIdeal.S96x96)
    (b2 : Cert.GcnRef.RArr Cert.ReferenceIdeal.S96) (wm : Cert.GcnRef.RArr Cert.ReferenceIdeal.S30x96)
    (bm : Cert.GcnRef.RArr Cert.ReferenceIdeal.S96) (wf : Cert.GcnRef.RArr Cert.ReferenceIdeal.S192x10)
    (bf : Cert.GcnRef.RArr Cert.ReferenceIdeal.S10) :
    Cert.GcnRef.net x ei ea batch mdata w1 b1 w2 b2 wm bm wf bf
      = Cert.Gcn.net x ei ea batch mdata w1 b1 w2 b2 wm bm wf bf := by
  unfold GcnRef.net Gcn.net
  rw [head_eq, layer_eq, layer_eq, meanPool_eq, mdRow_eq]

end Cert.Bridge

end
-- ==== Proof.lean ====
/-
  A two-layer graph convolution network with a mean pool and a two-branch linear head: the kernel program (five
  tiled regions — two matrix products fed operands narrowed to half width, two pointwise closes
  `max (agg + self + bias, 0)`, one head — among host stretches that scatter and gather along the edge list) against
  the plain array program.

  Over the extended reals a change of float width is the identity and a tiled matrix product into a zero
  accumulator is the host's contraction, so both programs compute ONE function of the thirteen arguments
  (`Cert.Gcn.net`): the host stretches are the same operations on both sides; each region's output array is the
  whole-array function its blocks are restrictions of; and the head's one product of the concatenated
  `64 × 192` features with the whole `192 × 10` matrix is the sum of the two `96`-term products — a finite sum split
  in two, which needs no finiteness of the inputs. Hence the claims: both idealized programs run to the same
  result, every program leaves its arguments as launched, and the idealization rewrote nothing.
-/
import proofs.«178079_j40450001993771_1_alg».proof.Defs
import proofs.«178079_j40450001993771_1_alg».proof.Proof.Gen.Kernel
import proofs.«178079_j40450001993771_1_alg».proof.Proof.Gen.Kernel.Frame
import proofs.«178079_j40450001993771_1_alg».proof.Proof.Gen.KernelIdeal
import proofs.«178079_j40450001993771_1_alg».proof.Proof.Gen.KernelIdeal.Frame
import proofs.«178079_j40450001993771_1_alg».proof.Proof.Gen.ReferenceIdeal
import proofs.«178079_j40450001993771_1_alg».proof.Proof.Gen.Pre_finite_inputs
import proofs.«178079_j40450001993771_1_alg».proof.Proof.KRun
import proofs.«178079_j40450001993771_1_alg».proof.Proof.KChain
import proofs.«178079_j40450001993771_1_alg».proof.Proof.RVal
import proofs.«178079_j40450001993771_1_alg».proof.Proof.Bridge
import Idealize.ShloMosaic.Adequacy
import Idealize.ShloMosaic.Init

noncomputable section

namespace Cert.Proof

open Idealize.ShloMosaic Idealize.ShloMosaic.TcCoe Idealize.SL.Sem

/-- The word-level kernel program runs and leaves its arguments as launched. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run with the result dropped. -/
theorem frame_referenceIdeal : Cert.frame_ReferenceIdeal := fun m ρ _ =>
  (θ_run Cert.ReferenceIdeal.defs _ _).mono (fun _ h c => (h c).2) (Cert.RefSide.run m ρ)

/-- The idealization rewrote no operation. -/
theorem preserves : Cert.preserves_Kernel_KernelIdeal := trivial

/-- Both idealized programs end with the network's function of the (agreeing) arguments in their result arrays. -/
theorem algebraic : Cert.algebraic_KernelIdeal_ReferenceIdeal := by
  intro m ρ m' ρ' _ hagree
  refine ⟨fun c => Cert.Gcn.net (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12)), ?_, ?_⟩
  · exact (θ_run Cert.KernelIdeal.defs _ _).mono
      (fun r h c => ⟨(h c).1.trans (Cert.KChain.result m ρ c), (h c).2⟩) (Cert.KRun.run (F := Ideal) m ρ)
  · refine (θ_run Cert.ReferenceIdeal.defs _ _).mono (fun r h c => ⟨(h c).1.trans ?_, (h c).2⟩)
      (Cert.RefSide.run m' ρ')
    rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2]
    exact Cert.Bridge.net_eq _ _ _ _ _ _ _ _ _ _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
